-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S8192x2048 : Shape := ⟨2, ![8192, 2048]⟩
abbrev S2048x8192 : Shape := ⟨2, ![2048, 8192]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn {F : FTy → Type} [FloatOps F] (main_arg0 : FVec F S4x2048x2048 .f32) (main_arg1 : FVec F S8192x2048 .f32) (main_arg2 : FVec F S2048x8192 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x8192 .f32 := Host.absf main_arg2
  let main_cst_2 : FVec F S_ .f32 := constant S_ .f32 0x7F800000#32
  let main_v10 : FVec F S2048x8192 .f32 := broadcastInDim S2048x8192 ![] bcast_S_S2048x8192 main_cst_2
  let main_v11 : IVec S2048x8192 1 := cmpf .olt main_v9 main_v10
  let main_c_3 : IVec S_ 1 := constantI S_ 1 1#1
  let main_v12 : IVec S_ 1 := (fun x v => Host.reduce IntOp.andi x v reducesTo_S2048x8192_S_d0_1 h_S_) main_v11 main_c_3
  let main_v13 : IVec S_ 1 := andi main_v8 main_v12
  main_v13
-- ==== Kernel.lean ====
abbrev S4x2048x2048 : Shape := ⟨3, ![4, 2048, 2048]⟩
abbrev S8192x2048 : Shape := ⟨2, ![8192, 2048]⟩
abbrev S2048x8192 : Shape := ⟨2, ![2048, 8192]⟩
abbrev S_ : Shape := ⟨0, ![]⟩
abbrev S8192x8192 : Shape := ⟨2, ![8192, 8192]⟩
abbrev S8192x1 : Shape := ⟨2, ![8192, 1]⟩
abbrev S512x2048 : Shape := ⟨2, ![512, 2048]⟩
abbrev S1024x2048 : Shape := ⟨2, ![1024, 2048]⟩
abbrev S512x1024 : Shape := ⟨2, ![512, 1024]⟩
abbrev S512x1 : Shape := ⟨2, ![512, 1]⟩
abbrev S512 : Shape := ⟨1, ![512]⟩
abbrev S2048x1024 : Shape := ⟨2, ![2048, 1024]⟩

abbrev nBuf : Space → Nat
  | .hbm => 56
  | .vmem => 18
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S2048x8192, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .bf16⟩
  | .hbm, ⟨28, _⟩ => ⟨S2048x8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S2048x8192, .f32⟩
  | .hbm, ⟨39, _⟩ => ⟨S2048x8192, .f32⟩
  | .hbm, ⟨40, _⟩ => ⟨S2048x8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048x8192, .f32⟩
  | .hbm, ⟨45, _⟩ => ⟨S2048x8192, .f32⟩
  | .hbm, ⟨46, _⟩ => ⟨S_, .f32⟩
  | .hbm, ⟨47, _⟩ => ⟨S2048x8192, .f32⟩
  | .hbm, ⟨48, _⟩ => ⟨S2048x8192, .f32⟩
  | .hbm, ⟨49, _⟩ => ⟨S2048x8192, .f32⟩
  | .hbm, ⟨50, _⟩ => ⟨S2048x8192, .f32⟩
  | .hbm, ⟨51, _⟩ => ⟨S2048x8192, .bf16⟩
  | .hbm, ⟨52, _⟩ => ⟨S8192x8192, .bf16⟩
  | .hbm, ⟨53, _⟩ => ⟨S8192x1, .f32⟩
  | .hbm, ⟨54, _⟩ => ⟨S8192x2048, .f32⟩
  | .hbm, ⟨55, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S1024x2048, .bf16⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1024, .bf16⟩
  | .local _ .vmem, ⟨10, _⟩ => ⟨S512x1024, .bf16⟩
  | .local _ .vmem, ⟨11, _⟩ => ⟨S512x1, .f32⟩
  | .local _ .vmem, ⟨12, _⟩ => ⟨S512x1, .f32⟩
  | .local _ .vmem, ⟨13, _⟩ => ⟨S2048x1024, .bf16⟩
  | .local _ .vmem, ⟨14, _⟩ => ⟨S2048x1024, .bf16⟩
  | .local _ .vmem, ⟨15, _⟩ => ⟨S512x2048, .f32⟩
  | .local _ .vmem, ⟨16, _⟩ => ⟨S512x2048, .f32⟩
  | .local _ .vmem, ⟨17, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_call0_v0 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_cst_4 : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_cst_7 : Ref sig .tc := ⟨.hbm, 33, rfl⟩
abbrev main_call3_v0 : Ref sig .tc := ⟨.hbm, 34, rfl⟩
abbrev main_v16 : Ref sig .tc := ⟨.hbm, 35, rfl⟩
abbrev main_cst_8 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_9 : Ref sig .tc := ⟨.hbm, 41, rfl⟩
abbrev main_cst_10 : Ref sig .tc := ⟨.hbm, 42, rfl⟩
abbrev main_call5_v0 : Ref sig .tc := ⟨.hbm, 43, rfl⟩
abbrev main_call5_v1 : Ref sig .tc := ⟨.hbm, 44, rfl⟩
abbrev main_call5_v2 : Ref sig .tc := ⟨.hbm, 45, rfl⟩
abbrev main_call5_v3 : Ref sig .tc := ⟨.hbm, 46, rfl⟩
abbrev main_call5_v4 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25_0 : Ref sig .tc := ⟨.hbm, 52, rfl⟩
abbrev main_v25_1 : Ref sig .tc := ⟨.hbm, 53, rfl⟩
abbrev main_v26 : Ref sig .tc := ⟨.hbm, 54, rfl⟩
abbrev main_v27 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v36 : BitVec 1 := Scalar.cmpi .eq arg1 c7_i32
  let v37 : BitVec 32 := Scalar.extui v36
  let c0_i32_17 : BitVec 32 := 0#32
  let v38 : BitVec 1 := Scalar.cmpi .ne v37 c0_i32_17
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_14 : BitVec 32 := 0#32
  let v32 : BitVec 1 := Scalar.cmpi .ne v31 c0_i32_14
  v32

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S4x2048x2048_S8192x2048 : S4x2048x2048.ShapeCasts S8192x2048
  reducesTo_S8192x2048_S_d0_1 : S8192x2048.ReducesTo [0, 1] S_
  h_S_ : 0 < S_.numel
  bcast_S_S8192x2048 : S_.BroadcastsInDim S8192x2048 (![] : Fin 0 → Fin S8192x2048.rank)
  bitsLt_bf16_f32 : FTy.bits .bf16 < FTy.bits .f32
  reducesTo_S2048x8192_S_d0_1 : S2048x8192.ReducesTo [0, 1] S_
  bcast_S_S2048x8192 : S_.BroadcastsInDim S2048x8192 (![] : Fin 0 → Fin S2048x8192.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  reduces_S512x1024_S512 : S512x1024.Reduces [1] S512
  inb_S512x1024_S512x1024_0_0 : ∀ a, (![0, 0] : Fin 2 → Nat) a + S512x1024.size a ≤ S512x1024.size a
  h_S512x1024 : 0 < S512x1024.numel
  packedbf16_S512x1024_S512x1024_0_0 : (Rect.unit (s := S512x1024) ![0, 0] S512x1024.size inb_S512x1024_S512x1024_0_0).PackedRows (EltTy.packing .bf16)
  shapeCasts_S512x1024_S512x1024 : S512x1024.ShapeCasts S512x1024
  broadcasts_S512x1_S512x1024 : S512x1.Broadcasts S512x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S8192x2048_S4x2048x2048 : S8192x2048.ShapeCasts S4x2048x2048
  dot_S512x2048_S1024x2048_S512x1024_1_1_0_0_n_n_wf : DotDims.WF S512x2048 S1024x2048 S512x1024 [1] [1] [0] [0] [] []
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x2048.size a
  hwx0_1 : ∀ i : grid0.Coords, EltTy.bits .bf16 = 32 ∨ (Rect.block (s := S8192x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x8192.size a
  hwx0_2 : ∀ i : grid0.Coords, EltTy.bits .bf16 = 32 ∨ (Rect.block (s := S8192x8192) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x8192.size a
  hwx1_0 : ∀ i : grid1.Coords, EltTy.bits .bf16 = 32 ∨ (Rect.block (s := S8192x8192) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S8192x1.size a
  hwx1_1 : ∀ i : grid1.Coords, EltTy.bits .f32 = 32 ∨ (Rect.block (s := S8192x1) S512x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S2048x8192.size a
  hwx1_2 : ∀ i : grid1.Coords, EltTy.bits .bf16 = 32 ∨ (Rect.block (s := S2048x8192) S2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S8192x2048.size a
  hwx1_3 : ∀ i : grid1.Coords, EltTy.bits .f32 = 32 ∨ (Rect.block (s := S8192x2048) S512x2048.size (cc1_transform_3 i) (hinb1_3 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25_1) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v25_0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25_1) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S8192x2048 : Shape := ⟨2, ![8192, 2048]⟩
abbrev S2048x8192 : Shape := ⟨2, ![2048, 8192]⟩
abbrev S_ : Shape := ⟨0, ![]⟩
abbrev S4x2048 : Shape := ⟨2, ![4, 2048]⟩
abbrev S4x2048x1 : Shape := ⟨3, ![4, 2048, 1]⟩
abbrev S4x2048x8192 : Shape := ⟨3, ![4, 2048, 8192]⟩

abbrev nBuf : Space → Nat
  | .hbm => 110
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S2048x8192, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4x2048x2048, .f32⟩
  | .hbm, ⟨21, _⟩ => ⟨S4x2048x2048, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S8192x2048, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S4x2048x8192, .f32⟩
  | .hbm, ⟨55, _⟩ => ⟨S_, .f32⟩
  | .hbm, ⟨56, _⟩ => ⟨S4x2048x8192, .f32⟩
  | .hbm, ⟨57, _⟩ => ⟨S4x2048x8192, .f32⟩
  | .hbm, ⟨58, _⟩ => ⟨S4x2048x8192, .f32⟩
  | .hbm, ⟨59, _⟩ => ⟨S_, .f32⟩
  | .hbm, ⟨60, _⟩ => ⟨S4x2048, .f32⟩
  | .hbm, ⟨61, _⟩ => ⟨S4x2048x1, .f32⟩
  | .hbm, ⟨62, _⟩ => ⟨S_, .f32⟩
  | .hbm, ⟨63, _⟩ => ⟨S_, .f32⟩
  | .hbm, ⟨64, _⟩ => ⟨S4x2048x1, .f32⟩
  | .hbm, ⟨65, _⟩ => ⟨S4x2048x1, .f32⟩
  | .hbm, ⟨66, _⟩ => ⟨S_, .f32⟩
  | .hbm, ⟨67, _⟩ => ⟨S4x2048x1, .f32⟩
  | .hbm, ⟨68, _⟩ => ⟨S4x2048x1, .f32⟩
  | .hbm, ⟨69, _⟩ => ⟨S4x2048x8192, .f32⟩
  | .hbm, ⟨70, _⟩ => ⟨S4x2048x8192, .f32⟩
  | .hbm, ⟨71, _⟩ => ⟨S4x2048x8192, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S4x2048x8192, .f32⟩
  | .hbm, ⟨76, _⟩ => ⟨S4x2048x8192, .f32⟩
  | .hbm, ⟨77, _⟩ => ⟨S_, .f32⟩
  | .hbm, ⟨78, _⟩ => ⟨S4x2048x8192, .f32⟩
  | .hbm, ⟨79, _⟩ => ⟨S4x2048x8192, .f32⟩
  | .hbm, ⟨80, _⟩ => ⟨S4x2048x8192, .f32⟩
  | .hbm, ⟨81, _⟩ => ⟨S4x2048x8192, .f32⟩
  | .hbm, ⟨82, _⟩ => ⟨S4x2048x8192, .f32⟩
  | .hbm, ⟨83, _⟩ => ⟨S4x2048x8192, .f32⟩
  | .hbm, ⟨84, _⟩ => ⟨S2048x8192, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S2048x8192, .f32⟩
  | .hbm, ⟨95, _⟩ => ⟨S2048x8192, .f32⟩
  | .hbm, ⟨96, _⟩ => ⟨S2048x8192, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S2048x8192, .f32⟩
  | .hbm, ⟨101, _⟩ => ⟨S2048x8192, .f32⟩
  | .hbm, ⟨102, _⟩ => ⟨S_, .f32⟩
  | .hbm, ⟨103, _⟩ => ⟨S2048x8192, .f32⟩
  | .hbm, ⟨104, _⟩ => ⟨S2048x8192, .f32⟩
  | .hbm, ⟨105, _⟩ => ⟨S2048x8192, .f32⟩
  | .hbm, ⟨106, _⟩ => ⟨S2048x8192, .f32⟩
  | .hbm, ⟨107, _⟩ => ⟨S2048x8192, .f32⟩
  | .hbm, ⟨108, _⟩ => ⟨S2048x8192, .f32⟩
  | .hbm, ⟨109, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_cst_3 : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_cst_6 : Ref sig .tc := ⟨.hbm, 34, rfl⟩
abbrev main_call3_v0 : Ref sig .tc := ⟨.hbm, 35, rfl⟩
abbrev main_v17 : Ref sig .tc := ⟨.hbm, 36, rfl⟩
abbrev main_cst_7 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_8 : Ref sig .tc := ⟨.hbm, 42, rfl⟩
abbrev main_cst_9 : Ref sig .tc := ⟨.hbm, 43, rfl⟩
abbrev main_call5_v0 : Ref sig .tc := ⟨.hbm, 44, rfl⟩
abbrev main_call5_v1 : Ref sig .tc := ⟨.hbm, 45, rfl⟩
abbrev main_call5_v2 : Ref sig .tc := ⟨.hbm, 46, rfl⟩
abbrev main_call5_v3 : Ref sig .tc := ⟨.hbm, 47, rfl⟩
abbrev main_call5_v4 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_call6_cst : Ref sig .tc := ⟨.hbm, 55, rfl⟩
abbrev main_call6_v0 : Ref sig .tc := ⟨.hbm, 56, rfl⟩
abbrev main_v28 : Ref sig .tc := ⟨.hbm, 57, rfl⟩
abbrev main_v29 : Ref sig .tc := ⟨.hbm, 58, rfl⟩
abbrev main_cst_10 : Ref sig .tc := ⟨.hbm, 59, rfl⟩
abbrev main_v30 : Ref sig .tc := ⟨.hbm, 60, rfl⟩
abbrev main_v31 : Ref sig .tc := ⟨.hbm, 61, rfl⟩
abbrev main_cst_11 : Ref sig .tc := ⟨.hbm, 62, rfl⟩
abbrev main_call7_v0 : Ref sig .tc := ⟨.hbm, 63, rfl⟩
abbrev main_call7_v1 : Ref sig .tc := ⟨.hbm, 64, rfl⟩
abbrev main_v32 : Ref sig .tc := ⟨.hbm, 65, rfl⟩
abbrev main_cst_12 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_13 : Ref sig .tc := ⟨.hbm, 72, rfl⟩
abbrev main_cst_14 : Ref sig .tc := ⟨.hbm, 73, rfl⟩
abbrev main_call9_v0 : Ref sig .tc := ⟨.hbm, 74, rfl⟩
abbrev main_call9_v1 : Ref sig .tc := ⟨.hbm, 75, rfl⟩
abbrev main_call9_v2 : Ref sig .tc := ⟨.hbm, 76, rfl⟩
abbrev main_call9_v3 : Ref sig .tc := ⟨.hbm, 77, rfl⟩
abbrev main_call9_v4 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_cst_15 : Ref sig .tc := ⟨.hbm, 85, rfl⟩
abbrev main_v44 : Ref sig .tc := ⟨.hbm, 86, rfl⟩
abbrev main_cst_16 : Ref sig .tc := ⟨.hbm, 87, rfl⟩
abbrev main_v45 : Ref sig .tc := ⟨.hbm, 88, rfl⟩
abbrev main_cst_17 : Ref sig .tc := ⟨.hbm, 89, rfl⟩
abbrev main_call10_v0 : Ref sig .tc := ⟨.hbm, 90, rfl⟩
abbrev main_v46 : Ref sig .tc := ⟨.hbm, 91, rfl⟩
abbrev main_cst_18 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_cst_19 : Ref sig .tc := ⟨.hbm, 97, rfl⟩
abbrev main_cst_20 : Ref sig .tc := ⟨.hbm, 98, rfl⟩
abbrev main_call12_v0 : Ref sig .tc := ⟨.hbm, 99, rfl⟩
abbrev main_call12_v1 : Ref sig .tc := ⟨.hbm, 100, rfl⟩
abbrev main_call12_v2 : Ref sig .tc := ⟨.hbm, 101, rfl⟩
abbrev main_call12_v3 : Ref sig .tc := ⟨.hbm, 102, rfl⟩
abbrev main_call12_v4 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩

abbrev nD : Nat := 1
abbrev τ : Topo := Topo.v7x

variable {F : FTy → Type} [FloatOps F]

class Facts₀ : Prop where
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S_S4x2048x2048 : S_.BroadcastsInDim S4x2048x2048 (![] : Fin 0 → Fin S4x2048x2048.rank)
  reducesTo_S8192x2048_S_d0_1 : S8192x2048.ReducesTo [0, 1] S_
  bcast_S_S8192x2048 : S_.BroadcastsInDim S8192x2048 (![] : Fin 0 → Fin S8192x2048.rank)
  bcast_S_S4x2048x8192 : S_.BroadcastsInDim S4x2048x8192 (![] : Fin 0 → Fin S4x2048x8192.rank)
  reducesTo_S4x2048x8192_S4x2048_d2 : S4x2048x8192.ReducesTo [2] S4x2048
  bcast_S4x2048x1_S4x2048x8192_0_1_2 : S4x2048x1.BroadcastsInDim S4x2048x8192 (![0, 1, 2] : Fin 3 → Fin S4x2048x8192.rank)
  reducesTo_S2048x8192_S_d0_1 : S2048x8192.ReducesTo [0, 1] S_
  bcast_S_S2048x8192 : S_.BroadcastsInDim S2048x8192 (![] : Fin 0 → Fin S2048x8192.rank)
  dot_S4x2048x2048_S8192x2048_S4x2048x8192_2_1_01_0_n_n_wf : DotDims.WF S4x2048x2048 S8192x2048 S4x2048x8192 [2] [1] [0, 1] [0] [] []
  dot_S4x2048x8192_S2048x8192_S4x2048x2048_2_1_01_0_n_n_wf : DotDims.WF S4x2048x8192 S2048x8192 S4x2048x2048 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf
def dot_S4x2048x8192_S2048x8192_S4x2048x2048_2_1_01_0_n_n : DotDims S4x2048x8192 S2048x8192 S4x2048x2048 where
  lhsContracting := [2]
  rhsContracting := [1]
  lhsNonContracting := [0, 1]
  rhsNonContracting := [0]
  lhsBatch := []
  rhsBatch := []
  wf := dot_S4x2048x8192_S2048x8192_S4x2048x2048_2_1_01_0_n_n_wf

class Facts : Prop extends Facts₀ where

variable [Facts]
-- ==== Proof.KData.lean ====
/-
  The two kernels' proof data: what every window and the carried scratch hold after each grid point.
-/
import proofs.«126096_j50276887167090_1_alg».proof.Proof.Gen.Kernel.Launch
import proofs.«126096_j50276887167090_1_alg».proof.Proof.Gen.Kernel.Skeleton
import proofs.«126096_j50276887167090_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-
  What each of the two pipelined kernels leaves, point by point, stated over the contents `V` the region finds in
  the TensorCore's buffers.  Both kernels run on a 16 × 8 grid whose second axis walks the contracted (layer 2) or
  the output-column (layer 1) blocks of one row block; a scratch buffer is reset at the first of the eight points,
  updated at every point, and copied into an output window at the last.
-/

variable (V : (c : Dev nD) → (b : Ref sig .tc) → Buf (Elt F) ((c : Thread nD τ).loc b))

/-! ## Layer 1 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running row maximum after point `n`: started from zero at the first point of a row block, else from what the
    point before left. -/
def acc0 (c : Dev nD) : (n : ℕ) → n < cfg0.N → Vec F S512x1 .f32
  | 0, hn => k0_pay3 (iblk0 V c 0 ⟨0, hn⟩) (iblk0 V c 1 ⟨0, hn⟩) (k0_pay1 (F := F))
  | n + 1, hn =>
    if (n + 1) % 8 = 0 then k0_pay3 (iblk0 V c 0 ⟨n + 1, hn⟩) (iblk0 V c 1 ⟨n + 1, hn⟩) (k0_pay1 (F := F))
    else k0_pay3 (iblk0 V c 0 ⟨n + 1, hn⟩) (iblk0 V c 1 ⟨n + 1, hn⟩) (acc0 c n (Nat.lt_of_succ_lt hn))

theorem acc0_first (c : Dev nD) (t : Fin cfg0.N) (h : t.val % 8 = 0) :
    acc0 V c t.val t.isLt = k0_pay3 (iblk0 V c 0 t) (iblk0 V c 1 t) (k0_pay1 (F := F)) := by
  obtain ⟨n, hn⟩ := t
  cases n with
  | zero => rfl
  | succ n => exact if_pos h

theorem acc0_next (c : Dev nD) (t : Fin cfg0.N) (h : ¬ t.val % 8 = 0) :
    acc0 V c t.val t.isLt = k0_pay3 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h
  | succ n => exact if_neg h

/-- The scratch operand of layer 1 and the scoped buffers beside it that no window of layer 1 stages. -/
abbrev scM0 : Memref sig .tc .vmem S512x1 .f32 := Memref.whole cc0_scratch0

def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class invariant with the scratch operand as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; rfl

/-- The region invariant before position `n`: before the first point the class's; afterwards the scratch at the running
    maximum the point before left, the other scoped buffers at anything, the generator register at some state. -/
def Phi0 (c : Dev nD) : (n : ℕ) → n ≤ cfg0.N → sProp 𝕄
  | 0, _ => Pipeline.ΦA spec0 c
  | n + 1, hn => iprop(iprop(owns (c : Thread nD τ) scM0 fullShare (acc0 V c n hn) ∗ rest0 (F := F) c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) scM0 fullShare (acc0 V c n hn) ∗ rest0 (F := F) c) ∗ (∃ r, prngReg c r)) := rfl

theorem Phi0_pos (c : Dev nD) (n : ℕ) (h : n ≤ cfg0.N) (hz : n ≠ 0) :
    Phi0 V c n h = iprop(iprop(owns (c : Thread nD τ) scM0 fullShare (acc0 V c (n - 1) (by omega)) ∗ rest0 (F := F) c) ∗ (∃ r, prngReg c r)) := by
  cases n with
  | zero => exact absurd rfl hz
  | succ n => rfl

/-- The proof data of layer 1 on core `c`: the arrays as the region finds them; after the body at point `t` each input's
    buffer at its block, the hidden block at the body's product of the two input blocks, the row-maximum window at the
    running maximum; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay4 (iblk0 V c 0 t) (iblk0 V c 1 t)
    | ⟨3, _⟩ => acc0 V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay4 (iblk0 V c 0 t) (iblk0 V c 1 t) := by dsimp only [dat0]
theorem after0_3 (c : Dev nD) (t : Fin cfg0.N) : (dat0 V c).after 3 t = acc0 V c t.val t.isLt := by dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

/-! ## Layer 2 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running sum of the block products after point `n`: started from zero at the first point of a row block. -/
def acc1 (c : Dev nD) : (n : ℕ) → n < cfg1.N → Vec F S512x2048 .f32
  | 0, hn => k1_pay2 (iblk1 V c 0 ⟨0, hn⟩) (iblk1 V c 1 ⟨0, hn⟩) (iblk1 V c 2 ⟨0, hn⟩) (k1_pay1 (F := F))
  | n + 1, hn =>
    if (n + 1) % 8 = 0 then k1_pay2 (iblk1 V c 0 ⟨n + 1, hn⟩) (iblk1 V c 1 ⟨n + 1, hn⟩) (iblk1 V c 2 ⟨n + 1, hn⟩) (k1_pay1 (F := F))
    else k1_pay2 (iblk1 V c 0 ⟨n + 1, hn⟩) (iblk1 V c 1 ⟨n + 1, hn⟩) (iblk1 V c 2 ⟨n + 1, hn⟩) (acc1 c n (Nat.lt_of_succ_lt hn))

theorem acc1_first (c : Dev nD) (t : Fin cfg1.N) (h : t.val % 8 = 0) :
    acc1 V c t.val t.isLt = k1_pay2 (iblk1 V c 0 t) (iblk1 V c 1 t) (iblk1 V c 2 t) (k1_pay1 (F := F)) := by
  obtain ⟨n, hn⟩ := t
  cases n with
  | zero => rfl
  | succ n => exact if_pos h

theorem acc1_next (c : Dev nD) (t : Fin cfg1.N) (h : ¬ t.val % 8 = 0) :
    acc1 V c t.val t.isLt = k1_pay2 (iblk1 V c 0 t) (iblk1 V c 1 t) (iblk1 V c 2 t) (acc1 V c (t.val - 1) (Nat.lt_of_le_of_lt (Nat.sub_le _ _) t.isLt)) := by
  obtain ⟨n, hn⟩ := t
  cases n with
  | zero => exact absurd (Nat.zero_mod _) h
  | succ n => exact if_neg h

abbrev scM1 : Memref sig .tc .vmem S512x2048 .f32 := Memref.whole cc1_scratch0

def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The scoped buffers layer 2 does not stage, its scratch operand (the last of them, in the launch's order) at `X`. -/
def pre1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ X)

theorem PhiA1_eq (c : Dev nD) :
    (Pipeline.ΦA spec1 c : sProp 𝕄)
      = iprop(pre1 (F := F) c iprop(∃ d, owns (c : Thread nD τ) scM1 fullShare d) ∗ (∃ r, prngReg c r)) := by
  unfold Pipeline.ΦA pre1; rw [scopedRest1_eq]; simp only [scM1, owns_whole]; rfl

def Phi1 (c : Dev nD) : (n : ℕ) → n ≤ cfg1.N → sProp 𝕄
  | 0, _ => Pipeline.ΦA spec1 c
  | n + 1, hn => iprop(pre1 (F := F) c (owns (c : Thread nD τ) scM1 fullShare (acc1 V c n hn)) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(pre1 (F := F) c (owns (c : Thread nD τ) scM1 fullShare (acc1 V c n hn)) ∗ (∃ r, prngReg c r)) := rfl

theorem Phi1_pos (c : Dev nD) (n : ℕ) (h : n ≤ cfg1.N) (hz : n ≠ 0) :
    Phi1 V c n h = iprop(pre1 (F := F) c (owns (c : Thread nD τ) scM1 fullShare (acc1 V c (n - 1) (by omega))) ∗ (∃ r, prngReg c r)) := by
  cases n with
  | zero => exact absurd rfl hz
  | succ n => rfl

/-- The proof data of layer 2 on core `c`: the arrays as the region finds them; after the body at point `t` each input's
    buffer at its block and the output window at the running sum; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = acc1 V c t.val t.isLt := by dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

end Cert.Kernel.Hand

end
-- ==== Proof.KBody0.lean ====
import proofs.«126096_j50276887167090_1_alg».proof.Proof.KData
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Layer 1's body, case by case

The body branches twice on the second grid coordinate: the scratch is reset where it is 0, and copied into the
row-maximum window where it is 7.  Three cases meet the grid: the first point of a row block, the six middle
points, the last point. -/

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

theorem zero_off : (![0, 0] : Fin 2 → ℕ) = fun _ => 0 := funext fun a => by fin_cases a <;> rfl

/-- A store through the whole-buffer rectangle, last in a list of stores, covers the buffer. -/
theorem cover_head {S : Shape} {e : EltTy} {Val : EltTy → Type} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set := by
  subst h
  exact ⟨_, List.mem_cons_self .., by show y ∈ (Rect.whole S).set; rw [Rect.set_whole]; exact Finset.mem_univ y⟩

set_option maxHeartbeats 2000000 in
/-- The first point of a row block: the scratch is zeroed, then holds the block's row maxima against zero. -/
theorem sound_kernel0_A (c : Dev nD) (E : Set ℕ) (i : grid0.Coords)
    (arg2 : Memref sig .tc .vmem S512x2048 .f32) (harg2 : arg2.IsWhole) (arg3 : Memref sig .tc .vmem S1024x2048 .bf16) (harg3 : arg3.IsWhole)
    (arg4 : Memref sig .tc .vmem S512x1024 .bf16) (harg4 : arg4.IsWhole) (arg5 : Memref sig .tc .vmem S512x1 .f32) (harg5 : arg5.IsWhole)
    (arg6 : Memref sig .tc .vmem S512x1 .f32) (harg6 : arg6.IsWhole)
    (hc0 : cond0_0 i) (hc1 : ¬ cond0_1 i)
    (x0 : Vec F S512x2048 .f32) (x1 : Vec F S1024x2048 .bf16) (xi : Vec F S512x1 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xi ∗ (∃ d, owns (c : Thread nD τ) arg6 fullShare d)
        ∗ (iprop(owns (c : Thread nD τ) arg2 fullShare x0 ∗ owns (c : Thread nD τ) arg3 fullShare x1 ∗ owns (c : Thread nD τ) arg4 fullShare (k0_pay4 x0 x1)
            ∗ owns (c : Thread nD τ) arg5 fullShare xi ∗ owns (c : Thread nD τ) arg6 fullShare (k0_pay3 x0 x1 (k0_pay1 (F := F)))) -∗ K ⟨⟩))
      ⊢ wp frame (wpE (defs₀ (F := F)) Variants.none c none) E (cc0__layer1_kernel i arg2 harg2 arg3 harg3 arg4 harg4 arg5 harg5 arg6 harg6) K := by
  simp only [cc0__layer1_kernel_eq_skeleton]; unfold cc0__layer1_kernel_skel
  unfold owns
  iintro ⟨⟨%f0, %hf0, H0⟩, ⟨%f1, %hf1, H1⟩, ⟨%d4, %f4, -, H4⟩, ⟨%f5, %hf5, H5⟩, ⟨%d6, %f6, -, H6⟩, Hk⟩
  obtain rfl := harg2.eq_unread hf0; obtain rfl := harg3.eq_unread hf1; obtain rfl := harg5.eq_unread hf5
  sl_exec (disch := first | exact hc0 | exact hc1)
  sl_step
  iapply Hk
  have hz := zero_off
  isplitl [H0]
  · iexists _; isplitr; · ipureintro; exact hf0
    iexact H0
  isplitl [H1]
  · iexists _; isplitr; · ipureintro; exact hf1
    iexact H1
  isplitl [H4]
  · iexists _; isplitr
    swap; · iexact H4
    ipureintro
    try sl_unfold_run_names
    rw [View.read_writes_eq_canon _ _ _ (cover_head hz _ _ _), View.canon_cons_unit_zero hz]
    simp only [View.readAt_eq_ld, hf0, hf1, View.ld_unit_zero (S := S512x2048) hz, View.ld_unit_zero (S := S1024x2048) hz]
  isplitl [H5]
  · iexists _; isplitr; · ipureintro; exact hf5
    iexact H5
  iexists _; isplitr
  swap; · iexact H6
  ipureintro
  try sl_unfold_run_names
  rw [View.read_writes_eq_canon _ _ _ (cover_head hz _ _ _), View.canon_cons_unit_zero hz]
  simp only [View.readAt_eq_ld, hf0, hf1, View.ld_unit_zero (S := S512x2048) hz, View.ld_unit_zero (S := S1024x2048) hz,
    View.ld_unit_zero (S := S512x1) hz]
  exact congrArg (k0_pay3 x0 x1) (View.readCov_unit_zero (S := S512x1) arg6.view hz _ _)

set_option maxHeartbeats 2000000 in
/-- A middle point: the scratch goes from what the point before left to its maximum with the block's row maxima. -/
theorem sound_kernel0_B (c : Dev nD) (E : Set ℕ) (i : grid0.Coords)
    (arg2 : Memref sig .tc .vmem S512x2048 .f32) (harg2 : arg2.IsWhole) (arg3 : Memref sig .tc .vmem S1024x2048 .bf16) (harg3 : arg3.IsWhole)
    (arg4 : Memref sig .tc .vmem S512x1024 .bf16) (harg4 : arg4.IsWhole) (arg5 : Memref sig .tc .vmem S512x1 .f32) (harg5 : arg5.IsWhole)
    (arg6 : Memref sig .tc .vmem S512x1 .f32) (harg6 : arg6.IsWhole)
    (hc0 : ¬ cond0_0 i) (hc1 : ¬ cond0_1 i)
    (x0 : Vec F S512x2048 .f32) (x1 : Vec F S1024x2048 .bf16) (xi : Vec F S512x1 .f32) (xs : Vec F S512x1 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare (k0_pay4 x0 x1)
            ∗ owns (c : Thread nD τ) arg5 fullShare xi ∗ owns (c : Thread nD τ) arg6 fullShare (k0_pay3 x0 x1 xs)) -∗ K ⟨⟩))
      ⊢ wp frame (wpE (defs₀ (F := F)) Variants.none c none) E (cc0__layer1_kernel i arg2 harg2 arg3 harg3 arg4 harg4 arg5 harg5 arg6 harg6) K := by
  simp only [cc0__layer1_kernel_eq_skeleton]; unfold cc0__layer1_kernel_skel
  unfold owns
  iintro ⟨⟨%f0, %hf0, H0⟩, ⟨%f1, %hf1, H1⟩, ⟨%d4, %f4, -, H4⟩, ⟨%f5, %hf5, H5⟩, ⟨%f6, %hf6, H6⟩, Hk⟩
  obtain rfl := harg2.eq_unread hf0; obtain rfl := harg3.eq_unread hf1; obtain rfl := harg5.eq_unread hf5; obtain rfl := harg6.eq_unread hf6
  sl_exec (disch := first | exact hc0 | exact hc1)
  sl_step
  iapply Hk
  have hz := zero_off
  isplitl [H0]
  · iexists _; isplitr; · ipureintro; exact hf0
    iexact H0
  isplitl [H1]
  · iexists _; isplitr; · ipureintro; exact hf1
    iexact H1
  isplitl [H4]
  · iexists _; isplitr
    swap; · iexact H4
    ipureintro
    try sl_unfold_run_names
    rw [View.read_writes_eq_canon _ _ _ (cover_head hz _ _ _), View.canon_cons_unit_zero hz]
    simp only [View.readAt_eq_ld, hf0, hf1, View.ld_unit_zero (S := S512x2048) hz, View.ld_unit_zero (S := S1024x2048) hz]
  isplitl [H5]
  · iexists _; isplitr; · ipureintro; exact hf5
    iexact H5
  iexists _; isplitr
  swap; · iexact H6
  ipureintro
  try sl_unfold_run_names
  rw [View.read_writes_eq_canon _ _ _ (cover_head hz _ _ _), View.canon_cons_unit_zero hz]
  simp only [View.readAt_eq_ld, hf0, hf1, hf6, View.ld_unit_zero (S := S512x2048) hz, View.ld_unit_zero (S := S1024x2048) hz,
    View.ld_unit_zero (S := S512x1) hz]

set_option maxHeartbeats 2000000 in
/-- The last point of a row block: as a middle point, and the scratch is copied into the row-maximum window. -/
theorem sound_kernel0_C (c : Dev nD) (E : Set ℕ) (i : grid0.Coords)
    (arg2 : Memref sig .tc .vmem S512x2048 .f32) (harg2 : arg2.IsWhole) (arg3 : Memref sig .tc .vmem S1024x2048 .bf16) (harg3 : arg3.IsWhole)
    (arg4 : Memref sig .tc .vmem S512x1024 .bf16) (harg4 : arg4.IsWhole) (arg5 : Memref sig .tc .vmem S512x1 .f32) (harg5 : arg5.IsWhole)
    (arg6 : Memref sig .tc .vmem S512x1 .f32) (harg6 : arg6.IsWhole)
    (hc0 : ¬ cond0_0 i) (hc1 : cond0_1 i)
    (x0 : Vec F S512x2048 .f32) (x1 : Vec F S1024x2048 .bf16) (xs : Vec F S512x1 .f32) (K : PUnit → sProp 𝕄) :
    iprop(owns (c : Thread nD τ) arg2 fullShare x0 ∗ owns (c : Thread nD τ) arg3 fullShare x1 ∗ (∃ d, owns (c : Thread nD τ) arg4 fullShare d)
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare (k0_pay4 x0 x1)
            ∗ owns (c : Thread nD τ) arg5 fullShare (k0_pay3 x0 x1 xs) ∗ owns (c : Thread nD τ) arg6 fullShare (k0_pay3 x0 x1 xs)) -∗ K ⟨⟩))
      ⊢ wp frame (wpE (defs₀ (F := F)) Variants.none c none) E (cc0__layer1_kernel i arg2 harg2 arg3 harg3 arg4 harg4 arg5 harg5 arg6 harg6) K := by
  simp only [cc0__layer1_kernel_eq_skeleton]; unfold cc0__layer1_kernel_skel
  unfold owns
  iintro ⟨⟨%f0, %hf0, H0⟩, ⟨%f1, %hf1, H1⟩, ⟨%d4, %f4, -, H4⟩, ⟨%d5, %f5, -, H5⟩, ⟨%f6, %hf6, H6⟩, Hk⟩
  obtain rfl := harg2.eq_unread hf0; obtain rfl := harg3.eq_unread hf1; obtain rfl := harg6.eq_unread hf6
  sl_exec (disch := first | exact hc0 | exact hc1)
  sl_step
  iapply Hk
  have hz := zero_off
  isplitl [H0]
  · iexists _; isplitr; · ipureintro; exact hf0
    iexact H0
  isplitl [H1]
  · iexists _; isplitr; · ipureintro; exact hf1
    iexact H1
  isplitl [H4]
  · iexists _; isplitr
    swap; · iexact H4
    ipureintro
    try sl_unfold_run_names
    rw [View.read_writes_eq_canon _ _ _ (cover_head hz _ _ _), View.canon_cons_unit_zero hz]
    simp only [View.readAt_eq_ld, hf0, hf1, View.ld_unit_zero (S := S512x2048) hz, View.ld_unit_zero (S := S1024x2048) hz]
  isplitl [H5]
  · iexists _; isplitr
    swap; · iexact H5
    ipureintro
    try sl_unfold_run_names
    rw [View.read_writes_eq_canon _ _ _ (cover_head hz _ _ _), View.canon_cons_unit_zero hz]
    simp only [View.readAt_eq_ld, hf0, hf1, hf6, View.ld_unit_zero (S := S512x2048) hz, View.ld_unit_zero (S := S1024x2048) hz,
    View.ld_unit_zero (S := S512x1) hz]
    exact View.readCov_unit_zero (S := S512x1) arg6.view hz _ _
  iexists _; isplitr
  swap; · iexact H6
  ipureintro
  try sl_unfold_run_names
  rw [View.read_writes_eq_canon _ _ _ (cover_head hz _ _ _), View.canon_cons_unit_zero hz]
  simp only [View.readAt_eq_ld, hf0, hf1, hf6, View.ld_unit_zero (S := S512x2048) hz, View.ld_unit_zero (S := S1024x2048) hz,
    View.ld_unit_zero (S := S512x1) hz]

end Cert.Kernel.Hand

end
-- ==== Proof.KObl0.lean ====
import proofs.«126096_j50276887167090_1_alg».proof.Proof.KBody0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Layer 1's body obligation -/

variable (V : (c : Dev nD) → (b : Ref sig .tc) → Buf (Elt F) ((c : Thread nD τ).loc b))

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- Whatever the position, the invariant holds the scratch at SOME contents beside the other scoped buffers. -/
theorem Phi0_any (c : Dev nD) (n : ℕ) (h : n ≤ cfg0.N) :
    Phi0 V c n h ⊢ iprop(iprop((∃ d, owns (c : Thread nD τ) scM0 fullShare d) ∗ rest0 (F := F) c) ∗ (∃ r, prngReg c r)) := by
  cases n with
  | zero => rw [Phi0_zero V c 0 h rfl, PhiA0_eq]; try exact Idealize.SL.BI.Entails.refl _
  | succ n =>
    rw [Phi0_succ]
    iintro ⟨⟨HS, Hr⟩, Hg⟩
    isplitl [HS Hr]
    · isplitl [HS]
      · iexists _; iexact HS
      iexact Hr
    iexact Hg

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the position within the row block says which case runs;
    the invariant hands the scratch over at what the point before left (at anything at a row block's first point) and takes it
    back at this point's running maximum. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  have hN : t.val < 128 := lt_of_lt_of_eq t.isLt (show cfg0.N = 128 from N_0)
  by_cases h0 : t.val % 8 = 0
  · have h1 : ¬ t.val % 8 = 7 := by omega
    rw [Dat.leavesExact_idle (dat0 V c) 3 t (idleAt0_3 t (fun h => h1 ((hcond0_1 t).mp h))) (noFlush0_3 t (fun h => h1 ((hcond0_1 t).mp h)))]
    rw [acc0_first V c t h0, Phi0_castSucc V c t]
    iintro ⟨HΦ, Ho, ⟨%d0, H0⟩, ⟨%d1, H1⟩, ⟨%d2, H2⟩, ⟨%d3, H3⟩⟩
    ihave HΦ' := (Phi0_any V c _ _) $$ HΦ
    icases HΦ' with ⟨⟨HS, Hr⟩, Hg⟩
    iapply (sound_kernel0_A c Set.univ (grid0.coords t) _ _ _ _ _ _ _ _ _ _ ((hcond0_0 t).mpr h0) (fun h => h1 ((hcond0_1 t).mp h)) (iblk0 V c 0 t) (iblk0 V c 1 t) _ _)
    isplitl [H0]; · iexact H0
    isplitl [H1]; · iexact H1
    isplitl [H2]; · iexists _; iexact H2
    isplitl [H3]; · iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [acc0_next V c t h0, Phi0_castSucc V c t, Phi0_pos V c _ _ hz]
    by_cases h1 : t.val % 8 = 7
    · rw [show (dat0 V c).leavesExact 3 t = owns (c : Thread nD τ) (st0_3 t) fullShare ((dat0 V c).after 3 t) from by
        unfold Dat.leavesExact; rw [liveAt0_3 t ((hcond0_1 t).mpr h1)], after0_3, acc0_next V c t h0]
      iintro ⟨⟨⟨HS, Hr⟩, Hg⟩, Ho, ⟨%d0, H0⟩, ⟨%d1, H1⟩, ⟨%d2, H2⟩, ⟨%d3, H3⟩⟩
      iapply (sound_kernel0_C c Set.univ (grid0.coords t) _ _ _ _ _ _ _ _ _ _ (fun h => h0 ((hcond0_0 t).mp h)) ((hcond0_1 t).mpr h1) (iblk0 V c 0 t) (iblk0 V c 1 t) _ _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · rw [Dat.leavesExact_idle (dat0 V c) 3 t (idleAt0_3 t (fun h => h1 ((hcond0_1 t).mp h))) (noFlush0_3 t (fun h => h1 ((hcond0_1 t).mp h)))]
      iintro ⟨⟨⟨HS, Hr⟩, Hg⟩, Ho, ⟨%d0, H0⟩, ⟨%d1, H1⟩, ⟨%d2, H2⟩, ⟨%d3, H3⟩⟩
      iapply (sound_kernel0_B c Set.univ (grid0.coords t) _ _ _ _ _ _ _ _ _ _ (fun h => h0 ((hcond0_0 t).mp h)) (fun h => h1 ((hcond0_1 t).mp h)) (iblk0 V c 0 t) (iblk0 V c 1 t) _ _ _)
      isplitl [H0]; · iexact H0
      isplitl [H1]; · iexact H1
      isplitl [H2]; · iexists _; iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl, PhiA0_eq]
  exact Phi0_any V c _ _

end Cert.Kernel.Hand

end
-- ==== Proof.KBody1.lean ====
import proofs.«126096_j50276887167090_1_alg».proof.Proof.KBody0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Layer 2's body, case by case

The same two branches on the second grid coordinate: the accumulator is zeroed where it is 0 and copied into the
output window where it is 7. -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

set_option maxHeartbeats 2000000 in
/-- The first point of a row block: the accumulator is zeroed, then holds the first block product. -/
theorem sound_kernel1_A (c : Dev nD) (E : Set ℕ) (i : grid1.Coords)
    (arg2 : Memref sig .tc .vmem S512x1024 .bf16) (harg2 : arg2.IsWhole) (arg3 : Memref sig .tc .vmem S512x1 .f32) (harg3 : arg3.IsWhole)
    (arg4 : Memref sig .tc .vmem S2048x1024 .bf16) (harg4 : arg4.IsWhole) (arg5 : Memref sig .tc .vmem S512x2048 .f32) (harg5 : arg5.IsWhole)
    (arg6 : Memref sig .tc .vmem S512x2048 .f32) (harg6 : arg6.IsWhole)
    (hc0 : cond1_0 i) (hc1 : ¬ cond1_1 i)
    (x0 : Vec F S512x1024 .bf16) (x1 : Vec F S512x1 .f32) (x2 : Vec F S2048x1024 .bf16) (xi : Vec F S512x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (k1_pay2 x0 x1 x2 (k1_pay1 (F := F)))) -∗ K ⟨⟩))
      ⊢ wp frame (wpE (defs₀ (F := F)) Variants.none c none) E (cc1__layer2_kernel i arg2 harg2 arg3 harg3 arg4 harg4 arg5 harg5 arg6 harg6) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%f5, %hf5, H5⟩, ⟨%d6, %f6, -, H6⟩, Hk⟩
  obtain rfl := harg2.eq_unread hf0; obtain rfl := harg3.eq_unread hf1; obtain rfl := harg4.eq_unread hf2; obtain rfl := harg5.eq_unread hf5
  sl_exec (disch := first | exact hc0 | exact hc1)
  sl_step
  iapply Hk
  have hz := zero_off
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H5]
  · iexists _; isplitr; · ipureintro; exact hf5
    iexact H5
  iexists _; isplitr
  swap; · iexact H6
  ipureintro
  try sl_unfold_run_names
  rw [View.read_writes_eq_canon _ _ _ (cover_head hz _ _ _), View.canon_cons_unit_zero hz]
  simp only [View.readAt_eq_ld, hf0, hf1, hf2, View.ld_unit_zero (S := S512x1024) hz, View.ld_unit_zero (S := S512x1) hz, View.ld_unit_zero (S := S2048x1024) hz, View.ld_unit_zero (S := S512x2048) hz]
  exact congrArg (k1_pay2 x0 x1 x2) (View.readCov_unit_zero (S := S512x2048) arg6.view hz _ _)

set_option maxHeartbeats 2000000 in
/-- A middle point: the accumulator gains the block product. -/
theorem sound_kernel1_B (c : Dev nD) (E : Set ℕ) (i : grid1.Coords)
    (arg2 : Memref sig .tc .vmem S512x1024 .bf16) (harg2 : arg2.IsWhole) (arg3 : Memref sig .tc .vmem S512x1 .f32) (harg3 : arg3.IsWhole)
    (arg4 : Memref sig .tc .vmem S2048x1024 .bf16) (harg4 : arg4.IsWhole) (arg5 : Memref sig .tc .vmem S512x2048 .f32) (harg5 : arg5.IsWhole)
    (arg6 : Memref sig .tc .vmem S512x2048 .f32) (harg6 : arg6.IsWhole)
    (hc0 : ¬ cond1_0 i) (hc1 : ¬ cond1_1 i)
    (x0 : Vec F S512x1024 .bf16) (x1 : Vec F S512x1 .f32) (x2 : Vec F S2048x1024 .bf16) (xi : Vec F S512x2048 .f32) (xs : Vec F S512x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (k1_pay2 x0 x1 x2 xs)) -∗ K ⟨⟩))
      ⊢ wp frame (wpE (defs₀ (F := F)) Variants.none c none) E (cc1__layer2_kernel i arg2 harg2 arg3 harg3 arg4 harg4 arg5 harg5 arg6 harg6) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf5; obtain rfl := harg6.eq_unread hf6
  sl_exec (disch := first | exact hc0 | exact hc1)
  sl_step
  iapply Hk
  have hz := zero_off
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H5]
  · iexists _; isplitr; · ipureintro; exact hf5
    iexact H5
  iexists _; isplitr
  swap; · iexact H6
  ipureintro
  try sl_unfold_run_names
  rw [View.read_writes_eq_canon _ _ _ (cover_head hz _ _ _), View.canon_cons_unit_zero hz]
  simp only [View.readAt_eq_ld, hf0, hf1, hf2, View.ld_unit_zero (S := S512x1024) hz, View.ld_unit_zero (S := S512x1) hz, View.ld_unit_zero (S := S2048x1024) hz, View.ld_unit_zero (S := S512x2048) hz, hf6]

set_option maxHeartbeats 2000000 in
/-- The last point of a row block: as a middle point, and the accumulator is copied into the output window. -/
theorem sound_kernel1_C (c : Dev nD) (E : Set ℕ) (i : grid1.Coords)
    (arg2 : Memref sig .tc .vmem S512x1024 .bf16) (harg2 : arg2.IsWhole) (arg3 : Memref sig .tc .vmem S512x1 .f32) (harg3 : arg3.IsWhole)
    (arg4 : Memref sig .tc .vmem S2048x1024 .bf16) (harg4 : arg4.IsWhole) (arg5 : Memref sig .tc .vmem S512x2048 .f32) (harg5 : arg5.IsWhole)
    (arg6 : Memref sig .tc .vmem S512x2048 .f32) (harg6 : arg6.IsWhole)
    (hc0 : ¬ cond1_0 i) (hc1 : cond1_1 i)
    (x0 : Vec F S512x1024 .bf16) (x1 : Vec F S512x1 .f32) (x2 : Vec F S2048x1024 .bf16) (xs : Vec F S512x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay2 x0 x1 x2 xs) ∗ owns (c : Thread nD τ) arg6 fullShare (k1_pay2 x0 x1 x2 xs)) -∗ K ⟨⟩))
      ⊢ wp frame (wpE (defs₀ (F := F)) Variants.none c none) E (cc1__layer2_kernel i arg2 harg2 arg3 harg3 arg4 harg4 arg5 harg5 arg6 harg6) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  obtain rfl := harg2.eq_unread hf0; obtain rfl := harg3.eq_unread hf1; obtain rfl := harg4.eq_unread hf2; obtain rfl := harg6.eq_unread hf6
  sl_exec (disch := first | exact hc0 | exact hc1)
  sl_step
  iapply Hk
  have hz := zero_off
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H5]
  · iexists _; isplitr
    swap; · iexact H5
    ipureintro
    try sl_unfold_run_names
    rw [View.read_writes_eq_canon _ _ _ (cover_head hz _ _ _), View.canon_cons_unit_zero hz]
    simp only [View.readAt_eq_ld, hf0, hf1, hf2, View.ld_unit_zero (S := S512x1024) hz, View.ld_unit_zero (S := S512x1) hz, View.ld_unit_zero (S := S2048x1024) hz, View.ld_unit_zero (S := S512x2048) hz, hf6]
    exact View.readCov_unit_zero (S := S512x2048) arg6.view hz _ _
  iexists _; isplitr
  swap; · iexact H6
  ipureintro
  try sl_unfold_run_names
  rw [View.read_writes_eq_canon _ _ _ (cover_head hz _ _ _), View.canon_cons_unit_zero hz]
  simp only [View.readAt_eq_ld, hf0, hf1, hf2, View.ld_unit_zero (S := S512x1024) hz, View.ld_unit_zero (S := S512x1) hz, View.ld_unit_zero (S := S2048x1024) hz, View.ld_unit_zero (S := S512x2048) hz, hf6]

end Cert.Kernel.Hand

end
-- ==== Proof.KObl1.lean ====
import proofs.«126096_j50276887167090_1_alg».proof.Proof.KBody1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Layer 2's body obligation -/

variable (V : (c : Dev nD) → (b : Ref sig .tc) → Buf (Elt F) ((c : Thread nD τ).loc b))

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- Whatever the position, the invariant holds the accumulator at SOME contents beside the other scoped buffers. -/
theorem Phi1_any (c : Dev nD) (n : ℕ) (h : n ≤ cfg1.N) :
    Phi1 V c n h ⊢ iprop(pre1 (F := F) c iprop(∃ d, owns (c : Thread nD τ) scM1 fullShare d) ∗ (∃ r, prngReg c r)) := by
  cases n with
  | zero => rw [Phi1_zero V c 0 h rfl, PhiA1_eq]; try exact Idealize.SL.BI.Entails.refl _
  | succ n =>
    rw [Phi1_succ]; unfold pre1
    iintro ⟨⟨A1, A2, A3, A4, A5, A6, A7, A8, A9, HS⟩, Hg⟩
    isplitr [Hg]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      iexists _; iexact HS
    iexact Hg

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the position within the row block says which case runs;
    the invariant hands the accumulator over at what the point before left (at anything at a row block's first point) and
    takes it back at this point's running sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 128 := lt_of_lt_of_eq t.isLt (show cfg1.N = 128 from N_1)
  by_cases h0 : t.val % 8 = 0
  · have h1 : ¬ t.val % 8 = 7 := by omega
    rw [Dat.leavesExact_idle (dat1 V c) 3 t (idleAt1_3 t (fun h => h1 ((hcond1_1 t).mp h))) (noFlush1_3 t (fun h => h1 ((hcond1_1 t).mp h)))]
    rw [acc1_first V c t h0, Phi1_castSucc V c t]
    iintro ⟨HΦ, Ho, ⟨%d0, H0⟩, ⟨%d1, H1⟩, ⟨%d2, H2⟩, ⟨%d3, H3⟩⟩
    ihave HΦ' := (Phi1_any V c _ _) $$ HΦ
    unfold pre1
    icases HΦ' with ⟨⟨A1, A2, A3, A4, A5, A6, A7, A8, A9, HS⟩, Hg⟩
    iapply (sound_kernel1_A c Set.univ (grid1.coords t) _ _ _ _ _ _ _ _ _ _ ((hcond1_0 t).mpr h0) (fun h => h1 ((hcond1_1 t).mp h)) (iblk1 V c 0 t) (iblk1 V c 1 t) (iblk1 V c 2 t) _ _)
    isplitl [H0]; · iexact H0
    isplitl [H1]; · iexact H1
    isplitl [H2]; · iexact H2
    isplitl [H3]; · iexact H3
    isplitl [HS]; · iexact HS
    iintro ⟨H0, H1, H2, H3, HS⟩
    isplitr [Ho H0 H1 H2 H3]
    · isplitr [Hg]
      · isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        iexact HS
      iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [acc1_next V c t h0, Phi1_castSucc V c t, Phi1_pos V c _ _ hz]
    unfold pre1
    by_cases h1 : t.val % 8 = 7
    · rw [show (dat1 V c).leavesExact 3 t = owns (c : Thread nD τ) (st1_3 t) fullShare ((dat1 V c).after 3 t) from by
        unfold Dat.leavesExact; rw [liveAt1_3 t ((hcond1_1 t).mpr h1)], after1_3, acc1_next V c t h0]
      iintro ⟨⟨⟨A1, A2, A3, A4, A5, A6, A7, A8, A9, HS⟩, Hg⟩, Ho, ⟨%d0, H0⟩, ⟨%d1, H1⟩, ⟨%d2, H2⟩, ⟨%d3, H3⟩⟩
      iapply (sound_kernel1_C c Set.univ (grid1.coords t) _ _ _ _ _ _ _ _ _ _ (fun h => h0 ((hcond1_0 t).mp h)) ((hcond1_1 t).mpr h1) (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitr [Ho H0 H1 H2 H3]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          iexact HS
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      iintro ⟨⟨⟨A1, A2, A3, A4, A5, A6, A7, A8, A9, HS⟩, Hg⟩, Ho, ⟨%d0, H0⟩, ⟨%d1, H1⟩, ⟨%d2, H2⟩, ⟨%d3, H3⟩⟩
      iapply (sound_kernel1_B c Set.univ (grid1.coords t) _ _ _ _ _ _ _ _ _ _ (fun h => h0 ((hcond1_0 t).mp h)) (fun h => h1 ((hcond1_1 t).mp h)) (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitr [Ho H0 H1 H2 H3]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          iexact HS
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl, PhiA1_eq]
  exact Phi1_any V c _ _

end Cert.Kernel.Hand

end
-- ==== Proof.KRegs.lean ====
import proofs.«126096_j50276887167090_1_alg».proof.Proof.KObl0
import proofs.«126096_j50276887167090_1_alg».proof.Proof.KObl1
import proofs.«126096_j50276887167090_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two regions as segments of the program's run

The TensorCore's buffer contents at each boundary: `V13` (the generated fold of the thirteen stretches of host
operations before the first region), then each region's arrays at what its write-backs leave, every other buffer as
entered. -/

variable (m : (ℓ : Loc nD τ sig) → Buf (Elt F) ℓ)

/-- The contents layer 1 finds, read at the TensorCore's references. -/
abbrev Vin0 : (c : Dev nD) → (b : Ref sig .tc) → Buf (Elt F) ((c : Thread nD τ).loc b) := fun c b => V13 m c b
/-- After layer 1: its arrays at what the pipeline leaves, every other buffer as entered. -/
def W14 (c : Dev nD) : Valuation τ sig (Elt F) :=
  Pipeline.withArrays spec0 c (V13 m c) fun w => (dat0 (Vin0 m) c).arrAt w cfg0.N
theorem W14_arr (c : Dev nD) (w : Fin cfg0.W) :
    W14 m c (Proc.devRef .tc (Pipeline.arrRef spec0 w)) = (dat0 (Vin0 m) c).arrAt w cfg0.N := by
  unfold W14; exact Pipeline.withArrays_arr spec0 launch0.win.arr_inj c _ _ w
theorem W14_of_ne (c : Dev nD) (b : Ref sig .tc) (hb : ∀ w, Pipeline.arrRef spec0 w ≠ b) :
    W14 m c (Proc.devRef .tc b) = V13 m c (Proc.devRef .tc b) := by
  unfold W14; exact Pipeline.withArrays_of_ne spec0 c _ _ b hb
/-- The same read at the TensorCore's references: what layer 2 finds. -/
abbrev Vin1 : (c : Dev nD) → (b : Ref sig .tc) → Buf (Elt F) ((c : Thread nD τ).loc b) := fun c b => W14 m c b
theorem hF0 (c : Dev nD) (w : Fin cfg0.W) : (dat0 (Vin0 m) c).arrAt w cfg0.N = Vin1 m c (Pipeline.arrRef spec0 w) :=
  (W14_arr m c w).symm
theorem hrest0 (c : Dev nD) : ∀ b, b ∉ Finset.univ.image (Pipeline.arrRef spec0) → Vin1 m c b = Vin0 m c b :=
  fun b hb => W14_of_ne m c b fun w e => hb (Finset.mem_image.mpr ⟨w, Finset.mem_univ _, e⟩)

/-- After layer 2. -/
def W15 (c : Dev nD) : Valuation τ sig (Elt F) :=
  Pipeline.withArrays spec1 c (W14 m c) fun w => (dat1 (Vin1 m) c).arrAt w cfg1.N
theorem W15_arr (c : Dev nD) (w : Fin cfg1.W) :
    W15 m c (Proc.devRef .tc (Pipeline.arrRef spec1 w)) = (dat1 (Vin1 m) c).arrAt w cfg1.N := by
  unfold W15; exact Pipeline.withArrays_arr spec1 launch1.win.arr_inj c _ _ w
theorem W15_of_ne (c : Dev nD) (b : Ref sig .tc) (hb : ∀ w, Pipeline.arrRef spec1 w ≠ b) :
    W15 m c (Proc.devRef .tc b) = W14 m c (Proc.devRef .tc b) := by
  unfold W15; exact Pipeline.withArrays_of_ne spec1 c _ _ b hb
abbrev Vout1 : (c : Dev nD) → (b : Ref sig .tc) → Buf (Elt F) ((c : Thread nD τ).loc b) := fun c b => W15 m c b
theorem hF1 (c : Dev nD) (w : Fin cfg1.W) : (dat1 (Vin1 m) c).arrAt w cfg1.N = Vout1 m c (Pipeline.arrRef spec1 w) :=
  (W15_arr m c w).symm
theorem hrest1 (c : Dev nD) : ∀ b, b ∉ Finset.univ.image (Pipeline.arrRef spec1) → Vout1 m c b = Vin1 m c b :=
  fun b hb => W15_of_ne m c b fun w e => hb (Finset.mem_image.mpr ⟨w, Finset.mem_univ _, e⟩)

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c

abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

set_option backward.isDefEq.respectTransparency.types false in
/-- Region 0 over the thread state: entered from every unscoped buffer at the contents before it, left at the contents
    after it. Its arrays are split out of the unscoped buffers and put back at what the write-backs leave; the generator
    register goes into the kernel's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (V13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vin1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at what the write-backs leave; the generator
    register goes into the kernel's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (W14 m c) ∗ R c)
  post c := iprop(StableHlo.held (c : Thread nD τ) (Pipeline.ucRefs τ sig) (W15 m c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (Vin1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRun.lean ====
import proofs.«126096_j50276887167090_1_alg».proof.Proof.KRegs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The program's run

@main is thirteen stretches of host operations, the two regions, and a closing reshape.  Every weakly fair execution
terminates, and every final memory holds each unscoped buffer at the last boundary's contents. -/

variable (m : (ℓ : Loc nD τ sig) → Buf (Elt F) ℓ) (ρ : Dev nD → PrngReg)

/-- The contents after the closing reshape. -/
abbrev W16 (c : Dev nD) : Valuation τ sig (Elt F) := StableHlo.after hostOps2 (W15 m c)

/-- @main's sixteen segments in order. -/
abbrev segs : List (Pipeline.Seg (pcfgs (F := F)) adm (pdats m) () defs₀ 𝒱₀ L lv) :=
  [
    .host (Pipeline.HostSeg.ofOps _ _ _ _ _ (Pipeline.ucRefs τ sig) hostOps0
      (fun op h => Pipeline.sub_ucRefs op ((List.forall_iff_forall_mem.mp hostOps0_sub) op h))
      (fun op h => (List.forall_iff_forall_mem.mp hostOps0_fresh) op h) (V0 m) R),
    .host (Pipeline.HostSeg.ofOps _ _ _ _ _ (Pipeline.ucRefs τ sig) hostOps0_1
      (fun op h => Pipeline.sub_ucRefs op ((List.forall_iff_forall_mem.mp hostOps0_1_sub) op h))
      (fun op h => (List.forall_iff_forall_mem.mp hostOps0_1_fresh) op h) (V1 m) R),
    .host (Pipeline.HostSeg.ofOps _ _ _ _ _ (Pipeline.ucRefs τ sig) hostOps0_2
      (fun op h => Pipeline.sub_ucRefs op ((List.forall_iff_forall_mem.mp hostOps0_2_sub) op h))
      (fun op h => (List.forall_iff_forall_mem.mp hostOps0_2_fresh) op h) (V2 m) R),
    .host (Pipeline.HostSeg.ofOps _ _ _ _ _ (Pipeline.ucRefs τ sig) hostOps0_3
      (fun op h => Pipeline.sub_ucRefs op ((List.forall_iff_forall_mem.mp hostOps0_3_sub) op h))
      (fun op h => (List.forall_iff_forall_mem.mp hostOps0_3_fresh) op h) (V3 m) R),
    .host (Pipeline.HostSeg.ofOps _ _ _ _ _ (Pipeline.ucRefs τ sig) hostOps0_4
      (fun op h => Pipeline.sub_ucRefs op ((List.forall_iff_forall_mem.mp hostOps0_4_sub) op h))
      (fun op h => (List.forall_iff_forall_mem.mp hostOps0_4_fresh) op h) (V4 m) R),
    .host (Pipeline.HostSeg.ofOps _ _ _ _ _ (Pipeline.ucRefs τ sig) hostOps0_5
      (fun op h => Pipeline.sub_ucRefs op ((List.forall_iff_forall_mem.mp hostOps0_5_sub) op h))
      (fun op h => (List.forall_iff_forall_mem.mp hostOps0_5_fresh) op h) (V5 m) R),
    .host (Pipeline.HostSeg.ofOps _ _ _ _ _ (Pipeline.ucRefs τ sig) hostOps0_6
      (fun op h => Pipeline.sub_ucRefs op ((List.forall_iff_forall_mem.mp hostOps0_6_sub) op h))
      (fun op h => (List.forall_iff_forall_mem.mp hostOps0_6_fresh) op h) (V6 m) R),
    .host (Pipeline.HostSeg.ofOps _ _ _ _ _ (Pipeline.ucRefs τ sig) hostOps0_7
      (fun op h => Pipeline.sub_ucRefs op ((List.forall_iff_forall_mem.mp hostOps0_7_sub) op h))
      (fun op h => (List.forall_iff_forall_mem.mp hostOps0_7_fresh) op h) (V7 m) R),
    .host (Pipeline.HostSeg.ofOps _ _ _ _ _ (Pipeline.ucRefs τ sig) hostOps0_8
      (fun op h => Pipeline.sub_ucRefs op ((List.forall_iff_forall_mem.mp hostOps0_8_sub) op h))
      (fun op h => (List.forall_iff_forall_mem.mp hostOps0_8_fresh) op h) (V8 m) R),
    .host (Pipeline.HostSeg.ofOps _ _ _ _ _ (Pipeline.ucRefs τ sig) hostOps0_9
      (fun op h => Pipeline.sub_ucRefs op ((List.forall_iff_forall_mem.mp hostOps0_9_sub) op h))
      (fun op h => (List.forall_iff_forall_mem.mp hostOps0_9_fresh) op h) (V9 m) R),
    .host (Pipeline.HostSeg.ofOps _ _ _ _ _ (Pipeline.ucRefs τ sig) hostOps0_10
      (fun op h => Pipeline.sub_ucRefs op ((List.forall_iff_forall_mem.mp hostOps0_10_sub) op h))
      (fun op h => (List.forall_iff_forall_mem.mp hostOps0_10_fresh) op h) (V10 m) R),
    .host (Pipeline.HostSeg.ofOps _ _ _ _ _ (Pipeline.ucRefs τ sig) hostOps0_11
      (fun op h => Pipeline.sub_ucRefs op ((List.forall_iff_forall_mem.mp hostOps0_11_sub) op h))
      (fun op h => (List.forall_iff_forall_mem.mp hostOps0_11_fresh) op h) (V11 m) R),
    .host (Pipeline.HostSeg.ofOps _ _ _ _ _ (Pipeline.ucRefs τ sig) hostOps0_12
      (fun op h => Pipeline.sub_ucRefs op ((List.forall_iff_forall_mem.mp hostOps0_12_sub) op h))
      (fun op h => (List.forall_iff_forall_mem.mp hostOps0_12_fresh) op h) (V12 m) R),
    .region (reg0 m),
    .region (reg1 m),
    .host (Pipeline.HostSeg.ofOps _ _ _ _ _ (Pipeline.ucRefs τ sig) hostOps2
      (fun op h => Pipeline.sub_ucRefs op ((List.forall_iff_forall_mem.mp hostOps2_sub) op h))
      (fun op h => (List.forall_iff_forall_mem.mp hostOps2_fresh) op h) (W15 m) R) ]

set_option backward.isDefEq.respectTransparency.types false in
/-- THE RUN: from any memory with zero counters every weakly fair execution of @main terminates, nothing faulting, and the
    final memory holds every unscoped TensorCore buffer at the contents `W16`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m c b) := by
  refine Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W16 m c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W16 m c) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m c b)
    (hfin := fun c s' => by
      iintro ⟨⟨Hh, -⟩, HSI⟩
      unfold StableHlo.held
      imodintro
      iapply (pointsTo_read_all (Pipeline.ucRefs τ sig) (fun b => (((c : Thread nD τ)).1, b)) (W16 m c) s')
      isplitl [Hh] <;> iassumption)
    (hQ := fun s h c => h c)

/-- An unscoped TensorCore reference is among those the final memory is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- `main_arg0` reaches the end as launched: no stretch of host operations writes it and no region's window stages it as an output. -/
theorem W16_main_arg0 (c : Dev nD) : W16 m c main_arg0 = m ((c : Thread nD τ).loc main_arg0) :=
  (StableHlo.after_of_writes_sub hostOps2 _ hostOps2_writes (by decide)).trans <| (W15_of_ne m c main_arg0 (by decide)).trans <| (W14_of_ne m c main_arg0 (by decide)).trans <|
    (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
/-- `main_arg1` reaches the end as launched: no stretch of host operations writes it and no region's window stages it as an output. -/
theorem W16_main_arg1 (c : Dev nD) : W16 m c main_arg1 = m ((c : Thread nD τ).loc main_arg1) :=
  (StableHlo.after_of_writes_sub hostOps2 _ hostOps2_writes (by decide)).trans <| (W15_of_ne m c main_arg1 (by decide)).trans <| (W14_of_ne m c main_arg1 (by decide)).trans <|
    (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
/-- `main_arg2` reaches the end as launched: no stretch of host operations writes it and no region's window stages it as an output. -/
theorem W16_main_arg2 (c : Dev nD) : W16 m c main_arg2 = m ((c : Thread nD τ).loc main_arg2) :=
  (StableHlo.after_of_writes_sub hostOps2 _ hostOps2_writes (by decide)).trans <| (W15_of_ne m c main_arg2 (by decide)).trans <| (W14_of_ne m c main_arg2 (by decide)).trans <|
    (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans <| rfl

/-- The run, read at the result and at the three arguments. -/
theorem run_main : θ_run defs (onTc (τ := τ) (main (F := F))) ⟨m, fun _ => 0, ρ⟩ (fun r => ∀ c : Dev nD,
      r.2.mem ((c.tc : Thread nD τ).loc main_v27) = W16 m c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨h c _ (mem_uc main_v27 (by decide)),
      (h c _ (mem_uc main_arg0 (by decide))).trans (W16_main_arg0 m c),
      (h c _ (mem_uc main_arg1 (by decide))).trans (W16_main_arg1 m c),
      (h c _ (mem_uc main_arg2 (by decide))).trans (W16_main_arg2 m c)⟩) (run_all m ρ)

end Cert.Kernel.Hand

end
-- ==== Proof.KIData.lean ====
/-
  The two kernels' proof data: what every window and the carried scratch hold after each grid point.
-/
import proofs.«126096_j50276887167090_1_alg».proof.Proof.Gen.KernelIdeal.Launch
import proofs.«126096_j50276887167090_1_alg».proof.Proof.Gen.KernelIdeal.Skeleton
import proofs.«126096_j50276887167090_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-
  What each of the two pipelined kernels leaves, point by point, stated over the contents `V` the region finds in
  the TensorCore's buffers.  Both kernels run on a 16 × 8 grid whose second axis walks the contracted (layer 2) or
  the output-column (layer 1) blocks of one row block; a scratch buffer is reset at the first of the eight points,
  updated at every point, and copied into an output window at the last.
-/

variable (V : (c : Dev nD) → (b : Ref sig .tc) → Buf (Elt F) ((c : Thread nD τ).loc b))

/-! ## Layer 1 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running row maximum after point `n`: started from zero at the first point of a row block, else from what the
    point before left. -/
def acc0 (c : Dev nD) : (n : ℕ) → n < cfg0.N → Vec F S512x1 .f32
  | 0, hn => k0_pay3 (iblk0 V c 0 ⟨0, hn⟩) (iblk0 V c 1 ⟨0, hn⟩) (k0_pay1 (F := F))
  | n + 1, hn =>
    if (n + 1) % 8 = 0 then k0_pay3 (iblk0 V c 0 ⟨n + 1, hn⟩) (iblk0 V c 1 ⟨n + 1, hn⟩) (k0_pay1 (F := F))
    else k0_pay3 (iblk0 V c 0 ⟨n + 1, hn⟩) (iblk0 V c 1 ⟨n + 1, hn⟩) (acc0 c n (Nat.lt_of_succ_lt hn))

theorem acc0_first (c : Dev nD) (t : Fin cfg0.N) (h : t.val % 8 = 0) :
    acc0 V c t.val t.isLt = k0_pay3 (iblk0 V c 0 t) (iblk0 V c 1 t) (k0_pay1 (F := F)) := by
  obtain ⟨n, hn⟩ := t
  cases n with
  | zero => rfl
  | succ n => exact if_pos h

theorem acc0_next (c : Dev nD) (t : Fin cfg0.N) (h : ¬ t.val % 8 = 0) :
    acc0 V c t.val t.isLt = k0_pay3 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h
  | succ n => exact if_neg h

/-- The scratch operand of layer 1 and the scoped buffers beside it that no window of layer 1 stages. -/
abbrev scM0 : Memref sig .tc .vmem S512x1 .f32 := Memref.whole cc0_scratch0

def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class invariant with the scratch operand as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; rfl

/-- The region invariant before position `n`: before the first point the class's; afterwards the scratch at the running
    maximum the point before left, the other scoped buffers at anything, the generator register at some state. -/
def Phi0 (c : Dev nD) : (n : ℕ) → n ≤ cfg0.N → sProp 𝕄
  | 0, _ => Pipeline.ΦA spec0 c
  | n + 1, hn => iprop(iprop(owns (c : Thread nD τ) scM0 fullShare (acc0 V c n hn) ∗ rest0 (F := F) c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) scM0 fullShare (acc0 V c n hn) ∗ rest0 (F := F) c) ∗ (∃ r, prngReg c r)) := rfl

theorem Phi0_pos (c : Dev nD) (n : ℕ) (h : n ≤ cfg0.N) (hz : n ≠ 0) :
    Phi0 V c n h = iprop(iprop(owns (c : Thread nD τ) scM0 fullShare (acc0 V c (n - 1) (by omega)) ∗ rest0 (F := F) c) ∗ (∃ r, prngReg c r)) := by
  cases n with
  | zero => exact absurd rfl hz
  | succ n => rfl

/-- The proof data of layer 1 on core `c`: the arrays as the region finds them; after the body at point `t` each input's
    buffer at its block, the hidden block at the body's product of the two input blocks, the row-maximum window at the
    running maximum; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay4 (iblk0 V c 0 t) (iblk0 V c 1 t)
    | ⟨3, _⟩ => acc0 V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay4 (iblk0 V c 0 t) (iblk0 V c 1 t) := by dsimp only [dat0]
theorem after0_3 (c : Dev nD) (t : Fin cfg0.N) : (dat0 V c).after 3 t = acc0 V c t.val t.isLt := by dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

/-! ## Layer 2 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running sum of the block products after point `n`: started from zero at the first point of a row block. -/
def acc1 (c : Dev nD) : (n : ℕ) → n < cfg1.N → Vec F S512x2048 .f32
  | 0, hn => k1_pay2 (iblk1 V c 0 ⟨0, hn⟩) (iblk1 V c 1 ⟨0, hn⟩) (iblk1 V c 2 ⟨0, hn⟩) (k1_pay1 (F := F))
  | n + 1, hn =>
    if (n + 1) % 8 = 0 then k1_pay2 (iblk1 V c 0 ⟨n + 1, hn⟩) (iblk1 V c 1 ⟨n + 1, hn⟩) (iblk1 V c 2 ⟨n + 1, hn⟩) (k1_pay1 (F := F))
    else k1_pay2 (iblk1 V c 0 ⟨n + 1, hn⟩) (iblk1 V c 1 ⟨n + 1, hn⟩) (iblk1 V c 2 ⟨n + 1, hn⟩) (acc1 c n (Nat.lt_of_succ_lt hn))

theorem acc1_first (c : Dev nD) (t : Fin cfg1.N) (h : t.val % 8 = 0) :
    acc1 V c t.val t.isLt = k1_pay2 (iblk1 V c 0 t) (iblk1 V c 1 t) (iblk1 V c 2 t) (k1_pay1 (F := F)) := by
  obtain ⟨n, hn⟩ := t
  cases n with
  | zero => rfl
  | succ n => exact if_pos h

theorem acc1_next (c : Dev nD) (t : Fin cfg1.N) (h : ¬ t.val % 8 = 0) :
    acc1 V c t.val t.isLt = k1_pay2 (iblk1 V c 0 t) (iblk1 V c 1 t) (iblk1 V c 2 t) (acc1 V c (t.val - 1) (Nat.lt_of_le_of_lt (Nat.sub_le _ _) t.isLt)) := by
  obtain ⟨n, hn⟩ := t
  cases n with
  | zero => exact absurd (Nat.zero_mod _) h
  | succ n => exact if_neg h

abbrev scM1 : Memref sig .tc .vmem S512x2048 .f32 := Memref.whole cc1_scratch0

def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The scoped buffers layer 2 does not stage, its scratch operand (the last of them, in the launch's order) at `X`. -/
def pre1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ X)

theorem PhiA1_eq (c : Dev nD) :
    (Pipeline.ΦA spec1 c : sProp 𝕄)
      = iprop(pre1 (F := F) c iprop(∃ d, owns (c : Thread nD τ) scM1 fullShare d) ∗ (∃ r, prngReg c r)) := by
  unfold Pipeline.ΦA pre1; rw [scopedRest1_eq]; simp only [scM1, owns_whole]; rfl

def Phi1 (c : Dev nD) : (n : ℕ) → n ≤ cfg1.N → sProp 𝕄
  | 0, _ => Pipeline.ΦA spec1 c
  | n + 1, hn => iprop(pre1 (F := F) c (owns (c : Thread nD τ) scM1 fullShare (acc1 V c n hn)) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(pre1 (F := F) c (owns (c : Thread nD τ) scM1 fullShare (acc1 V c n hn)) ∗ (∃ r, prngReg c r)) := rfl

theorem Phi1_pos (c : Dev nD) (n : ℕ) (h : n ≤ cfg1.N) (hz : n ≠ 0) :
    Phi1 V c n h = iprop(pre1 (F := F) c (owns (c : Thread nD τ) scM1 fullShare (acc1 V c (n - 1) (by omega))) ∗ (∃ r, prngReg c r)) := by
  cases n with
  | zero => exact absurd rfl hz
  | succ n => rfl

/-- The proof data of layer 2 on core `c`: the arrays as the region finds them; after the body at point `t` each input's
    buffer at its block and the output window at the running sum; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = acc1 V c t.val t.isLt := by dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

end Cert.KernelIdeal.Hand

end
-- ==== Proof.KIBody0.lean ====
import proofs.«126096_j50276887167090_1_alg».proof.Proof.KIData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Layer 1's body, case by case

The body branches twice on the second grid coordinate: the scratch is reset where it is 0, and copied into the
row-maximum window where it is 7.  Three cases meet the grid: the first point of a row block, the six middle
points, the last point. -/

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

theorem zero_off : (![0, 0] : Fin 2 → ℕ) = fun _ => 0 := funext fun a => by fin_cases a <;> rfl

/-- A store through the whole-buffer rectangle, last in a list of stores, covers the buffer. -/
theorem cover_head {S : Shape} {e : EltTy} {Val : EltTy → Type} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set := by
  subst h
  exact ⟨_, List.mem_cons_self .., by show y ∈ (Rect.whole S).set; rw [Rect.set_whole]; exact Finset.mem_univ y⟩

set_option maxHeartbeats 2000000 in
/-- The first point of a row block: the scratch is zeroed, then holds the block's row maxima against zero. -/
theorem sound_kernel0_A (c : Dev nD) (E : Set ℕ) (i : grid0.Coords)
    (arg2 : Memref sig .tc .vmem S512x2048 .f32) (harg2 : arg2.IsWhole) (arg3 : Memref sig .tc .vmem S1024x2048 .bf16) (harg3 : arg3.IsWhole)
    (arg4 : Memref sig .tc .vmem S512x1024 .bf16) (harg4 : arg4.IsWhole) (arg5 : Memref sig .tc .vmem S512x1 .f32) (harg5 : arg5.IsWhole)
    (arg6 : Memref sig .tc .vmem S512x1 .f32) (harg6 : arg6.IsWhole)
    (hc0 : cond0_0 i) (hc1 : ¬ cond0_1 i)
    (x0 : Vec F S512x2048 .f32) (x1 : Vec F S1024x2048 .bf16) (xi : Vec F S512x1 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xi ∗ (∃ d, owns (c : Thread nD τ) arg6 fullShare d)
        ∗ (iprop(owns (c : Thread nD τ) arg2 fullShare x0 ∗ owns (c : Thread nD τ) arg3 fullShare x1 ∗ owns (c : Thread nD τ) arg4 fullShare (k0_pay4 x0 x1)
            ∗ owns (c : Thread nD τ) arg5 fullShare xi ∗ owns (c : Thread nD τ) arg6 fullShare (k0_pay3 x0 x1 (k0_pay1 (F := F)))) -∗ K ⟨⟩))
      ⊢ wp frame (wpE (defs₀ (F := F)) Variants.none c none) E (cc0__layer1_kernel i arg2 harg2 arg3 harg3 arg4 harg4 arg5 harg5 arg6 harg6) K := by
  simp only [cc0__layer1_kernel_eq_skeleton]; unfold cc0__layer1_kernel_skel
  unfold owns
  iintro ⟨⟨%f0, %hf0, H0⟩, ⟨%f1, %hf1, H1⟩, ⟨%d4, %f4, -, H4⟩, ⟨%f5, %hf5, H5⟩, ⟨%d6, %f6, -, H6⟩, Hk⟩
  obtain rfl := harg2.eq_unread hf0; obtain rfl := harg3.eq_unread hf1; obtain rfl := harg5.eq_unread hf5
  sl_exec (disch := first | exact hc0 | exact hc1)
  sl_step
  iapply Hk
  have hz := zero_off
  isplitl [H0]
  · iexists _; isplitr; · ipureintro; exact hf0
    iexact H0
  isplitl [H1]
  · iexists _; isplitr; · ipureintro; exact hf1
    iexact H1
  isplitl [H4]
  · iexists _; isplitr
    swap; · iexact H4
    ipureintro
    try sl_unfold_run_names
    rw [View.read_writes_eq_canon _ _ _ (cover_head hz _ _ _), View.canon_cons_unit_zero hz]
    simp only [View.readAt_eq_ld, hf0, hf1, View.ld_unit_zero (S := S512x2048) hz, View.ld_unit_zero (S := S1024x2048) hz]
  isplitl [H5]
  · iexists _; isplitr; · ipureintro; exact hf5
    iexact H5
  iexists _; isplitr
  swap; · iexact H6
  ipureintro
  try sl_unfold_run_names
  rw [View.read_writes_eq_canon _ _ _ (cover_head hz _ _ _), View.canon_cons_unit_zero hz]
  simp only [View.readAt_eq_ld, hf0, hf1, View.ld_unit_zero (S := S512x2048) hz, View.ld_unit_zero (S := S1024x2048) hz,
    View.ld_unit_zero (S := S512x1) hz]
  exact congrArg (k0_pay3 x0 x1) (View.readCov_unit_zero (S := S512x1) arg6.view hz _ _)

set_option maxHeartbeats 2000000 in
/-- A middle point: the scratch goes from what the point before left to its maximum with the block's row maxima. -/
theorem sound_kernel0_B (c : Dev nD) (E : Set ℕ) (i : grid0.Coords)
    (arg2 : Memref sig .tc .vmem S512x2048 .f32) (harg2 : arg2.IsWhole) (arg3 : Memref sig .tc .vmem S1024x2048 .bf16) (harg3 : arg3.IsWhole)
    (arg4 : Memref sig .tc .vmem S512x1024 .bf16) (harg4 : arg4.IsWhole) (arg5 : Memref sig .tc .vmem S512x1 .f32) (harg5 : arg5.IsWhole)
    (arg6 : Memref sig .tc .vmem S512x1 .f32) (harg6 : arg6.IsWhole)
    (hc0 : ¬ cond0_0 i) (hc1 : ¬ cond0_1 i)
    (x0 : Vec F S512x2048 .f32) (x1 : Vec F S1024x2048 .bf16) (xi : Vec F S512x1 .f32) (xs : Vec F S512x1 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare (k0_pay4 x0 x1)
            ∗ owns (c : Thread nD τ) arg5 fullShare xi ∗ owns (c : Thread nD τ) arg6 fullShare (k0_pay3 x0 x1 xs)) -∗ K ⟨⟩))
      ⊢ wp frame (wpE (defs₀ (F := F)) Variants.none c none) E (cc0__layer1_kernel i arg2 harg2 arg3 harg3 arg4 harg4 arg5 harg5 arg6 harg6) K := by
  simp only [cc0__layer1_kernel_eq_skeleton]; unfold cc0__layer1_kernel_skel
  unfold owns
  iintro ⟨⟨%f0, %hf0, H0⟩, ⟨%f1, %hf1, H1⟩, ⟨%d4, %f4, -, H4⟩, ⟨%f5, %hf5, H5⟩, ⟨%f6, %hf6, H6⟩, Hk⟩
  obtain rfl := harg2.eq_unread hf0; obtain rfl := harg3.eq_unread hf1; obtain rfl := harg5.eq_unread hf5; obtain rfl := harg6.eq_unread hf6
  sl_exec (disch := first | exact hc0 | exact hc1)
  sl_step
  iapply Hk
  have hz := zero_off
  isplitl [H0]
  · iexists _; isplitr; · ipureintro; exact hf0
    iexact H0
  isplitl [H1]
  · iexists _; isplitr; · ipureintro; exact hf1
    iexact H1
  isplitl [H4]
  · iexists _; isplitr
    swap; · iexact H4
    ipureintro
    try sl_unfold_run_names
    rw [View.read_writes_eq_canon _ _ _ (cover_head hz _ _ _), View.canon_cons_unit_zero hz]
    simp only [View.readAt_eq_ld, hf0, hf1, View.ld_unit_zero (S := S512x2048) hz, View.ld_unit_zero (S := S1024x2048) hz]
  isplitl [H5]
  · iexists _; isplitr; · ipureintro; exact hf5
    iexact H5
  iexists _; isplitr
  swap; · iexact H6
  ipureintro
  try sl_unfold_run_names
  rw [View.read_writes_eq_canon _ _ _ (cover_head hz _ _ _), View.canon_cons_unit_zero hz]
  simp only [View.readAt_eq_ld, hf0, hf1, hf6, View.ld_unit_zero (S := S512x2048) hz, View.ld_unit_zero (S := S1024x2048) hz,
    View.ld_unit_zero (S := S512x1) hz]

set_option maxHeartbeats 2000000 in
/-- The last point of a row block: as a middle point, and the scratch is copied into the row-maximum window. -/
theorem sound_kernel0_C (c : Dev nD) (E : Set ℕ) (i : grid0.Coords)
    (arg2 : Memref sig .tc .vmem S512x2048 .f32) (harg2 : arg2.IsWhole) (arg3 : Memref sig .tc .vmem S1024x2048 .bf16) (harg3 : arg3.IsWhole)
    (arg4 : Memref sig .tc .vmem S512x1024 .bf16) (harg4 : arg4.IsWhole) (arg5 : Memref sig .tc .vmem S512x1 .f32) (harg5 : arg5.IsWhole)
    (arg6 : Memref sig .tc .vmem S512x1 .f32) (harg6 : arg6.IsWhole)
    (hc0 : ¬ cond0_0 i) (hc1 : cond0_1 i)
    (x0 : Vec F S512x2048 .f32) (x1 : Vec F S1024x2048 .bf16) (xs : Vec F S512x1 .f32) (K : PUnit → sProp 𝕄) :
    iprop(owns (c : Thread nD τ) arg2 fullShare x0 ∗ owns (c : Thread nD τ) arg3 fullShare x1 ∗ (∃ d, owns (c : Thread nD τ) arg4 fullShare d)
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare (k0_pay4 x0 x1)
            ∗ owns (c : Thread nD τ) arg5 fullShare (k0_pay3 x0 x1 xs) ∗ owns (c : Thread nD τ) arg6 fullShare (k0_pay3 x0 x1 xs)) -∗ K ⟨⟩))
      ⊢ wp frame (wpE (defs₀ (F := F)) Variants.none c none) E (cc0__layer1_kernel i arg2 harg2 arg3 harg3 arg4 harg4 arg5 harg5 arg6 harg6) K := by
  simp only [cc0__layer1_kernel_eq_skeleton]; unfold cc0__layer1_kernel_skel
  unfold owns
  iintro ⟨⟨%f0, %hf0, H0⟩, ⟨%f1, %hf1, H1⟩, ⟨%d4, %f4, -, H4⟩, ⟨%d5, %f5, -, H5⟩, ⟨%f6, %hf6, H6⟩, Hk⟩
  obtain rfl := harg2.eq_unread hf0; obtain rfl := harg3.eq_unread hf1; obtain rfl := harg6.eq_unread hf6
  sl_exec (disch := first | exact hc0 | exact hc1)
  sl_step
  iapply Hk
  have hz := zero_off
  isplitl [H0]
  · iexists _; isplitr; · ipureintro; exact hf0
    iexact H0
  isplitl [H1]
  · iexists _; isplitr; · ipureintro; exact hf1
    iexact H1
  isplitl [H4]
  · iexists _; isplitr
    swap; · iexact H4
    ipureintro
    try sl_unfold_run_names
    rw [View.read_writes_eq_canon _ _ _ (cover_head hz _ _ _), View.canon_cons_unit_zero hz]
    simp only [View.readAt_eq_ld, hf0, hf1, View.ld_unit_zero (S := S512x2048) hz, View.ld_unit_zero (S := S1024x2048) hz]
  isplitl [H5]
  · iexists _; isplitr
    swap; · iexact H5
    ipureintro
    try sl_unfold_run_names
    rw [View.read_writes_eq_canon _ _ _ (cover_head hz _ _ _), View.canon_cons_unit_zero hz]
    simp only [View.readAt_eq_ld, hf0, hf1, hf6, View.ld_unit_zero (S := S512x2048) hz, View.ld_unit_zero (S := S1024x2048) hz,
    View.ld_unit_zero (S := S512x1) hz]
    exact View.readCov_unit_zero (S := S512x1) arg6.view hz _ _
  iexists _; isplitr
  swap; · iexact H6
  ipureintro
  try sl_unfold_run_names
  rw [View.read_writes_eq_canon _ _ _ (cover_head hz _ _ _), View.canon_cons_unit_zero hz]
  simp only [View.readAt_eq_ld, hf0, hf1, hf6, View.ld_unit_zero (S := S512x2048) hz, View.ld_unit_zero (S := S1024x2048) hz,
    View.ld_unit_zero (S := S512x1) hz]

end Cert.KernelIdeal.Hand

end
-- ==== Proof.KIObl0.lean ====
import proofs.«126096_j50276887167090_1_alg».proof.Proof.KIBody0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Layer 1's body obligation -/

variable (V : (c : Dev nD) → (b : Ref sig .tc) → Buf (Elt F) ((c : Thread nD τ).loc b))

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- Whatever the position, the invariant holds the scratch at SOME contents beside the other scoped buffers. -/
theorem Phi0_any (c : Dev nD) (n : ℕ) (h : n ≤ cfg0.N) :
    Phi0 V c n h ⊢ iprop(iprop((∃ d, owns (c : Thread nD τ) scM0 fullShare d) ∗ rest0 (F := F) c) ∗ (∃ r, prngReg c r)) := by
  cases n with
  | zero => rw [Phi0_zero V c 0 h rfl, PhiA0_eq]; try exact Idealize.SL.BI.Entails.refl _
  | succ n =>
    rw [Phi0_succ]
    iintro ⟨⟨HS, Hr⟩, Hg⟩
    isplitl [HS Hr]
    · isplitl [HS]
      · iexists _; iexact HS
      iexact Hr
    iexact Hg

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the position within the row block says which case runs;
    the invariant hands the scratch over at what the point before left (at anything at a row block's first point) and takes it
    back at this point's running maximum. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  have hN : t.val < 128 := lt_of_lt_of_eq t.isLt (show cfg0.N = 128 from N_0)
  by_cases h0 : t.val % 8 = 0
  · have h1 : ¬ t.val % 8 = 7 := by omega
    rw [Dat.leavesExact_idle (dat0 V c) 3 t (idleAt0_3 t (fun h => h1 ((hcond0_1 t).mp h))) (noFlush0_3 t (fun h => h1 ((hcond0_1 t).mp h)))]
    rw [acc0_first V c t h0, Phi0_castSucc V c t]
    iintro ⟨HΦ, Ho, ⟨%d0, H0⟩, ⟨%d1, H1⟩, ⟨%d2, H2⟩, ⟨%d3, H3⟩⟩
    ihave HΦ' := (Phi0_any V c _ _) $$ HΦ
    icases HΦ' with ⟨⟨HS, Hr⟩, Hg⟩
    iapply (sound_kernel0_A c Set.univ (grid0.coords t) _ _ _ _ _ _ _ _ _ _ ((hcond0_0 t).mpr h0) (fun h => h1 ((hcond0_1 t).mp h)) (iblk0 V c 0 t) (iblk0 V c 1 t) _ _)
    isplitl [H0]; · iexact H0
    isplitl [H1]; · iexact H1
    isplitl [H2]; · iexists _; iexact H2
    isplitl [H3]; · iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [acc0_next V c t h0, Phi0_castSucc V c t, Phi0_pos V c _ _ hz]
    by_cases h1 : t.val % 8 = 7
    · rw [show (dat0 V c).leavesExact 3 t = owns (c : Thread nD τ) (st0_3 t) fullShare ((dat0 V c).after 3 t) from by
        unfold Dat.leavesExact; rw [liveAt0_3 t ((hcond0_1 t).mpr h1)], after0_3, acc0_next V c t h0]
      iintro ⟨⟨⟨HS, Hr⟩, Hg⟩, Ho, ⟨%d0, H0⟩, ⟨%d1, H1⟩, ⟨%d2, H2⟩, ⟨%d3, H3⟩⟩
      iapply (sound_kernel0_C c Set.univ (grid0.coords t) _ _ _ _ _ _ _ _ _ _ (fun h => h0 ((hcond0_0 t).mp h)) ((hcond0_1 t).mpr h1) (iblk0 V c 0 t) (iblk0 V c 1 t) _ _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · rw [Dat.leavesExact_idle (dat0 V c) 3 t (idleAt0_3 t (fun h => h1 ((hcond0_1 t).mp h))) (noFlush0_3 t (fun h => h1 ((hcond0_1 t).mp h)))]
      iintro ⟨⟨⟨HS, Hr⟩, Hg⟩, Ho, ⟨%d0, H0⟩, ⟨%d1, H1⟩, ⟨%d2, H2⟩, ⟨%d3, H3⟩⟩
      iapply (sound_kernel0_B c Set.univ (grid0.coords t) _ _ _ _ _ _ _ _ _ _ (fun h => h0 ((hcond0_0 t).mp h)) (fun h => h1 ((hcond0_1 t).mp h)) (iblk0 V c 0 t) (iblk0 V c 1 t) _ _ _)
      isplitl [H0]; · iexact H0
      isplitl [H1]; · iexact H1
      isplitl [H2]; · iexists _; iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl, PhiA0_eq]
  exact Phi0_any V c _ _

end Cert.KernelIdeal.Hand

end
-- ==== Proof.KIBody1.lean ====
import proofs.«126096_j50276887167090_1_alg».proof.Proof.KIBody0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Layer 2's body, case by case

The same two branches on the second grid coordinate: the accumulator is zeroed where it is 0 and copied into the
output window where it is 7. -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

set_option maxHeartbeats 2000000 in
/-- The first point of a row block: the accumulator is zeroed, then holds the first block product. -/
theorem sound_kernel1_A (c : Dev nD) (E : Set ℕ) (i : grid1.Coords)
    (arg2 : Memref sig .tc .vmem S512x1024 .bf16) (harg2 : arg2.IsWhole) (arg3 : Memref sig .tc .vmem S512x1 .f32) (harg3 : arg3.IsWhole)
    (arg4 : Memref sig .tc .vmem S2048x1024 .bf16) (harg4 : arg4.IsWhole) (arg5 : Memref sig .tc .vmem S512x2048 .f32) (harg5 : arg5.IsWhole)
    (arg6 : Memref sig .tc .vmem S512x2048 .f32) (harg6 : arg6.IsWhole)
    (hc0 : cond1_0 i) (hc1 : ¬ cond1_1 i)
    (x0 : Vec F S512x1024 .bf16) (x1 : Vec F S512x1 .f32) (x2 : Vec F S2048x1024 .bf16) (xi : Vec F S512x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (k1_pay2 x0 x1 x2 (k1_pay1 (F := F)))) -∗ K ⟨⟩))
      ⊢ wp frame (wpE (defs₀ (F := F)) Variants.none c none) E (cc1__layer2_kernel i arg2 harg2 arg3 harg3 arg4 harg4 arg5 harg5 arg6 harg6) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%f5, %hf5, H5⟩, ⟨%d6, %f6, -, H6⟩, Hk⟩
  obtain rfl := harg2.eq_unread hf0; obtain rfl := harg3.eq_unread hf1; obtain rfl := harg4.eq_unread hf2; obtain rfl := harg5.eq_unread hf5
  sl_exec (disch := first | exact hc0 | exact hc1)
  sl_step
  iapply Hk
  have hz := zero_off
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H5]
  · iexists _; isplitr; · ipureintro; exact hf5
    iexact H5
  iexists _; isplitr
  swap; · iexact H6
  ipureintro
  try sl_unfold_run_names
  rw [View.read_writes_eq_canon _ _ _ (cover_head hz _ _ _), View.canon_cons_unit_zero hz]
  simp only [View.readAt_eq_ld, hf0, hf1, hf2, View.ld_unit_zero (S := S512x1024) hz, View.ld_unit_zero (S := S512x1) hz, View.ld_unit_zero (S := S2048x1024) hz, View.ld_unit_zero (S := S512x2048) hz]
  exact congrArg (k1_pay2 x0 x1 x2) (View.readCov_unit_zero (S := S512x2048) arg6.view hz _ _)

set_option maxHeartbeats 2000000 in
/-- A middle point: the accumulator gains the block product. -/
theorem sound_kernel1_B (c : Dev nD) (E : Set ℕ) (i : grid1.Coords)
    (arg2 : Memref sig .tc .vmem S512x1024 .bf16) (harg2 : arg2.IsWhole) (arg3 : Memref sig .tc .vmem S512x1 .f32) (harg3 : arg3.IsWhole)
    (arg4 : Memref sig .tc .vmem S2048x1024 .bf16) (harg4 : arg4.IsWhole) (arg5 : Memref sig .tc .vmem S512x2048 .f32) (harg5 : arg5.IsWhole)
    (arg6 : Memref sig .tc .vmem S512x2048 .f32) (harg6 : arg6.IsWhole)
    (hc0 : ¬ cond1_0 i) (hc1 : ¬ cond1_1 i)
    (x0 : Vec F S512x1024 .bf16) (x1 : Vec F S512x1 .f32) (x2 : Vec F S2048x1024 .bf16) (xi : Vec F S512x2048 .f32) (xs : Vec F S512x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (k1_pay2 x0 x1 x2 xs)) -∗ K ⟨⟩))
      ⊢ wp frame (wpE (defs₀ (F := F)) Variants.none c none) E (cc1__layer2_kernel i arg2 harg2 arg3 harg3 arg4 harg4 arg5 harg5 arg6 harg6) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf5; obtain rfl := harg6.eq_unread hf6
  sl_exec (disch := first | exact hc0 | exact hc1)
  sl_step
  iapply Hk
  have hz := zero_off
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H5]
  · iexists _; isplitr; · ipureintro; exact hf5
    iexact H5
  iexists _; isplitr
  swap; · iexact H6
  ipureintro
  try sl_unfold_run_names
  rw [View.read_writes_eq_canon _ _ _ (cover_head hz _ _ _), View.canon_cons_unit_zero hz]
  simp only [View.readAt_eq_ld, hf0, hf1, hf2, View.ld_unit_zero (S := S512x1024) hz, View.ld_unit_zero (S := S512x1) hz, View.ld_unit_zero (S := S2048x1024) hz, View.ld_unit_zero (S := S512x2048) hz, hf6]

set_option maxHeartbeats 2000000 in
/-- The last point of a row block: as a middle point, and the accumulator is copied into the output window. -/
theorem sound_kernel1_C (c : Dev nD) (E : Set ℕ) (i : grid1.Coords)
    (arg2 : Memref sig .tc .vmem S512x1024 .bf16) (harg2 : arg2.IsWhole) (arg3 : Memref sig .tc .vmem S512x1 .f32) (harg3 : arg3.IsWhole)
    (arg4 : Memref sig .tc .vmem S2048x1024 .bf16) (harg4 : arg4.IsWhole) (arg5 : Memref sig .tc .vmem S512x2048 .f32) (harg5 : arg5.IsWhole)
    (arg6 : Memref sig .tc .vmem S512x2048 .f32) (harg6 : arg6.IsWhole)
    (hc0 : ¬ cond1_0 i) (hc1 : cond1_1 i)
    (x0 : Vec F S512x1024 .bf16) (x1 : Vec F S512x1 .f32) (x2 : Vec F S2048x1024 .bf16) (xs : Vec F S512x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay2 x0 x1 x2 xs) ∗ owns (c : Thread nD τ) arg6 fullShare (k1_pay2 x0 x1 x2 xs)) -∗ K ⟨⟩))
      ⊢ wp frame (wpE (defs₀ (F := F)) Variants.none c none) E (cc1__layer2_kernel i arg2 harg2 arg3 harg3 arg4 harg4 arg5 harg5 arg6 harg6) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  obtain rfl := harg2.eq_unread hf0; obtain rfl := harg3.eq_unread hf1; obtain rfl := harg4.eq_unread hf2; obtain rfl := harg6.eq_unread hf6
  sl_exec (disch := first | exact hc0 | exact hc1)
  sl_step
  iapply Hk
  have hz := zero_off
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H5]
  · iexists _; isplitr
    swap; · iexact H5
    ipureintro
    try sl_unfold_run_names
    rw [View.read_writes_eq_canon _ _ _ (cover_head hz _ _ _), View.canon_cons_unit_zero hz]
    simp only [View.readAt_eq_ld, hf0, hf1, hf2, View.ld_unit_zero (S := S512x1024) hz, View.ld_unit_zero (S := S512x1) hz, View.ld_unit_zero (S := S2048x1024) hz, View.ld_unit_zero (S := S512x2048) hz, hf6]
    exact View.readCov_unit_zero (S := S512x2048) arg6.view hz _ _
  iexists _; isplitr
  swap; · iexact H6
  ipureintro
  try sl_unfold_run_names
  rw [View.read_writes_eq_canon _ _ _ (cover_head hz _ _ _), View.canon_cons_unit_zero hz]
  simp only [View.readAt_eq_ld, hf0, hf1, hf2, View.ld_unit_zero (S := S512x1024) hz, View.ld_unit_zero (S := S512x1) hz, View.ld_unit_zero (S := S2048x1024) hz, View.ld_unit_zero (S := S512x2048) hz, hf6]

end Cert.KernelIdeal.Hand

end
-- ==== Proof.KIObl1.lean ====
import proofs.«126096_j50276887167090_1_alg».proof.Proof.KIBody1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Layer 2's body obligation -/

variable (V : (c : Dev nD) → (b : Ref sig .tc) → Buf (Elt F) ((c : Thread nD τ).loc b))

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- Whatever the position, the invariant holds the accumulator at SOME contents beside the other scoped buffers. -/
theorem Phi1_any (c : Dev nD) (n : ℕ) (h : n ≤ cfg1.N) :
    Phi1 V c n h ⊢ iprop(pre1 (F := F) c iprop(∃ d, owns (c : Thread nD τ) scM1 fullShare d) ∗ (∃ r, prngReg c r)) := by
  cases n with
  | zero => rw [Phi1_zero V c 0 h rfl, PhiA1_eq]; try exact Idealize.SL.BI.Entails.refl _
  | succ n =>
    rw [Phi1_succ]; unfold pre1
    iintro ⟨⟨A1, A2, A3, A4, A5, A6, A7, A8, A9, HS⟩, Hg⟩
    isplitr [Hg]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      iexists _; iexact HS
    iexact Hg

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the position within the row block says which case runs;
    the invariant hands the accumulator over at what the point before left (at anything at a row block's first point) and
    takes it back at this point's running sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 128 := lt_of_lt_of_eq t.isLt (show cfg1.N = 128 from N_1)
  by_cases h0 : t.val % 8 = 0
  · have h1 : ¬ t.val % 8 = 7 := by omega
    rw [Dat.leavesExact_idle (dat1 V c) 3 t (idleAt1_3 t (fun h => h1 ((hcond1_1 t).mp h))) (noFlush1_3 t (fun h => h1 ((hcond1_1 t).mp h)))]
    rw [acc1_first V c t h0, Phi1_castSucc V c t]
    iintro ⟨HΦ, Ho, ⟨%d0, H0⟩, ⟨%d1, H1⟩, ⟨%d2, H2⟩, ⟨%d3, H3⟩⟩
    ihave HΦ' := (Phi1_any V c _ _) $$ HΦ
    unfold pre1
    icases HΦ' with ⟨⟨A1, A2, A3, A4, A5, A6, A7, A8, A9, HS⟩, Hg⟩
    iapply (sound_kernel1_A c Set.univ (grid1.coords t) _ _ _ _ _ _ _ _ _ _ ((hcond1_0 t).mpr h0) (fun h => h1 ((hcond1_1 t).mp h)) (iblk1 V c 0 t) (iblk1 V c 1 t) (iblk1 V c 2 t) _ _)
    isplitl [H0]; · iexact H0
    isplitl [H1]; · iexact H1
    isplitl [H2]; · iexact H2
    isplitl [H3]; · iexact H3
    isplitl [HS]; · iexact HS
    iintro ⟨H0, H1, H2, H3, HS⟩
    isplitr [Ho H0 H1 H2 H3]
    · isplitr [Hg]
      · isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        iexact HS
      iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [acc1_next V c t h0, Phi1_castSucc V c t, Phi1_pos V c _ _ hz]
    unfold pre1
    by_cases h1 : t.val % 8 = 7
    · rw [show (dat1 V c).leavesExact 3 t = owns (c : Thread nD τ) (st1_3 t) fullShare ((dat1 V c).after 3 t) from by
        unfold Dat.leavesExact; rw [liveAt1_3 t ((hcond1_1 t).mpr h1)], after1_3, acc1_next V c t h0]
      iintro ⟨⟨⟨A1, A2, A3, A4, A5, A6, A7, A8, A9, HS⟩, Hg⟩, Ho, ⟨%d0, H0⟩, ⟨%d1, H1⟩, ⟨%d2, H2⟩, ⟨%d3, H3⟩⟩
      iapply (sound_kernel1_C c Set.univ (grid1.coords t) _ _ _ _ _ _ _ _ _ _ (fun h => h0 ((hcond1_0 t).mp h)) ((hcond1_1 t).mpr h1) (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitr [Ho H0 H1 H2 H3]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          iexact HS
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      iintro ⟨⟨⟨A1, A2, A3, A4, A5, A6, A7, A8, A9, HS⟩, Hg⟩, Ho, ⟨%d0, H0⟩, ⟨%d1, H1⟩, ⟨%d2, H2⟩, ⟨%d3, H3⟩⟩
      iapply (sound_kernel1_B c Set.univ (grid1.coords t) _ _ _ _ _ _ _ _ _ _ (fun h => h0 ((hcond1_0 t).mp h)) (fun h => h1 ((hcond1_1 t).mp h)) (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitr [Ho H0 H1 H2 H3]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          iexact HS
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl, PhiA1_eq]
  exact Phi1_any V c _ _

end Cert.KernelIdeal.Hand

end
-- ==== Proof.KIRegs.lean ====
import proofs.«126096_j50276887167090_1_alg».proof.Proof.KIObl0
import proofs.«126096_j50276887167090_1_alg».proof.Proof.KIObl1
import proofs.«126096_j50276887167090_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two regions as segments of the program's run

The TensorCore's buffer contents at each boundary: `V13` (the generated fold of the thirteen stretches of host
operations before the first region), then each region's arrays at what its write-backs leave, every other buffer as
entered. -/

variable (m : (ℓ : Loc nD τ sig) → Buf (Elt F) ℓ)

/-- The contents layer 1 finds, read at the TensorCore's references. -/
abbrev Vin0 : (c : Dev nD) → (b : Ref sig .tc) → Buf (Elt F) ((c : Thread nD τ).loc b) := fun c b => V13 m c b
/-- After layer 1: its arrays at what the pipeline leaves, every other buffer as entered. -/
def W14 (c : Dev nD) : Valuation τ sig (Elt F) :=
  Pipeline.withArrays spec0 c (V13 m c) fun w => (dat0 (Vin0 m) c).arrAt w cfg0.N
theorem W14_arr (c : Dev nD) (w : Fin cfg0.W) :
    W14 m c (Proc.devRef .tc (Pipeline.arrRef spec0 w)) = (dat0 (Vin0 m) c).arrAt w cfg0.N := by
  unfold W14; exact Pipeline.withArrays_arr spec0 launch0.win.arr_inj c _ _ w
theorem W14_of_ne (c : Dev nD) (b : Ref sig .tc) (hb : ∀ w, Pipeline.arrRef spec0 w ≠ b) :
    W14 m c (Proc.devRef .tc b) = V13 m c (Proc.devRef .tc b) := by
  unfold W14; exact Pipeline.withArrays_of_ne spec0 c _ _ b hb
/-- The same read at the TensorCore's references: what layer 2 finds. -/
abbrev Vin1 : (c : Dev nD) → (b : Ref sig .tc) → Buf (Elt F) ((c : Thread nD τ).loc b) := fun c b => W14 m c b
theorem hF0 (c : Dev nD) (w : Fin cfg0.W) : (dat0 (Vin0 m) c).arrAt w cfg0.N = Vin1 m c (Pipeline.arrRef spec0 w) :=
  (W14_arr m c w).symm
theorem hrest0 (c : Dev nD) : ∀ b, b ∉ Finset.univ.image (Pipeline.arrRef spec0) → Vin1 m c b = Vin0 m c b :=
  fun b hb => W14_of_ne m c b fun w e => hb (Finset.mem_image.mpr ⟨w, Finset.mem_univ _, e⟩)

/-- After layer 2. -/
def W15 (c : Dev nD) : Valuation τ sig (Elt F) :=
  Pipeline.withArrays spec1 c (W14 m c) fun w => (dat1 (Vin1 m) c).arrAt w cfg1.N
theorem W15_arr (c : Dev nD) (w : Fin cfg1.W) :
    W15 m c (Proc.devRef .tc (Pipeline.arrRef spec1 w)) = (dat1 (Vin1 m) c).arrAt w cfg1.N := by
  unfold W15; exact Pipeline.withArrays_arr spec1 launch1.win.arr_inj c _ _ w
theorem W15_of_ne (c : Dev nD) (b : Ref sig .tc) (hb : ∀ w, Pipeline.arrRef spec1 w ≠ b) :
    W15 m c (Proc.devRef .tc b) = W14 m c (Proc.devRef .tc b) := by
  unfold W15; exact Pipeline.withArrays_of_ne spec1 c _ _ b hb
abbrev Vout1 : (c : Dev nD) → (b : Ref sig .tc) → Buf (Elt F) ((c : Thread nD τ).loc b) := fun c b => W15 m c b
theorem hF1 (c : Dev nD) (w : Fin cfg1.W) : (dat1 (Vin1 m) c).arrAt w cfg1.N = Vout1 m c (Pipeline.arrRef spec1 w) :=
  (W15_arr m c w).symm
theorem hrest1 (c : Dev nD) : ∀ b, b ∉ Finset.univ.image (Pipeline.arrRef spec1) → Vout1 m c b = Vin1 m c b :=
  fun b hb => W15_of_ne m c b fun w e => hb (Finset.mem_image.mpr ⟨w, Finset.mem_univ _, e⟩)

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c

abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

set_option backward.isDefEq.respectTransparency.types false in
/-- Region 0 over the thread state: entered from every unscoped buffer at the contents before it, left at the contents
    after it. Its arrays are split out of the unscoped buffers and put back at what the write-backs leave; the generator
    register goes into the kernel's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (V13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vin1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at what the write-backs leave; the generator
    register goes into the kernel's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (W14 m c) ∗ R c)
  post c := iprop(StableHlo.held (c : Thread nD τ) (Pipeline.ucRefs τ sig) (W15 m c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (Vin1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRun.lean ====
import proofs.«126096_j50276887167090_1_alg».proof.Proof.KIRegs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The program's run

@main is thirteen stretches of host operations, the two regions, and a closing reshape.  Every weakly fair execution
terminates, and every final memory holds each unscoped buffer at the last boundary's contents. -/

variable (m : (ℓ : Loc nD τ sig) → Buf (Elt F) ℓ) (ρ : Dev nD → PrngReg)

/-- The contents after the closing reshape. -/
abbrev W16 (c : Dev nD) : Valuation τ sig (Elt F) := StableHlo.after hostOps2 (W15 m c)

/-- @main's sixteen segments in order. -/
abbrev segs : List (Pipeline.Seg (pcfgs (F := F)) adm (pdats m) () defs₀ 𝒱₀ L lv) :=
  [
    .host (Pipeline.HostSeg.ofOps _ _ _ _ _ (Pipeline.ucRefs τ sig) hostOps0
      (fun op h => Pipeline.sub_ucRefs op ((List.forall_iff_forall_mem.mp hostOps0_sub) op h))
      (fun op h => (List.forall_iff_forall_mem.mp hostOps0_fresh) op h) (V0 m) R),
    .host (Pipeline.HostSeg.ofOps _ _ _ _ _ (Pipeline.ucRefs τ sig) hostOps0_1
      (fun op h => Pipeline.sub_ucRefs op ((List.forall_iff_forall_mem.mp hostOps0_1_sub) op h))
      (fun op h => (List.forall_iff_forall_mem.mp hostOps0_1_fresh) op h) (V1 m) R),
    .host (Pipeline.HostSeg.ofOps _ _ _ _ _ (Pipeline.ucRefs τ sig) hostOps0_2
      (fun op h => Pipeline.sub_ucRefs op ((List.forall_iff_forall_mem.mp hostOps0_2_sub) op h))
      (fun op h => (List.forall_iff_forall_mem.mp hostOps0_2_fresh) op h) (V2 m) R),
    .host (Pipeline.HostSeg.ofOps _ _ _ _ _ (Pipeline.ucRefs τ sig) hostOps0_3
      (fun op h => Pipeline.sub_ucRefs op ((List.forall_iff_forall_mem.mp hostOps0_3_sub) op h))
      (fun op h => (List.forall_iff_forall_mem.mp hostOps0_3_fresh) op h) (V3 m) R),
    .host (Pipeline.HostSeg.ofOps _ _ _ _ _ (Pipeline.ucRefs τ sig) hostOps0_4
      (fun op h => Pipeline.sub_ucRefs op ((List.forall_iff_forall_mem.mp hostOps0_4_sub) op h))
      (fun op h => (List.forall_iff_forall_mem.mp hostOps0_4_fresh) op h) (V4 m) R),
    .host (Pipeline.HostSeg.ofOps _ _ _ _ _ (Pipeline.ucRefs τ sig) hostOps0_5
      (fun op h => Pipeline.sub_ucRefs op ((List.forall_iff_forall_mem.mp hostOps0_5_sub) op h))
      (fun op h => (List.forall_iff_forall_mem.mp hostOps0_5_fresh) op h) (V5 m) R),
    .host (Pipeline.HostSeg.ofOps _ _ _ _ _ (Pipeline.ucRefs τ sig) hostOps0_6
      (fun op h => Pipeline.sub_ucRefs op ((List.forall_iff_forall_mem.mp hostOps0_6_sub) op h))
      (fun op h => (List.forall_iff_forall_mem.mp hostOps0_6_fresh) op h) (V6 m) R),
    .host (Pipeline.HostSeg.ofOps _ _ _ _ _ (Pipeline.ucRefs τ sig) hostOps0_7
      (fun op h => Pipeline.sub_ucRefs op ((List.forall_iff_forall_mem.mp hostOps0_7_sub) op h))
      (fun op h => (List.forall_iff_forall_mem.mp hostOps0_7_fresh) op h) (V7 m) R),
    .host (Pipeline.HostSeg.ofOps _ _ _ _ _ (Pipeline.ucRefs τ sig) hostOps0_8
      (fun op h => Pipeline.sub_ucRefs op ((List.forall_iff_forall_mem.mp hostOps0_8_sub) op h))
      (fun op h => (List.forall_iff_forall_mem.mp hostOps0_8_fresh) op h) (V8 m) R),
    .host (Pipeline.HostSeg.ofOps _ _ _ _ _ (Pipeline.ucRefs τ sig) hostOps0_9
      (fun op h => Pipeline.sub_ucRefs op ((List.forall_iff_forall_mem.mp hostOps0_9_sub) op h))
      (fun op h => (List.forall_iff_forall_mem.mp hostOps0_9_fresh) op h) (V9 m) R),
    .host (Pipeline.HostSeg.ofOps _ _ _ _ _ (Pipeline.ucRefs τ sig) hostOps0_10
      (fun op h => Pipeline.sub_ucRefs op ((List.forall_iff_forall_mem.mp hostOps0_10_sub) op h))
      (fun op h => (List.forall_iff_forall_mem.mp hostOps0_10_fresh) op h) (V10 m) R),
    .host (Pipeline.HostSeg.ofOps _ _ _ _ _ (Pipeline.ucRefs τ sig) hostOps0_11
      (fun op h => Pipeline.sub_ucRefs op ((List.forall_iff_forall_mem.mp hostOps0_11_sub) op h))
      (fun op h => (List.forall_iff_forall_mem.mp hostOps0_11_fresh) op h) (V11 m) R),
    .host (Pipeline.HostSeg.ofOps _ _ _ _ _ (Pipeline.ucRefs τ sig) hostOps0_12
      (fun op h => Pipeline.sub_ucRefs op ((List.forall_iff_forall_mem.mp hostOps0_12_sub) op h))
      (fun op h => (List.forall_iff_forall_mem.mp hostOps0_12_fresh) op h) (V12 m) R),
    .region (reg0 m),
    .region (reg1 m),
    .host (Pipeline.HostSeg.ofOps _ _ _ _ _ (Pipeline.ucRefs τ sig) hostOps2
      (fun op h => Pipeline.sub_ucRefs op ((List.forall_iff_forall_mem.mp hostOps2_sub) op h))
      (fun op h => (List.forall_iff_forall_mem.mp hostOps2_fresh) op h) (W15 m) R) ]

set_option backward.isDefEq.respectTransparency.types false in
/-- THE RUN: from any memory with zero counters every weakly fair execution of @main terminates, nothing faulting, and the
    final memory holds every unscoped TensorCore buffer at the contents `W16`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m c b) := by
  refine Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W16 m c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W16 m c) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m c b)
    (hfin := fun c s' => by
      iintro ⟨⟨Hh, -⟩, HSI⟩
      unfold StableHlo.held
      imodintro
      iapply (pointsTo_read_all (Pipeline.ucRefs τ sig) (fun b => (((c : Thread nD τ)).1, b)) (W16 m c) s')
      isplitl [Hh] <;> iassumption)
    (hQ := fun s h c => h c)

/-- An unscoped TensorCore reference is among those the final memory is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- `main_arg0` reaches the end as launched: no stretch of host operations writes it and no region's window stages it as an output. -/
theorem W16_main_arg0 (c : Dev nD) : W16 m c main_arg0 = m ((c : Thread nD τ).loc main_arg0) :=
  (StableHlo.after_of_writes_sub hostOps2 _ hostOps2_writes (by decide)).trans <| (W15_of_ne m c main_arg0 (by decide)).trans <| (W14_of_ne m c main_arg0 (by decide)).trans <|
    (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
/-- `main_arg1` reaches the end as launched: no stretch of host operations writes it and no region's window stages it as an output. -/
theorem W16_main_arg1 (c : Dev nD) : W16 m c main_arg1 = m ((c : Thread nD τ).loc main_arg1) :=
  (StableHlo.after_of_writes_sub hostOps2 _ hostOps2_writes (by decide)).trans <| (W15_of_ne m c main_arg1 (by decide)).trans <| (W14_of_ne m c main_arg1 (by decide)).trans <|
    (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
/-- `main_arg2` reaches the end as launched: no stretch of host operations writes it and no region's window stages it as an output. -/
theorem W16_main_arg2 (c : Dev nD) : W16 m c main_arg2 = m ((c : Thread nD τ).loc main_arg2) :=
  (StableHlo.after_of_writes_sub hostOps2 _ hostOps2_writes (by decide)).trans <| (W15_of_ne m c main_arg2 (by decide)).trans <| (W14_of_ne m c main_arg2 (by decide)).trans <|
    (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans <| rfl

/-- The run, read at the result and at the three arguments. -/
theorem run_main : θ_run defs (onTc (τ := τ) (main (F := F))) ⟨m, fun _ => 0, ρ⟩ (fun r => ∀ c : Dev nD,
      r.2.mem ((c.tc : Thread nD τ).loc main_v27) = W16 m c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨h c _ (mem_uc main_v27 (by decide)),
      (h c _ (mem_uc main_arg0 (by decide))).trans (W16_main_arg0 m c),
      (h c _ (mem_uc main_arg1 (by decide))).trans (W16_main_arg1 m c),
      (h c _ (mem_uc main_arg2 (by decide))).trans (W16_main_arg2 m c)⟩) (run_all m ρ)

end Cert.KernelIdeal.Hand

end
-- ==== Proof.Spec.lean ====
/-
  The function both programs compute, over the extended reals, index by index.

  A row `v` of activations is quantized per token: with `a = max_k |v k|` the scale is `127 / max(ε, a)` and each
  entry becomes `clamp(round(v k · scale), -128, 127) / scale`.  A weight matrix is quantized per tensor with the
  scale `1 / max(ε, mean |w|)` and the clamp `[-1, 1]`.  The hidden layer is `relu(quant(x) · quant(w1)ᵀ)`, the
  result `quant(hidden) · quant(w2)ᵀ`.
-/
import Idealize.ShloMosaic.PureOps.Ideal
import Idealize.ShloMosaic.Lib.ValueIdx

noncomputable section

namespace Cert.Spec

open Idealize.ShloMosaic

/-- The small constant that keeps a scale's denominator positive (the single-precision word of 1e-5). -/
def eps : EReal := Ideal.ofBits .f32 0x3727C5AC#32
/-- 127, the upper clamp of an activation. -/
def hi : EReal := Ideal.ofBits .f32 0x42FE0000#32
/-- -128, the lower clamp of an activation. -/
def lo : EReal := Ideal.ofBits .f32 0xC3000000#32
/-- The word of -∞, where a maximum starts. -/
def ninf : EReal := Ideal.ofBits .f32 0xFF800000#32
/-- The zero word. -/
def zero : EReal := Ideal.ofBits .f32 0x00000000#32
/-- 1 and -1, the clamps of a ternary weight. -/
def one : EReal := Ideal.ofBits .f32 0x3F800000#32
def mone : EReal := Ideal.ofBits .f32 0xBF800000#32
/-- 2^24, the number of entries of either weight matrix. -/
def count : EReal := Ideal.ofBits .f32 0x4B800000#32

/-- Rounding to the nearest integer, ties to even. -/
def rnd (v : EReal) : EReal := Ideal.liftRound Ideal.roundHalfEven v

/-- The absolute maximum of a row, from -∞. -/
def rowAbsMax {n : ℕ} (f : Fin n → EReal) : EReal :=
  (Finset.univ : Finset (Fin n)).fold max ninf (fun k => max (f k) (-(f k)))

/-- A token's scale from its row's absolute maximum. -/
def scale (amax : EReal) : EReal := Ideal.div hi (max eps amax)

/-- One activation quantized at the scale `s`. -/
def quant (s v : EReal) : EReal := Ideal.div (min hi (max lo (rnd (v * s)))) s

/-- A row of activations quantized at its own scale. -/
def act {n : ℕ} (f : Fin n → EReal) : Fin n → EReal := fun k => quant (scale (rowAbsMax f)) (f k)

/-- The sum of the absolute values of every entry of an array, from the zero word. -/
def sumAbs {s : Shape} (w : s.Idx → EReal) : EReal := zero + ∑ j : s.Idx, max (w j) (-(w j))

/-- A weight matrix's scale from the sum of its absolute values. -/
def wscale (sumabs : EReal) : EReal := Ideal.div one (max eps (Ideal.div sumabs count))

/-- One weight quantized at the scale `s`. -/
def wquant (s v : EReal) : EReal := Ideal.div (min one (max mone (rnd (v * s)))) s

/-- The hidden layer: the quantized token against every quantized row of the first weight matrix, negative sums
    replaced by zero. -/
def hidden {D O : ℕ} (x : Fin D → EReal) (W1 : Fin O → Fin D → EReal) : Fin O → EReal :=
  fun o => max (∑ d, act x d * W1 o d) zero

/-- The output: the quantized hidden row against every quantized row of the second weight matrix. -/
def out {D O E : ℕ} (x : Fin D → EReal) (W1 : Fin O → Fin D → EReal) (W2 : Fin E → Fin O → EReal) : Fin E → EReal :=
  fun e => ∑ o, act (hidden x W1) o * W2 e o

end Cert.Spec

end
-- ==== Proof.LibTransposedDot.lean ====
/-
  A general lemma file: the matrix product M×K by N×K, the right operand contracted on its LAST axis, read at an entry,
  at the ideal values.

  A `tpu.matmul` into the zero accumulator whose dimension numbers contract the left operand's second axis with the
  right operand's second axis (no batch axis) — the product of a matrix with the transpose of another, as in the
  scores `q · Cᵀ` of an attention head — is, at entry `(i, j)`, the sum over `k : Fin K` of `L (i, k) * R (j, k)`.
  Stated for any dimension record EQUAL to the library's `DotDims.transposedRhs M K N` (a printed program's record
  with these dimension numbers is, by `rfl`), for any extents and operand formats.
-/
import Idealize.ShloMosaic.Lib.ValueIdx
import Idealize.ShloMosaic.PureOps.Ideal.Laws

noncomputable section

open scoped BigOperators

namespace Cert.TransposedDot

open Idealize.ShloMosaic Idealize.ShloMosaic.ValueIdx

variable (M K N : ℕ)

/-- The left operand's index at result index `j` and contraction index `q` has `j`'s row … -/
theorem lhs0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- … and the contraction coordinate as its column. -/
theorem lhs1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's index has `j`'s column as its ROW … -/
theorem rhs0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- … and the contraction coordinate as its column. -/
theorem rhs1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

variable {M K N}

/-- The contraction's sum over its index type is the sum over `k : Fin K` of the operands at `(i, k)` and `(j, k)`. -/
theorem sum_contr {φ₁ φ₂ : FTy} (L : FVec Ideal ⟨2, ![M, K]⟩ φ₁) (R : FVec Ideal ⟨2, ![N, K]⟩ φ₂) (i : Fin M) (j : Fin N) :
    ∑ q : (DotDims.transposedRhs M K N).contr.Idx,
        L ((DotDims.transposedRhs M K N).lhsIdx (ix2 i j) q) * R ((DotDims.transposedRhs M K N).rhsIdx (ix2 i j) q)
      = ∑ k : Fin K, L (ix2 i k) * R (ix2 j k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => exact lhs0 M K N _ _
      | ⟨1, _⟩ => exact (lhs1 M K N _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => exact rhs0 M K N _ _
      | ⟨1, _⟩ => exact (rhs1 M K N _ _).trans hk)
  rw [el, er]

/-- A `tpu.matmul` with these dimension numbers into the zero splat, read at `(i, j)`. -/
theorem matmul_zero_apply {φ₁ φ₂ : FTy} (d : DotDims ⟨2, ![M, K]⟩ ⟨2, ![N, K]⟩ ⟨2, ![M, N]⟩) (hd : d = DotDims.transposedRhs M K N)
    (prec : Option ContractPrecision) (L : FVec Ideal ⟨2, ![M, K]⟩ φ₁) (R : FVec Ideal ⟨2, ![N, K]⟩ φ₂) (i : Fin M) (j : Fin N) :
    matmul d prec L R (constant (F := Ideal) ⟨2, ![M, N]⟩ .f32 0x00000000#32) (ix2 i j) = ∑ k : Fin K, L (ix2 i k) * R (ix2 j k) := by
  subst hd
  show FloatOps.matmul (DotDims.transposedRhs M K N) prec L R (constant ⟨2, ![M, N]⟩ .f32 0x00000000#32) (ix2 i j) = _
  rw [Ideal.matmul_constant_zero_apply]
  exact sum_contr L R i j

end Cert.TransposedDot

end
-- ==== Proof.LibColumnLayouts.lean ====
/-
  Casts and broadcasts through a TRAILING unit axis, read at an index written by coordinates.

  A reduction that keeps its dimension, or a per-row scalar spread along a row, goes through shapes with a unit axis
  at the END: `[a] → [a, 1] → [a, b]` and `[a, b] → [a, b, 1] → [a, b, c]`. Each lemma below says which entry of the
  operand a cast or broadcast of that family reads, for any extents; the last one is a `[1, 1, c]` row spread over
  both leading axes. All are instances of the library's general reading of a shape cast (same row-major position)
  and of a broadcast (the operand at the trailing coordinates, `0` on its unit axes).
-/
import Idealize.ShloMosaic.Lib.Pipeline.Value
import Idealize.ShloMosaic.Lib.ValueIdx

noncomputable section

namespace Cert.ColumnLayouts

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(p, s, k)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (k : Fin c) :
    broadcastTo ⟨3, ![a, b, c]⟩ v h (ix3 p s k) = v (ix3 p s (0 : Fin 1)) := by
  refine broadcastTo_apply v h (ix3 p s k) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

/-- A `[1, 1, c]` row broadcast to `[a, b, c]` reads, at `(p, s, k)`, the row's entry `k`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (k : Fin c) :
    broadcastTo ⟨3, ![a, b, c]⟩ v h (ix3 p s k) = v (ix3 (0 : Fin 1) (0 : Fin 1) k) := by
  refine broadcastTo_apply v h (ix3 p s k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.ColumnLayouts

end
-- ==== Proof.KIValue1Pay.lean ====
/-
  Layer 2's body at one entry.

  At a grid point the body holds a block `h` of 512 × 1024 hidden values, the 512 row maxima `rm` of their rows, a
  block `w` of 2048 × 1024 quantized second-layer weights and the running sum `acc`.  Each hidden value is
  quantized with its own row's scale `127 / max(ε, rm p)` — multiplied by the scale, rounded to the nearest even
  integer, clamped to [-128, 127], divided by the scale again — and the quantized block is multiplied with the
  transpose of the weight block; the product is added to the running sum.  So entry `(p, e)` of what the body
  stores is `acc (p, e) + ∑ q, quant (scale (rm p)) (h (p, q)) · w (e, q)`, the sum over the block's 1024 columns.
-/
import proofs.«126096_j50276887167090_1_alg».proof.Proof.Gen.KernelIdeal.Skeleton
import proofs.«126096_j50276887167090_1_alg».proof.Proof.Spec
import proofs.«126096_j50276887167090_1_alg».proof.Proof.LibTransposedDot
import proofs.«126096_j50276887167090_1_alg».proof.Proof.LibColumnLayouts
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Value1

open Cert.KernelIdeal Cert.KernelIdeal.Gen
open Idealize.ShloMosaic Idealize.ShloMosaic.ValueIdx

/-- The block the body stores at the first point of a row block's walk is zero everywhere. -/
theorem pay1_apply (p : Fin 512) (e : Fin 2048) : k1_pay1 (F := Ideal) (ix2 p e) = 0 := by
  unfold k1_pay1
  simp only [shapeCast_self]
  exact Ideal.ofBits_zero_f32

/-- One entry of what the body stores: the running sum's entry plus the row of quantized hidden values against the
    weight block's row. -/
theorem pay2_apply (h : Vec Ideal S512x1024 .bf16) (rm : Vec Ideal S512x1 .f32) (w : Vec Ideal S2048x1024 .bf16)
    (acc : Vec Ideal S512x2048 .f32) (p : Fin 512) (e : Fin 2048) :
    k1_pay2 h rm w acc (ix2 p e)
      = acc (ix2 p e) + ∑ q : Fin 1024, Cert.Spec.quant (Cert.Spec.scale (rm (ix2 p (0 : Fin 1)))) (h (ix2 p q)) * w (ix2 e q) := by
  unfold k1_pay2
  simp only [shapeCast_self]
  refine congrArg (acc (ix2 p e) + ·) ?_
  refine (Cert.TransposedDot.matmul_zero_apply (φ₁ := .bf16) (φ₂ := .bf16) dot_S512x1024_S2048x1024_S512x2048_1_1_0_0_n_n rfl none _ w p e).trans ?_
  refine Finset.sum_congr rfl fun q _ => congrArg (· * w (ix2 e q)) ?_
  show Ideal.div (min _ (max _ (Ideal.liftRound Ideal.roundHalfEven
      (h (ix2 p q) * broadcastTo S512x1024 _ broadcasts_S512x1_S512x1024 (ix2 p q)))))
      (broadcastTo S512x1024 _ broadcasts_S512x1_S512x1024 (ix2 p q)) = _
  rw [Cert.ColumnLayouts.broadcastTo_a1_ab_apply]
  rfl

end Cert.KernelIdeal.Value1

end
-- ==== Proof.KIValue1Blk.lean ====
/-
  Layer 2's input blocks, read off their arrays.

  Layer 2 walks a 16 × 8 grid; point `t` has the row block `t / 8` (512 rows of the 8192) and the column block
  `t % 8` (1024 of the 8192 contracted columns).  At that point the hidden window holds rows
  `512 (t / 8) + p`, columns `1024 (t % 8) + q` of the hidden array, the row-maximum window rows `512 (t / 8) + p`
  of the row-maximum column, and the weight window all 2048 rows, columns `1024 (t % 8) + q`, of the second
  weight matrix: a block's coordinate in its array is the block index times the block size plus the coordinate
  inside the block.
-/
import proofs.«126096_j50276887167090_1_alg».proof.Proof.KIData
import Idealize.ShloMosaic.Lib.Pipeline.Value
import Idealize.ShloMosaic.Lib.ValueIdx

set_option maxRecDepth 16384

noncomputable section

namespace Cert.KernelIdeal.Value1

open Cert.KernelIdeal Cert.KernelIdeal.Gen Cert.KernelIdeal.Hand
open Idealize.ShloMosaic Idealize.ShloMosaic.TcCoe Idealize.ShloMosaic.ValueIdx

/-- The four index maps in closed form, decided over the 128 grid points. -/
theorem idx_facts : ∀ t : Fin cfg1.N,
    win1_0.index t (0 : Fin 2) = t.val / 8 ∧ win1_0.index t (1 : Fin 2) = t.val % 8
    ∧ win1_1.index t (0 : Fin 2) = t.val / 8 ∧ win1_1.index t (1 : Fin 2) = 0
    ∧ win1_2.index t (0 : Fin 2) = 0 ∧ win1_2.index t (1 : Fin 2) = t.val % 8
    ∧ win1_3.index t (0 : Fin 2) = t.val / 8 ∧ win1_3.index t (1 : Fin 2) = 0 :=
  (by decide +kernel : ∀ t : Fin grid1.N,
    win1_0.index t (0 : Fin 2) = t.val / 8 ∧ win1_0.index t (1 : Fin 2) = t.val % 8
    ∧ win1_1.index t (0 : Fin 2) = t.val / 8 ∧ win1_1.index t (1 : Fin 2) = 0
    ∧ win1_2.index t (0 : Fin 2) = 0 ∧ win1_2.index t (1 : Fin 2) = t.val % 8
    ∧ win1_3.index t (0 : Fin 2) = t.val / 8 ∧ win1_3.index t (1 : Fin 2) = 0)

variable {F : FTy → Type} [FloatOps F]
variable (V : (c : Dev nD) → (b : Ref sig .tc) → Buf (Elt F) ((c : Thread nD τ).loc b)) (c : Dev nD)

/-- The hidden window at point `t`: entry `(p, q)` is the hidden array's entry `(512 (t / 8) + p, 1024 (t % 8) + q)`. -/
theorem hidden_blk (t : Fin cfg1.N) (p : Fin 512) (q : Fin 1024) (r o : Fin 8192)
    (hr : r.val = 512 * (t.val / 8) + p.val) (ho : o.val = 1024 * (t.val % 8) + q.val) :
    iblk1 V c 0 t (ix2 p q) = V c main_v25_0 (ix2 r o) := by
  obtain ⟨e0, e1, -⟩ := idx_facts t
  unfold iblk1
  rw [View.read_apply]
  show V c main_v25_0 _ = V c main_v25_0 _
  congr 1
  funext a
  apply Fin.ext
  match a with
  | ⟨0, _⟩ => show win1_0.index t (0 : Fin 2) * 512 + 1 * p.val = r.val; rw [e0]; omega
  | ⟨1, _⟩ => show win1_0.index t (1 : Fin 2) * 1024 + 1 * q.val = o.val; rw [e1]; omega

/-- The row-maximum window at point `t`: entry `(p, 0)` is the row-maximum column's entry `512 (t / 8) + p`. -/
theorem rowmax_blk (t : Fin cfg1.N) (p : Fin 512) (r : Fin 8192) (hr : r.val = 512 * (t.val / 8) + p.val) :
    iblk1 V c 1 t (ix2 p (0 : Fin 1)) = V c main_v25_1 (ix2 r (0 : Fin 1)) := by
  obtain ⟨-, -, e0, e1, -⟩ := idx_facts t
  unfold iblk1
  rw [View.read_apply]
  show V c main_v25_1 _ = V c main_v25_1 _
  congr 1
  funext a
  apply Fin.ext
  match a with
  | ⟨0, _⟩ => show win1_1.index t (0 : Fin 2) * 512 + 1 * p.val = r.val; rw [e0]; omega
  | ⟨1, _⟩ => show win1_1.index t (1 : Fin 2) * 1 + 1 * 0 = 0; rw [e1]

/-- The weight window at point `t`: entry `(e, q)` is the weight matrix's entry `(e, 1024 (t % 8) + q)`. -/
theorem weight_blk (t : Fin cfg1.N) (e : Fin 2048) (q : Fin 1024) (o : Fin 8192)
    (ho : o.val = 1024 * (t.val % 8) + q.val) :
    iblk1 V c 2 t (ix2 e q) = V c main_v24 (ix2 e o) := by
  obtain ⟨-, -, -, -, e0, e1, -⟩ := idx_facts t
  unfold iblk1
  rw [View.read_apply]
  show V c main_v24 _ = V c main_v24 _
  congr 1
  funext a
  apply Fin.ext
  match a with
  | ⟨0, _⟩ => show win1_2.index t (0 : Fin 2) * 2048 + 1 * e.val = e.val; rw [e0]; omega
  | ⟨1, _⟩ => show win1_2.index t (1 : Fin 2) * 1024 + 1 * q.val = o.val; rw [e1]; omega

end Cert.KernelIdeal.Value1

end
-- ==== Proof.LibSumBlocks.lean ====
/-
  A general lemma file (Mathlib only): sums over a range cut into equal consecutive blocks. The sum over all
  indices of `Fin (n * b)` is the sum over the `n` blocks of the sums inside each block of `b` consecutive
  indices, for any commutative additive monoid; with the instances 4096 = 4 × 1024 and 4096 = 16 × 256. Used where a
  contraction or a reduction is computed block by block (a matrix product accumulated over blocks of the contracted
  axis, column sums formed per row block and added up afterwards).
-/
import Mathlib.Algebra.BigOperators.Fin
import Mathlib.Logic.Equiv.Fin.Basic

namespace Cert.SumBlocks

open scoped BigOperators

/-- A sum over `Fin (n * b)` is the sum over `n` consecutive blocks of `b` indices. -/
theorem sum_blocks {M : Type*} [AddCommMonoid M] (n b : ℕ) (f : Fin (n * b) → M) :
    ∑ u, f u = ∑ k : Fin n, ∑ r : Fin b, f ⟨b * k.val + r.val, by
      have hk := k.isLt; have hr := r.isLt
      have h1 : b * k.val + r.val < b * (k.val + 1) := by rw [Nat.mul_succ]; omega
      have h2 : b * (k.val + 1) ≤ b * n := Nat.mul_le_mul_left b hk
      rw [Nat.mul_comm n b]; exact lt_of_lt_of_le h1 h2⟩ := by
  rw [← Equiv.sum_comp (finProdFinEquiv (m := n) (n := b)) f, Fintype.sum_prod_type]
  refine Finset.sum_congr rfl fun k _ => Finset.sum_congr rfl fun r _ => congrArg f (Fin.ext ?_)
  simp [finProdFinEquiv, Nat.add_comm]

/-- 4096 indices as 4 blocks of 1024. -/
theorem sum_4x1024 {M : Type*} [AddCommMonoid M] (f : Fin 4096 → M) :
    ∑ u, f u = ∑ k : Fin 4, ∑ r : Fin 1024, f ⟨1024 * k.val + r.val, by have := k.isLt; have := r.isLt; omega⟩ :=
  sum_blocks 4 1024 f

/-- 4096 indices as 16 blocks of 256. -/
theorem sum_16x256 {M : Type*} [AddCommMonoid M] (f : Fin 4096 → M) :
    ∑ u, f u = ∑ k : Fin 16, ∑ r : Fin 256, f ⟨256 * k.val + r.val, by have := k.isLt; have := r.isLt; omega⟩ :=
  sum_blocks 16 256 f

end Cert.SumBlocks
-- ==== Proof.KIValue1.lean ====
/-
  Layer 2's value: the array the second kernel leaves.

  The second kernel walks a 16 × 8 grid.  Along the eight points of one row block it keeps a running sum in a
  scratch block: zero before the first point, and at column block `k` it adds the product of the 512 × 1024 block of
  hidden values, each quantized at its own row's scale `127 / max(ε, row maximum)`, with the transpose of the
  2048 × 1024 block of second-layer weights.  After the eighth point the scratch is copied to the output window and
  written back.  So row `r`, column `e` of the output array is `((0 + P₀) + P₁) + … + P₇`, where `P k` is the sum over
  the 1024 columns of block `k`; addition on the extended reals is a commutative monoid, so this is the one sum
  over all 8192 = 8 · 1024 columns `o` of `quant (scale (rowmax r)) (hidden (r, o)) · w2 (e, o)`.  The sixteen row
  blocks written back at the points `t % 8 = 7` tile the output array.
-/
import proofs.«126096_j50276887167090_1_alg».proof.Proof.KIData
import proofs.«126096_j50276887167090_1_alg».proof.Proof.Spec
import proofs.«126096_j50276887167090_1_alg».proof.Proof.KIValue1Pay
import proofs.«126096_j50276887167090_1_alg».proof.Proof.KIValue1Blk
import proofs.«126096_j50276887167090_1_alg».proof.Proof.LibSumBlocks
import Idealize.ShloMosaic.Lib.Pipeline.Value
import Idealize.ShloMosaic.Lib.ValueIdx

set_option maxRecDepth 16384

noncomputable section

open scoped BigOperators

namespace Cert.KernelIdeal.Value1

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b)) (c : Dev nD)

/-- One term of the output's entry `(r, e)`: the hidden value of row `r` at column `o`, quantized at the row's
    scale, times the weight of output column `e` at `o`. -/
def term (r : Fin 8192) (e : Fin 2048) (o : Fin 8192) : EReal :=
  Cert.Spec.quant (Cert.Spec.scale (V c main_v25_1 (ix2 r (0 : Fin 1)))) (V c main_v25_0 (ix2 r o)) * V c main_v24 (ix2 e o)

/-- What column block `k` (columns `1024 k … 1024 k + 1023`) contributes to entry `(r, e)`; nothing past the
    eighth block. -/
def part (r : Fin 8192) (e : Fin 2048) (k : ℕ) : EReal :=
  if hk : k < 8 then ∑ q : Fin 1024, term V c r e ⟨1024 * k + q.val, by have := q.isLt; omega⟩ else 0

/-- The output's entry `(r, e)`: all 8192 terms. -/
def outVal (r : Fin 8192) (e : Fin 2048) : EReal := ∑ o : Fin 8192, term V c r e o

/-- The output array. -/
def G : S8192x2048.Idx → EReal := fun i => outVal V c (i 0) (i 1)

/-- The eight blocks' contributions add up to the whole sum. -/
theorem sum_parts (r : Fin 8192) (e : Fin 2048) : ∑ k ∈ Finset.range 8, part V c r e k = outVal V c r e := by
  rw [Finset.sum_range]
  refine Eq.trans ?_ (Cert.SumBlocks.sum_blocks 8 1024 (fun o : Fin 8192 => term V c r e o)).symm
  refine Finset.sum_congr rfl fun k _ => ?_
  unfold part
  rw [dif_pos k.isLt]

/-- The body at point `t` adds column block `t % 8`'s contribution to every entry of the running sum. -/
theorem step_apply (t : Fin cfg1.N) (acc : Vec Ideal S512x2048 .f32) (p : Fin 512) (e : Fin 2048) (r : Fin 8192)
    (hr : r.val = 512 * (t.val / 8) + p.val) :
    k1_pay2 (iblk1 V c 0 t) (iblk1 V c 1 t) (iblk1 V c 2 t) acc (ix2 p e)
      = acc (ix2 p e) + part V c r e (t.val % 8) := by
  refine (pay2_apply (iblk1 V c 0 t) (iblk1 V c 1 t) (iblk1 V c 2 t) acc p e).trans ?_
  refine congrArg (acc (ix2 p e) + ·) ?_
  unfold part
  rw [dif_pos (Nat.mod_lt _ (by decide))]
  refine Finset.sum_congr rfl fun q _ => ?_
  unfold term
  exact congrArg₂ (· * ·)
    (congrArg₂ Cert.Spec.quant (congrArg Cert.Spec.scale (rowmax_blk V c t p r hr)) (hidden_blk V c t p q r _ hr rfl))
    (weight_blk V c t e q _ rfl)

/-- At the first point of a row block the running sum is the first block's contribution. -/
theorem first_apply (t : Fin cfg1.N) (h : t.val % 8 = 0) (p : Fin 512) (e : Fin 2048) (r : Fin 8192)
    (hr : r.val = 512 * (t.val / 8) + p.val) :
    acc1 V c t.val t.isLt (ix2 p e) = ∑ k ∈ Finset.range (t.val % 8 + 1), part V c r e k := by
  refine (congrFun (acc1_first V c t h) (ix2 p e)).trans ?_
  refine (step_apply V c t _ p e r hr).trans ?_
  rw [pay1_apply, h]
  simp only [zero_add, Finset.sum_range_one]

/-- After point `n` the running sum holds the contributions of the column blocks `0 … n % 8` of row block `n / 8`. -/
theorem acc1_apply : ∀ (n : ℕ) (hn : n < cfg1.N) (p : Fin 512) (e : Fin 2048) (r : Fin 8192),
    r.val = 512 * (n / 8) + p.val →
    acc1 V c n hn (ix2 p e) = ∑ k ∈ Finset.range (n % 8 + 1), part V c r e k := by
  intro n
  induction n with
  | zero =>
    intro hn p e r hr
    exact first_apply V c ⟨0, hn⟩ rfl p e r hr
  | succ n ih =>
    intro hn p e r hr
    by_cases h8 : (n + 1) % 8 = 0
    · exact first_apply V c ⟨n + 1, hn⟩ h8 p e r hr
    · have hdiv : (n + 1) / 8 = n / 8 := by omega
      have hmod : (n + 1) % 8 = n % 8 + 1 := by omega
      have ihn := ih (Nat.lt_of_succ_lt hn) p e r (by omega)
      refine (congrFun (acc1_next V c ⟨n + 1, hn⟩ h8) (ix2 p e)).trans ?_
      refine (step_apply V c ⟨n + 1, hn⟩ _ p e r hr).trans ?_
      show acc1 V c n _ (ix2 p e) + part V c r e ((n + 1) % 8) = ∑ k ∈ Finset.range ((n + 1) % 8 + 1), part V c r e k
      rw [ihn, hmod]
      exact (Finset.sum_range_succ (fun k => part V c r e k) (n % 8 + 1)).symm

/-- What a point `t % 8 = 7` writes back is its row block of the output array. -/
theorem flushed_eq (t : Fin cfg1.N) (hf : (cfg1.win 3).flush t = true) :
    (dat1 V c).flushed 3 t = ((cfg1.win 3).blk t).view.read (Elt Ideal) (G V c) := by
  have h7 : t.val % 8 = 7 := (flush1_3 t).mp hf
  obtain ⟨-, -, -, -, -, -, e0, e1⟩ := idx_facts t
  have hN : t.val < 128 := lt_of_lt_of_eq t.isLt N_1
  show (cfg1.win 3).cut (cfg1.grid.coords t) ((dat1 V c).after 3 t) = _
  rw [after1_3]
  funext j
  obtain ⟨p, e, rfl⟩ : ∃ (p : Fin 512) (e : Fin 2048), j = ix2 p e := ⟨j 0, j 1, eq_ix2 (n0 := 512) (n1 := 2048) j⟩
  rw [View.read_apply]
  show acc1 V c t.val t.isLt (ix2 p e) = G V c (((cfg1.win 3).blk t).view.emb (ix2 p e))
  have hG : ∀ (i : S8192x2048.Idx) (r : Fin 8192) (e' : Fin 2048), i 0 = r → i 1 = e' → G V c i = outVal V c r e' := by
    intro i r e' h0 h1; subst h0; subst h1; rfl
  refine Eq.trans ?_ (hG _ ⟨512 * (t.val / 8) + p.val, by omega⟩ e (Fin.ext ?_) (Fin.ext ?_)).symm
  · rw [acc1_apply V c t.val t.isLt p e ⟨512 * (t.val / 8) + p.val, by omega⟩ rfl, h7]
    exact sum_parts V c _ e
  · show win1_3.index t (0 : Fin 2) * 512 + 1 * p.val = 512 * (t.val / 8) + p.val
    rw [e0]; omega
  · show win1_3.index t (1 : Fin 2) * 2048 + 1 * e.val = e.val
    rw [e1]; omega

/-- Every entry of the output array lies in the row block some point `t % 8 = 7` writes back. -/
theorem cover (i : S8192x2048.Idx) :
    ∃ t : Fin cfg1.N, (cfg1.win 3).flush t = true ∧ i ∈ ((cfg1.win 3).blk t).view.set := by
  have h0 : (i 0).val < 8192 := (i 0).isLt
  have h1 : (i 1).val < 2048 := (i 1).isLt
  obtain ⟨t, ht⟩ : ∃ t : Fin cfg1.N, t.val = 8 * ((i 0).val / 512) + 7 :=
    ⟨⟨8 * ((i 0).val / 512) + 7, by rw [show cfg1.N = 128 from N_1]; omega⟩, rfl⟩
  obtain ⟨-, -, -, -, -, -, e0, e1⟩ := idx_facts t
  refine ⟨t, (flush1_3 t).mpr (by omega), ?_⟩
  show i ∈ ((View.whole main_v26).slice (win1_3.rect t)).set
  rw [View.set_slice_whole, Rect.mem_set_unit]
  intro a
  match a with
  | ⟨0, _⟩ =>
    show win1_3.index t (0 : Fin 2) * 512 ≤ (i 0).val ∧ (i 0).val < win1_3.index t (0 : Fin 2) * 512 + 512
    rw [e0]; omega
  | ⟨1, _⟩ =>
    show win1_3.index t (1 : Fin 2) * 2048 ≤ (i 1).val ∧ (i 1).val < win1_3.index t (1 : Fin 2) * 2048 + 2048
    rw [e1]; omega

/-- The output array after the second kernel. -/
theorem final : (dat1 V c).arrAt 3 cfg1.N = G V c :=
  (dat1 V c).arrAt_eq_of_cover 3 (G V c) (flushed_eq V c) cover

/-- Entry `(r, e)` of the output array: row `r`'s hidden values, quantized at the row's scale, against row `e` of the
    second weight matrix, summed over all 8192 columns. -/
theorem out_eq (r : Fin 8192) (e : Fin 2048) :
    (dat1 V c).arrAt 3 cfg1.N (ix2 r e)
      = ∑ o : Fin 8192, Cert.Spec.quant (Cert.Spec.scale (V c main_v25_1 (ix2 r (0 : Fin 1)))) (V c main_v25_0 (ix2 r o))
          * V c main_v24 (ix2 e o) := by
  rw [final V c]
  rfl

end Cert.KernelIdeal.Value1

end
-- ==== Proof.LibMergedRows.lean ====
/-
  A general lemma file: merging the two leading axes of a rank-3 array, and splitting them back, read at an index.

  A batch of `a` matrices of `b` rows and `c` columns, reshaped to one matrix of `a * b` rows, keeps every entry at its
  row-major position: row `g = p * b + q` of the merged matrix is row `q` of matrix `p`.  The reshape back reads the same
  way.  Both are the library's general reading of a shape cast (same row-major position), for any extents and any
  element type.
-/
import Idealize.ShloMosaic.Lib.Pipeline.Value
import Idealize.ShloMosaic.Lib.ValueIdx

noncomputable section

namespace Cert.MergedRows

open Idealize.ShloMosaic Idealize.ShloMosaic.ValueIdx

variable {α : Type}

/-- `[a, b, c] → [n, c]`: the merged matrix at `(g, k)`, where `g = p * b + q`, is the batch's entry `(p, q, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (g : Fin n)
    (hg : g.val = p.val * b + q.val) : shapeCast ⟨2, ![n, c]⟩ x h (ix2 g k) = x (ix3 p q k) :=
  shapeCast_apply x h _ _ (by
    rw [Shape.rowMajor_val_three, Shape.rowMajor_val_two]
    show (p.val * b + q.val) * c + k.val = g.val * c + k.val
    rw [hg])

/-- `[n, c] → [a, b, c]`: the batch's entry `(p, q, k)` is the merged matrix at `(g, k)`, where `g = p * b + q`. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (k : Fin c) (g : Fin n)
    (hg : g.val = p.val * b + q.val) : shapeCast ⟨3, ![a, b, c]⟩ y h (ix3 p q k) = y (ix2 g k) :=
  shapeCast_apply y h _ _ (by
    rw [Shape.rowMajor_val_two, Shape.rowMajor_val_three]
    show g.val * c + k.val = (p.val * b + q.val) * c + k.val
    rw [hg])

end Cert.MergedRows

end
-- ==== Proof.KIHostShape.lean ====
/-
  The two reshapes of the kernel program read at an index.

  Before the regions the activations `[4, 2048, 2048]` are merged to a matrix `[8192, 2048]`; after them the result
  matrix is split back.  Both keep every entry at its row-major position: row `g = p · 2048 + q` of the matrix is row `q`
  of batch `p`.
-/
import proofs.«126096_j50276887167090_1_alg».proof.Proof.Gen.KernelIdeal.Regions
import proofs.«126096_j50276887167090_1_alg».proof.Proof.LibMergedRows
import Idealize.ShloMosaic.Lib.Pipeline.Value
import Idealize.ShloMosaic.Lib.ValueIdx

noncomputable section

namespace Cert.KernelIdeal.HostReads

open Cert.KernelIdeal Cert.KernelIdeal.Gen Idealize.ShloMosaic Idealize.ShloMosaic.ValueIdx
open Idealize.ShloMosaic.TcCoe Idealize.SL.Sem

variable (m : (ℓ : Loc nD τ sig) → Buf (Elt Ideal) ℓ) (c : Dev nD)

/-- The activations as a matrix: stretch 0 writes `main_v0` as the shape cast of the first argument, and no later
    stretch writes it. -/
theorem v0_eq : (V13 m c main_v0 : S8192x2048.Idx → EReal)
    = shapeCast S8192x2048 (m ((c.tc : Thread nD τ).loc main_arg0)) shapeCasts_S4x2048x2048_S8192x2048 := by
  have e : V13 m c main_v0 = V1 m c main_v0 := by
    rw [V13_of m c main_v0 (by decide), V12_of m c main_v0 (by decide), V11_of m c main_v0 (by decide),
      V10_of m c main_v0 (by decide), V9_of m c main_v0 (by decide), V8_of m c main_v0 (by decide),
      V7_of m c main_v0 (by decide), V6_of m c main_v0 (by decide), V5_of m c main_v0 (by decide),
      V4_of m c main_v0 (by decide), V3_of m c main_v0 (by decide), V2_of m c main_v0 (by decide)]
  refine e.trans ?_
  show StableHlo.after hostOps0 (V0 m c) (Proc.devRef .tc main_v0) = _
  after_results
  rfl

/-- Row `g = p · 2048 + q` of the activation matrix is row `q` of batch `p`. -/
theorem x2d_apply (p : Fin 4) (q : Fin 2048) (k : Fin 2048) (g : Fin 8192) (hg : g.val = p.val * 2048 + q.val) :
    V13 m c main_v0 (ix2 g k) = m ((c.tc : Thread nD τ).loc main_arg0) (ix3 p q k) :=
  (congrFun (v0_eq m c) (ix2 g k)).trans
    (Cert.MergedRows.shapeCast_abc_nc_apply (m ((c.tc : Thread nD τ).loc main_arg0)) shapeCasts_S4x2048x2048_S8192x2048 p q k g hg)

/-- The last host operation: the result matrix split back into batches. -/
theorem v27_eq (W : Valuation τ sig (Elt Ideal)) :
    (StableHlo.after (hostOps2 (F := Ideal)) W main_v27 : S4x2048x2048.Idx → EReal)
      = shapeCast S4x2048x2048 (W main_v26 : S8192x2048.Idx → EReal) shapeCasts_S8192x2048_S4x2048x2048 := by
  show StableHlo.after hostOps2 W (Proc.devRef .tc main_v27) = _
  after_results
  rfl

/-- Entry `(p, q, k)` of the result is entry `(p · 2048 + q, k)` of the result matrix. -/
theorem result_apply (W : Valuation τ sig (Elt Ideal)) (p : Fin 4) (q : Fin 2048) (k : Fin 2048) (g : Fin 8192) (hg : g.val = p.val * 2048 + q.val) :
    StableHlo.after (hostOps2 (F := Ideal)) W main_v27 (ix3 p q k) = W main_v26 (ix2 g k) :=
  (congrFun (v27_eq W) (ix3 p q k)).trans
    (Cert.MergedRows.shapeCast_nc_abc_apply (W main_v26 : S8192x2048.Idx → EReal) shapeCasts_S8192x2048_S4x2048x2048 p q k g hg)

end Cert.KernelIdeal.HostReads

end
-- ==== Proof.KIAssemble.lean ====
/-
  The kernel program's result, entry by entry.

  The program merges the activations `[4, 2048, 2048]` into a matrix of 8192 token rows, quantizes the two weight
  matrices on the host, runs layer 1 (the hidden matrix and its row maxima) and layer 2 (the output matrix), and
  splits the output matrix back into batches.  Reading the chain backwards at entry `(b, s, e)`: the split reads row
  `g = 2048 b + s` of the output matrix; layer 2 leaves there the sum over the 8192 hidden columns `o` of the hidden
  value `(g, o)`, quantized at the scale of row `g`'s maximum, times the quantized second weight `(e, o)`; layer 1
  leaves the hidden row and its maximum as functions of activation row `g` and the quantized first weights; and row
  `g` of the merged activations is row `s` of batch `b`.  Together this is the specification's `out` of that token
  row and the two quantized weight matrices.
-/
import proofs.«126096_j50276887167090_1_alg».proof.Proof.KIRegs
import proofs.«126096_j50276887167090_1_alg».proof.Proof.KIValue1
import proofs.«126096_j50276887167090_1_alg».proof.Proof.KIHostShape
import proofs.«126096_j50276887167090_1_alg».proof.Proof.Spec

set_option maxRecDepth 16384

noncomputable section

open scoped BigOperators

namespace Cert.KernelIdeal.Assemble

open Cert.KernelIdeal Cert.KernelIdeal.Gen Cert.KernelIdeal.Hand
open Idealize.ShloMosaic Idealize.ShloMosaic.TcCoe Idealize.ShloMosaic.ValueIdx
open Idealize.SL.Sem

/-- Entry `(b, s, e)` of the program's result is the specification's output for token row `s` of batch `b`, given
    what layer 1 leaves (the hidden matrix and its row maxima) and what the host leaves in the two quantized weight
    matrices. -/
theorem result_apply
    (hidden_eq : ∀ (V : (c : Dev nD) → (b : Ref sig .tc) → Buf (Elt Ideal) ((c : Thread nD τ).loc b)) (c : Dev nD)
      (r : Fin 8192) (o : Fin 8192),
      (dat0 V c).arrAt 2 cfg0.N (ix2 r o)
        = Cert.Spec.hidden (fun d : Fin 2048 => V c main_v0 (ix2 r d))
            (fun (o' : Fin 8192) (d : Fin 2048) => V c main_v12 (ix2 o' d)) o)
    (rowmax_eq : ∀ (V : (c : Dev nD) → (b : Ref sig .tc) → Buf (Elt Ideal) ((c : Thread nD τ).loc b)) (c : Dev nD)
      (r : Fin 8192) (u : Fin 1),
      (dat0 V c).arrAt 3 cfg0.N (ix2 r u)
        = Cert.Spec.rowAbsMax (Cert.Spec.hidden (fun d : Fin 2048 => V c main_v0 (ix2 r d))
            (fun (o' : Fin 8192) (d : Fin 2048) => V c main_v12 (ix2 o' d))))
    (w1q_apply : ∀ (m : (ℓ : Loc nD τ sig) → Buf (Elt Ideal) ℓ) (c : Dev nD) (o : Fin 8192) (d : Fin 2048),
      V13 m c main_v12 (ix2 o d)
        = Cert.Spec.wquant (Cert.Spec.wscale (Cert.Spec.sumAbs (m ((c.tc : Thread nD τ).loc main_arg1))))
            (m ((c.tc : Thread nD τ).loc main_arg1) (ix2 o d)))
    (w2q_apply : ∀ (m : (ℓ : Loc nD τ sig) → Buf (Elt Ideal) ℓ) (c : Dev nD) (e : Fin 2048) (o : Fin 8192),
      V13 m c main_v24 (ix2 e o)
        = Cert.Spec.wquant (Cert.Spec.wscale (Cert.Spec.sumAbs (m ((c.tc : Thread nD τ).loc main_arg2))))
            (m ((c.tc : Thread nD τ).loc main_arg2) (ix2 e o)))
    (m : (ℓ : Loc nD τ sig) → Buf (Elt Ideal) ℓ) (c : Dev nD) (b : Fin 4) (s : Fin 2048) (e : Fin 2048) :
    StableHlo.after (hostOps2 (F := Ideal)) (W15 m c) main_v27 (ix3 b s e)
      = Cert.Spec.out (fun d : Fin 2048 => m ((c.tc : Thread nD τ).loc main_arg0) (ix3 b s d))
          (fun (o : Fin 8192) (d : Fin 2048) =>
            Cert.Spec.wquant (Cert.Spec.wscale (Cert.Spec.sumAbs (m ((c.tc : Thread nD τ).loc main_arg1))))
              (m ((c.tc : Thread nD τ).loc main_arg1) (ix2 o d)))
          (fun (e' : Fin 2048) (o : Fin 8192) =>
            Cert.Spec.wquant (Cert.Spec.wscale (Cert.Spec.sumAbs (m ((c.tc : Thread nD τ).loc main_arg2))))
              (m ((c.tc : Thread nD τ).loc main_arg2) (ix2 e' o))) e := by
  obtain ⟨g, hg⟩ : ∃ g : Fin 8192, g.val = b.val * 2048 + s.val :=
    ⟨⟨b.val * 2048 + s.val, by have := b.isLt; have := s.isLt; omega⟩, rfl⟩
  -- row `g` of the merged activations and the quantized first weights, as layer 1 finds them
  have hX : (fun d : Fin 2048 => Vin0 m c main_v0 (ix2 g d))
      = fun d : Fin 2048 => m ((c.tc : Thread nD τ).loc main_arg0) (ix3 b s d) :=
    funext fun d => Cert.KernelIdeal.HostReads.x2d_apply m c b s d g hg
  have hW1 : (fun (o' : Fin 8192) (d : Fin 2048) => Vin0 m c main_v12 (ix2 o' d))
      = fun (o : Fin 8192) (d : Fin 2048) =>
          Cert.Spec.wquant (Cert.Spec.wscale (Cert.Spec.sumAbs (m ((c.tc : Thread nD τ).loc main_arg1))))
            (m ((c.tc : Thread nD τ).loc main_arg1) (ix2 o d)) :=
    funext fun o' => funext fun d => w1q_apply m c o' d
  -- what layer 2 finds: the row maximum, the hidden row, the quantized second weights
  have hrm : Vin1 m c main_v25_1 (ix2 g (0 : Fin 1)) = Cert.Spec.rowAbsMax (Cert.Spec.hidden _ _) :=
    ((congrFun (W14_arr m c 3) (ix2 g (0 : Fin 1))).trans (rowmax_eq (Vin0 m) c g 0)).trans
      (congrArg Cert.Spec.rowAbsMax (congrArg₂ Cert.Spec.hidden hX hW1))
  have hh : ∀ o : Fin 8192, Vin1 m c main_v25_0 (ix2 g o) = Cert.Spec.hidden _ _ o := fun o =>
    ((congrFun (W14_arr m c 2) (ix2 g o)).trans (hidden_eq (Vin0 m) c g o)).trans
      (congrFun (congrArg₂ Cert.Spec.hidden hX hW1) o)
  have hw : ∀ o : Fin 8192, Vin1 m c main_v24 (ix2 e o)
      = Cert.Spec.wquant (Cert.Spec.wscale (Cert.Spec.sumAbs (m ((c.tc : Thread nD τ).loc main_arg2))))
          (m ((c.tc : Thread nD τ).loc main_arg2) (ix2 e o)) := fun o =>
    (congrFun (W14_of_ne m c main_v24 (by decide)) (ix2 e o)).trans (w2q_apply m c e o)
  refine (Cert.KernelIdeal.HostReads.result_apply (W15 m c) b s e g hg).trans ?_
  refine (congrFun (W15_arr m c 3) (ix2 g e)).trans ?_
  refine (Cert.KernelIdeal.Value1.out_eq (Vin1 m) c g e).trans ?_
  show _ = ∑ o : Fin 8192, Cert.Spec.quant (Cert.Spec.scale (Cert.Spec.rowAbsMax (Cert.Spec.hidden _ _))) (Cert.Spec.hidden _ _ o) * _
  exact Finset.sum_congr rfl fun o _ =>
    congrArg₂ (· * ·) (congrArg₂ Cert.Spec.quant (congrArg Cert.Spec.scale hrm) (hh o)) (hw o)

end Cert.KernelIdeal.Assemble

end
-- ==== Proof.LibRowMax.lean ====
/-
  A maximum along the rows of a matrix, read at a row.

  A kernel that takes the maximum of an `[a, b]` block along its second axis (the per-row maximum a numerically stable
  softmax subtracts) gets an `[a]` vector whose entry `p` is the maximum over `k` of the block at `(p, k)`, started from
  the accumulator's word. Maximum on the extended reals commutes and associates, so the order of the reduction does not
  matter and the entry is the fold of `max` over the row's coordinates. The lemma says so for any extents, with the indices
  written by coordinates, for a single-precision reduction started from the word of `-∞`; a second lemma says the same of
  a host reduction over the last axis of a rank-4 array, the reference's spelling of the same row maximum.
-/
import Idealize.ShloMosaic.PureOps.Ideal.Laws
import Idealize.ShloMosaic.Lib.ValueIdx

noncomputable section

namespace Cert.RowMax

open Idealize.ShloMosaic Idealize.ShloMosaic.ValueIdx

/-- An `[a, b]` array of single-precision values reduced by maximum along its second axis into `[a]`, starting from the
    word of `-∞`, reads at `p` the fold of `max`, from that word's value, over `k : Fin b` of the array at `(p, k)`. The
    hypothesis on the start word is typed as a printed program spells its proof (the word equal to itself). -/
theorem multiReduction_max_rows_apply {a b : ℕ} (v : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ v 0xFF800000#32 h hφ hacc (ix1 p)
      = (Finset.univ : Finset (Fin b)).fold max (Ideal.ofBits .f32 0xFF800000#32) (fun k => v (ix2 p k)) := by
  refine (Ideal.multiReduction_maximumf_single v 0xFF800000#32 h hφ hacc (ix1 p)).trans ?_
  refine congrArg (fun f => Finset.fold max (Ideal.ofBits .f32 0xFF800000#32) f (Finset.univ : Finset (Fin b))) ?_
  exact funext fun k => congrArg v (funext fun c => Fin.ext (by
    match c with
    | ⟨0, _⟩ => rfl
    | ⟨1, _⟩ => rfl))

/-- The host's reduction by maximum over the LAST axis of an `[a, b, c, d]` array, from a scalar initial value, reads at
    `(p, q, r)` the fold of `max`, from the initial value, over `k : Fin d` of the array at `(p, q, r, k)`. -/
theorem hostReduce_max_last4_apply {a b c d : ℕ} (x : FVec Ideal ⟨4, ![a, b, c, d]⟩ .f32)
    (init : FVec Ideal ⟨0, ![]⟩ .f32)
    (h' : (⟨4, ![a, b, c, d]⟩ : Shape).ReducesTo [3] ⟨3, ![a, b, c]⟩)
    (h : (⟨4, ![a, b, c, d]⟩ : Shape).Reduces [3] ⟨3, ![a, b, c]⟩) (hu : 0 < (⟨0, ![]⟩ : Shape).numel)
    (p : Fin a) (q : Fin b) (r : Fin c) :
    Host.reduce FloatOps.maximumf x init h' hu (ix3 p q r)
      = (Finset.univ : Finset (Fin d)).fold max (init (Shape.Idx.first hu)) (fun k => x (ix4 p q r k)) := by
  refine (Host.reduce_eq_fold_single FloatOps.maximumf x init h' h hu (ix3 p q r)).trans ?_
  refine congrArg (fun f => Finset.fold max (init (Shape.Idx.first hu)) f (Finset.univ : Finset (Fin d))) ?_
  exact funext fun k => congrArg x (funext fun e => Fin.ext (by
    match e with
    | ⟨0, _⟩ => rfl
    | ⟨1, _⟩ => rfl
    | ⟨2, _⟩ => rfl
    | ⟨3, _⟩ => rfl))

end Cert.RowMax

end
-- ==== Proof.KIValue0Point.lean ====
/-
  Layer 1 at one grid point, index by index, at the ideal values.

  The body of the first layer takes a block `x` of 512 token rows (all 2048 columns of each) and a block `w` of 1024
  rows of the quantized first weight matrix.  Each token row is quantized at its own scale `127 / max(ε, a)`, `a` the
  row's absolute maximum; the product of the quantized rows with the rows of `w` is taken and negative entries are
  replaced by zero.  Entry `(p, q)` of the result is therefore the hidden layer's value for the token row `p` of the
  block against the weight row `q` of the block, as the specification writes it.  The body also folds the row maxima
  of this result into a running column: entry `p` becomes the larger of what the column held and the maximum over the
  1024 columns of row `p` of the result.
-/
import proofs.«126096_j50276887167090_1_alg».proof.Proof.Gen.KernelIdeal.Skeleton
import proofs.«126096_j50276887167090_1_alg».proof.Proof.Spec
import proofs.«126096_j50276887167090_1_alg».proof.Proof.LibRowMax
import proofs.«126096_j50276887167090_1_alg».proof.Proof.LibTransposedDot
import proofs.«126096_j50276887167090_1_alg».proof.Proof.LibColumnLayouts
import Idealize.ShloMosaic.Lib.Pipeline.Value

noncomputable section

namespace Cert.KernelIdeal.Value0

open Cert.KernelIdeal Cert.KernelIdeal.Gen Idealize.ShloMosaic Idealize.ShloMosaic.ValueIdx

/-- A scalar constant of the program is the extended real its word encodes. -/
theorem sofBits (b : BitVec 32) : Scalar.ofBits (F := Ideal) .f32 b = Ideal.ofBits .f32 b := rfl

/-- The maximum of the absolute values along row `p` of the block is the specification's absolute maximum of that row. -/
theorem amax_apply (x : Vec Ideal S512x2048 .f32) (p : Fin 512) :
    multiReduction (F := Ideal) .maximumf [1] S512 (absf (shapeCast S512x2048 x shapeCasts_S512x2048_S512x2048)) 0xFF800000#32
        reduces_S512x2048_S512 (.inl rfl) rfl (ix1 p)
      = Cert.Spec.rowAbsMax (fun d : Fin 2048 => x (ix2 p d)) := by
  refine (Cert.RowMax.multiReduction_max_rows_apply _ reduces_S512x2048_S512 (.inl rfl) rfl p).trans ?_
  rw [shapeCast_self]
  unfold Cert.Spec.rowAbsMax Cert.Spec.ninf
  refine congrArg (fun f => Finset.fold max (Ideal.ofBits .f32 0xFF800000#32) f (Finset.univ : Finset (Fin 2048))) ?_
  funext k
  rfl

/-- The scales of the block's 512 rows, as a column. -/
def scaleCol (x : Vec Ideal S512x2048 .f32) : FVec Ideal S512x1 .f32 :=
  divf (broadcast S512x1 (Scalar.ofBits .f32 0x42FE0000#32))
    (maximumf (broadcast S512x1 (Scalar.ofBits .f32 0x3727C5AC#32))
      (shapeCast S512x1
        (multiReduction .maximumf [1] S512 (absf (shapeCast S512x2048 x shapeCasts_S512x2048_S512x2048)) 0xFF800000#32
          reduces_S512x2048_S512 (.inl rfl) rfl)
        shapeCasts_S512_S512x1))

/-- Entry `p` of the column is the specification's scale of row `p`. -/
theorem scaleCol_apply (x : Vec Ideal S512x2048 .f32) (p : Fin 512) (u : Fin 1) :
    scaleCol x (ix2 p u) = Cert.Spec.scale (Cert.Spec.rowAbsMax (fun d : Fin 2048 => x (ix2 p d))) := by
  unfold scaleCol Cert.Spec.scale Cert.Spec.hi Cert.Spec.eps
  rw [divf_apply, maximumf_apply, broadcast_apply, broadcast_apply, sofBits, sofBits,
    Cert.ColumnLayouts.shapeCast_a_a1_apply, amax_apply]

/-- The block's rows quantized, each at its own scale. -/
def xq (x : Vec Ideal S512x2048 .f32) : FVec Ideal S512x2048 .bf16 :=
  truncf .bf16
    (divf
      (minimumf (broadcast S512x2048 (Scalar.ofBits .f32 0x42FE0000#32))
        (maximumf (broadcast S512x2048 (Scalar.ofBits .f32 0xC3000000#32))
          (roundeven (mulf (shapeCast S512x2048 x shapeCasts_S512x2048_S512x2048)
            (broadcastTo S512x2048 (scaleCol x) broadcasts_S512x1_S512x2048)))))
      (broadcastTo S512x2048 (scaleCol x) broadcasts_S512x1_S512x2048))
    bitsLt_bf16_f32

/-- Rounding at an index. -/
theorem roundeven_apply {s : Shape} (a : FVec Ideal s .f32) (i : s.Idx) :
    roundeven a i = Ideal.liftRound Ideal.roundHalfEven (a i) := rfl

/-- Entry `(p, d)` of the quantized block is the specification's quantized row `p` at `d`. -/
theorem xq_apply (x : Vec Ideal S512x2048 .f32) (p : Fin 512) (d : Fin 2048) :
    xq x (ix2 p d) = Cert.Spec.act (fun d : Fin 2048 => x (ix2 p d)) d := by
  unfold xq Cert.Spec.act Cert.Spec.quant Cert.Spec.rnd Cert.Spec.hi Cert.Spec.lo
  rw [truncf_apply, divf_apply, minimumf_apply, maximumf_apply, roundeven_apply, mulf_apply, broadcast_apply, broadcast_apply,
    sofBits, sofBits, Cert.ColumnLayouts.broadcastTo_a1_ab_apply, scaleCol_apply, shapeCast_self]

/-- The body's product block: the quantized rows against the weight rows, negative entries replaced by zero. -/
theorem pay2_eq (x : Vec Ideal S512x2048 .f32) (w : Vec Ideal S1024x2048 .bf16) :
    k0_pay2 x w
      = maximumf
          (matmul dot_S512x2048_S1024x2048_S512x1024_1_1_0_0_n_n none (xq x)
            (shapeCast S1024x2048 w shapeCasts_S1024x2048_S1024x2048 : FVec Ideal S1024x2048 .bf16)
            (constant S512x1024 .f32 0x00000000#32))
          (broadcast S512x1024 (Scalar.ofBits .f32 0x00000000#32)) := rfl

/-- Entry `(p, q)` of the product block is the hidden layer of row `p` of `x` against row `q` of `w`. -/
theorem pay2_apply (x : Vec Ideal S512x2048 .f32) (w : Vec Ideal S1024x2048 .bf16) (p : Fin 512) (q : Fin 1024) :
    k0_pay2 x w (ix2 p q)
      = Cert.Spec.hidden (fun d : Fin 2048 => x (ix2 p d)) (fun (o : Fin 1024) (d : Fin 2048) => w (ix2 o d)) q := by
  rw [pay2_eq]
  unfold Cert.Spec.hidden Cert.Spec.zero
  rw [maximumf_apply, broadcast_apply, sofBits]
  refine congrArg (fun z => max z (Ideal.ofBits .f32 0x00000000#32)) ?_
  refine (Cert.TransposedDot.matmul_zero_apply _ rfl none (xq x) _ p q).trans ?_
  refine Finset.sum_congr rfl fun d _ => ?_
  rw [xq_apply, shapeCast_self]

/-- Entry `p` of the updated running column: the larger of the old entry and the maximum of row `p` of the product
    block over its 1024 columns, the maximum started from -∞. -/
theorem pay3_apply (x : Vec Ideal S512x2048 .f32) (w : Vec Ideal S1024x2048 .bf16) (acc : Vec Ideal S512x1 .f32)
    (p : Fin 512) (u : Fin 1) :
    k0_pay3 x w acc (ix2 p u)
      = max (acc (ix2 p u))
          ((Finset.univ : Finset (Fin 1024)).fold max Cert.Spec.ninf (fun q => k0_pay2 x w (ix2 p q))) := by
  unfold k0_pay3 Cert.Spec.ninf
  refine (congrFun (shapeCast_self _ _) _).trans ?_
  rw [maximumf_apply, Cert.ColumnLayouts.shapeCast_a_a1_apply,
    Cert.RowMax.multiReduction_max_rows_apply _ reduces_S512x1024_S512 (.inl rfl) rfl p]

/-- The zero column the running maximum starts from. -/
theorem pay1_apply (p : Fin 512) (u : Fin 1) : k0_pay1 (F := Ideal) (ix2 p u) = Cert.Spec.zero := by
  unfold k0_pay1 Cert.Spec.zero
  refine (congrFun (shapeCast_self _ _) _).trans ?_
  rw [broadcast_apply, sofBits]

/-- What is stored into the hidden block's window: the product block (the change of format is the identity here). -/
theorem pay4_apply (x : Vec Ideal S512x2048 .f32) (w : Vec Ideal S1024x2048 .bf16) (p : Fin 512) (q : Fin 1024) :
    k0_pay4 x w (ix2 p q) = k0_pay2 x w (ix2 p q) := rfl

end Cert.KernelIdeal.Value0

end
-- ==== Proof.KIValue0Blk.lean ====
/-
  Layer 1's input blocks read off their arrays, and the product block of a grid point as entries of the hidden layer.

  Layer 1 walks a 16 × 8 grid; point `t` has the row block `t / 8` (512 token rows of the 8192) and the column block
  `t % 8` (1024 of the 8192 rows of the first weight matrix, which are the hidden layer's columns).  At that point the
  token window holds rows `512 (t / 8) + p`, all 2048 columns, of the token array, and the weight window rows
  `1024 (t % 8) + q`, all 2048 columns, of the weight matrix: a block's coordinate in its array is the block index
  times the block size plus the coordinate inside the block.  Since a token's whole row is in the block, the row's
  scale is the token's own, and entry `(p, q)` of the body's product block is the hidden layer's entry
  `(512 (t / 8) + p, 1024 (t % 8) + q)`.
-/
import proofs.«126096_j50276887167090_1_alg».proof.Proof.KIData
import proofs.«126096_j50276887167090_1_alg».proof.Proof.Spec
import proofs.«126096_j50276887167090_1_alg».proof.Proof.KIValue0Point
import Idealize.ShloMosaic.Lib.Pipeline.Value
import Idealize.ShloMosaic.Lib.ValueIdx

set_option maxRecDepth 16384

noncomputable section

namespace Cert.KernelIdeal.Value0

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b)) (c : Dev nD)

/-- The four index maps in closed form, checked at each of the 128 grid points: point `t` is row block `t / 8` and column
    block `t % 8`. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = t.val % 8
    ∧ win0_3.index t (0 : Fin 2) = t.val / 8 ∧ win0_3.index t (1 : Fin 2) = 0 :=
  (by decide +kernel : ∀ t : Fin grid0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = t.val % 8
    ∧ win0_3.index t (0 : Fin 2) = t.val / 8 ∧ win0_3.index t (1 : Fin 2) = 0)

/-- The token window at point `t`: entry `(p, d)` is the token array's entry `(512 (t / 8) + p, d)`. -/
theorem x_blk (t : Fin cfg0.N) (p : Fin 512) (d : Fin 2048) (r : Fin 8192) (hr : r.val = 512 * (t.val / 8) + p.val) :
    iblk0 V c 0 t (ix2 p d) = V c main_v0 (ix2 r d) := by
  obtain ⟨e0, e1, -⟩ := idx_facts t
  unfold iblk0
  rw [View.read_apply]
  show V c main_v0 _ = V c main_v0 _
  congr 1
  funext a
  apply Fin.ext
  match a with
  | ⟨0, _⟩ => show win0_0.index t (0 : Fin 2) * 512 + 1 * p.val = r.val; rw [e0]; omega
  | ⟨1, _⟩ => show win0_0.index t (1 : Fin 2) * 2048 + 1 * d.val = d.val; rw [e1]; omega

/-- The weight window at point `t`: entry `(q, d)` is the first weight matrix's entry `(1024 (t % 8) + q, d)`. -/
theorem w_blk (t : Fin cfg0.N) (q : Fin 1024) (d : Fin 2048) (o : Fin 8192) (ho : o.val = 1024 * (t.val % 8) + q.val) :
    iblk0 V c 1 t (ix2 q d) = V c main_v12 (ix2 o d) := by
  obtain ⟨-, -, e0, e1, -⟩ := idx_facts t
  unfold iblk0
  rw [View.read_apply]
  show V c main_v12 _ = V c main_v12 _
  congr 1
  funext a
  apply Fin.ext
  match a with
  | ⟨0, _⟩ => show win0_1.index t (0 : Fin 2) * 1024 + 1 * q.val = o.val; rw [e0]; omega
  | ⟨1, _⟩ => show win0_1.index t (1 : Fin 2) * 2048 + 1 * d.val = d.val; rw [e1]; omega

/-- The hidden layer's entry `(r, o)`: token row `r`, quantized, against row `o` of the first weight matrix. -/
def hid (r o : Fin 8192) : EReal :=
  Cert.Spec.hidden (fun d : Fin 2048 => V c main_v0 (ix2 r d)) (fun (o' : Fin 8192) (d : Fin 2048) => V c main_v12 (ix2 o' d)) o

/-- The hidden array. -/
def G2 : S8192x8192.Idx → EReal := fun i => hid V c (i 0) (i 1)

/-- The body's product block at point `t`, entry `(p, q)`: the hidden layer's entry
    `(512 (t / 8) + p, 1024 (t % 8) + q)`. -/
theorem prod_apply (t : Fin cfg0.N) (p : Fin 512) (q : Fin 1024) (r o : Fin 8192)
    (hr : r.val = 512 * (t.val / 8) + p.val) (ho : o.val = 1024 * (t.val % 8) + q.val) :
    k0_pay2 (iblk0 V c 0 t) (iblk0 V c 1 t) (ix2 p q) = hid V c r o := by
  refine (pay2_apply (iblk0 V c 0 t) (iblk0 V c 1 t) p q).trans ?_
  have hx : (fun d : Fin 2048 => iblk0 V c 0 t (ix2 p d)) = fun d : Fin 2048 => V c main_v0 (ix2 r d) :=
    funext fun d => x_blk V c t p d r hr
  unfold hid Cert.Spec.hidden
  rw [hx]
  refine congrArg (fun z => max z Cert.Spec.zero) ?_
  refine Finset.sum_congr rfl fun d _ => ?_
  exact congrArg (_ * ·) (w_blk V c t q d o ho)

end Cert.KernelIdeal.Value0

end
-- ==== Proof.KIValue0Hidden.lean ====
/-
  Layer 1's first result: the hidden array the first kernel leaves.

  Every grid point writes its 512 × 1024 product block back to the hidden array, at the row block `t / 8` and the
  column block `t % 8`; the 128 blocks tile the 8192 × 8192 array.  So entry `(r, o)` of the array is the hidden
  layer's value of token row `r` against row `o` of the first weight matrix.
-/
import proofs.«126096_j50276887167090_1_alg».proof.Proof.KIValue0Blk

set_option maxRecDepth 16384

noncomputable section

namespace Cert.KernelIdeal.Value0

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b)) (c : Dev nD)
/-- What point `t` writes back to the hidden array is its block of the hidden layer. -/
theorem flushed2_eq (t : Fin cfg0.N) (hf : (cfg0.win 2).flush t = true) :
    (dat0 V c).flushed 2 t = ((cfg0.win 2).blk t).view.read (Elt Ideal) (G2 V c) := by
  obtain ⟨-, -, -, -, e0, e1, -⟩ := idx_facts t
  have hN : t.val < 128 := lt_of_lt_of_eq t.isLt N_0
  show (cfg0.win 2).cut (cfg0.grid.coords t) ((dat0 V c).after 2 t) = _
  rw [after0_2]
  funext j
  obtain ⟨p, q, rfl⟩ : ∃ (p : Fin 512) (q : Fin 1024), j = ix2 p q := ⟨j 0, j 1, eq_ix2 (n0 := 512) (n1 := 1024) j⟩
  rw [View.read_apply]
  show k0_pay4 (iblk0 V c 0 t) (iblk0 V c 1 t) (ix2 p q) = G2 V c (((cfg0.win 2).blk t).view.emb (ix2 p q))
  have hG : ∀ (i : S8192x8192.Idx) (r o : Fin 8192), i 0 = r → i 1 = o → G2 V c i = hid V c r o := by
    intro i r o h0 h1; subst h0; subst h1; rfl
  refine Eq.trans ?_ (hG _ ⟨512 * (t.val / 8) + p.val, by omega⟩ ⟨1024 * (t.val % 8) + q.val, by omega⟩ (Fin.ext ?_) (Fin.ext ?_)).symm
  · exact (pay4_apply _ _ p q).trans (prod_apply V c t p q _ _ rfl rfl)
  · show win0_2.index t (0 : Fin 2) * 512 + 1 * p.val = 512 * (t.val / 8) + p.val
    rw [e0]; omega
  · show win0_2.index t (1 : Fin 2) * 1024 + 1 * q.val = 1024 * (t.val % 8) + q.val
    rw [e1]; omega

/-- Every entry of the hidden array lies in the block of the point of its row block and column block. -/
theorem cover2 (i : S8192x8192.Idx) :
    ∃ t : Fin cfg0.N, (cfg0.win 2).flush t = true ∧ i ∈ ((cfg0.win 2).blk t).view.set := by
  have h0 : (i 0).val < 8192 := (i 0).isLt
  have h1 : (i 1).val < 8192 := (i 1).isLt
  obtain ⟨t, ht⟩ : ∃ t : Fin cfg0.N, t.val = 8 * ((i 0).val / 512) + (i 1).val / 1024 :=
    ⟨⟨8 * ((i 0).val / 512) + (i 1).val / 1024, by rw [show cfg0.N = 128 from N_0]; omega⟩, rfl⟩
  obtain ⟨-, -, -, -, e0, e1, -⟩ := idx_facts t
  refine ⟨t, flush0_2 t, ?_⟩
  show i ∈ ((View.whole main_v25_0).slice (win0_2.rect t)).set
  rw [View.set_slice_whole, Rect.mem_set_unit]
  intro a
  match a with
  | ⟨0, _⟩ =>
    show win0_2.index t (0 : Fin 2) * 512 ≤ (i 0).val ∧ (i 0).val < win0_2.index t (0 : Fin 2) * 512 + 512
    rw [e0]; omega
  | ⟨1, _⟩ =>
    show win0_2.index t (1 : Fin 2) * 1024 ≤ (i 1).val ∧ (i 1).val < win0_2.index t (1 : Fin 2) * 1024 + 1024
    rw [e1]; omega

/-- The hidden array after the first kernel. -/
theorem final2 : (dat0 V c).arrAt 2 cfg0.N = G2 V c :=
  (dat0 V c).arrAt_eq_of_cover 2 (G2 V c) (flushed2_eq V c) cover2

/-- Entry `(r, o)` of the hidden array: the quantized token row `r` against the quantized row `o` of the first weight
    matrix, negative sums replaced by zero. -/
theorem hidden_eq (r : Fin 8192) (o : Fin 8192) :
    (dat0 V c).arrAt 2 cfg0.N (ix2 r o)
      = Cert.Spec.hidden (fun d : Fin 2048 => V c main_v0 (ix2 r d))
          (fun (o' : Fin 8192) (d : Fin 2048) => V c main_v12 (ix2 o' d)) o := by
  rw [final2 V c]
  rfl

end Cert.KernelIdeal.Value0

end
-- ==== Proof.KIValue0RowMax.lean ====
/-
  Layer 1's second result: the column of the hidden rows' absolute maxima the first kernel leaves.

  Along the eight points of one row block the kernel keeps a running column in a scratch block: zero before the first
  point, and at column block `k` each entry becomes the larger of what it held and the maximum, started from -∞, of its
  row of the 512 × 1024 product block.  After the eighth point the scratch is copied to the output window and written
  back.  So entry `r` of the column is `max(… max(max(0, T₀), T₁) …, T₇)` with `T k` the maximum of row `r` of the
  hidden layer over the columns of block `k`.  The hidden layer's entries are maxima with zero, hence at least zero:
  each is its own absolute value and the leading zero changes nothing, so the chain is the absolute maximum of the whole
  row of 8192 = 8 · 1024 entries.  The sixteen row blocks written back at the points `t % 8 = 7` tile the column.
-/
import proofs.«126096_j50276887167090_1_alg».proof.Proof.KIValue0Blk
import Idealize.ShloMosaic.PureOps.Ideal.Laws
import Mathlib.Data.Finset.Fold
import Mathlib.Data.EReal.Basic

set_option maxRecDepth 16384

noncomputable section

namespace Cert.KernelIdeal.Value0

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b)) (c : Dev nD)

/-- The maximum of row `r` of the hidden layer over column block `k` (columns `1024 k … 1024 k + 1023`), started from
    -∞; past the eighth block, -∞ itself. -/
def blockMax (r : Fin 8192) (k : ℕ) : EReal :=
  if hk : k < 8 then
    (Finset.univ : Finset (Fin 1024)).fold max Cert.Spec.ninf
      (fun q => hid V c r ⟨1024 * k + q.val, by have := q.isLt; omega⟩)
  else Cert.Spec.ninf

/-- The running maximum of row `r` after column block `m`: zero and the block maxima of the blocks `0 … m`. -/
def run (r : Fin 8192) (m : ℕ) : EReal := (Finset.range (m + 1)).fold max Cert.Spec.zero (blockMax V c r)

theorem run_zero (r : Fin 8192) : run V c r 0 = max Cert.Spec.zero (blockMax V c r 0) := by
  show (Finset.range 1).fold max Cert.Spec.zero (blockMax V c r) = _
  rw [Finset.range_one, Finset.fold_singleton]
  exact max_comm _ _

theorem run_succ (r : Fin 8192) (m : ℕ) : run V c r (m + 1) = max (run V c r m) (blockMax V c r (m + 1)) := by
  show (Finset.range (m + 1 + 1)).fold max Cert.Spec.zero (blockMax V c r) = _
  rw [Finset.range_add_one, Finset.fold_insert Finset.notMem_range_self]
  exact max_comm _ _

/-- The body at point `t` folds column block `t % 8`'s row maxima into the running column. -/
theorem step_apply (t : Fin cfg0.N) (acc : Vec Ideal S512x1 .f32) (p : Fin 512) (u : Fin 1) (r : Fin 8192)
    (hr : r.val = 512 * (t.val / 8) + p.val) :
    k0_pay3 (iblk0 V c 0 t) (iblk0 V c 1 t) acc (ix2 p u) = max (acc (ix2 p u)) (blockMax V c r (t.val % 8)) := by
  refine (pay3_apply (iblk0 V c 0 t) (iblk0 V c 1 t) acc p u).trans ?_
  refine congrArg (max (acc (ix2 p u))) ?_
  unfold blockMax
  rw [dif_pos (Nat.mod_lt _ (by decide))]
  exact Finset.fold_congr fun q _ => prod_apply V c t p q r _ hr rfl

/-- At the first point of a row block the running column is zero and the first block's row maxima. -/
theorem first_apply (t : Fin cfg0.N) (h : t.val % 8 = 0) (p : Fin 512) (u : Fin 1) (r : Fin 8192)
    (hr : r.val = 512 * (t.val / 8) + p.val) :
    acc0 V c t.val t.isLt (ix2 p u) = run V c r (t.val % 8) := by
  refine (congrFun (acc0_first V c t h) (ix2 p u)).trans ?_
  refine (step_apply V c t _ p u r hr).trans ?_
  rw [pay1_apply, h]
  exact (run_zero V c r).symm

/-- After point `n` the running column holds, at row `p`, zero and the row maxima of the column blocks `0 … n % 8` of
    row `512 (n / 8) + p` of the hidden layer. -/
theorem acc0_apply : ∀ (n : ℕ) (hn : n < cfg0.N) (p : Fin 512) (u : Fin 1) (r : Fin 8192),
    r.val = 512 * (n / 8) + p.val →
    acc0 V c n hn (ix2 p u) = run V c r (n % 8) := by
  intro n
  induction n with
  | zero =>
    intro hn p u r hr
    exact first_apply V c ⟨0, hn⟩ rfl p u r hr
  | succ n ih =>
    intro hn p u r hr
    by_cases h8 : (n + 1) % 8 = 0
    · exact first_apply V c ⟨n + 1, hn⟩ h8 p u r hr
    · have hdiv : (n + 1) / 8 = n / 8 := by omega
      have hmod : (n + 1) % 8 = n % 8 + 1 := by omega
      have ihn := ih (Nat.lt_of_succ_lt hn) p u r (by omega)
      refine (congrFun (acc0_next V c ⟨n + 1, hn⟩ h8) (ix2 p u)).trans ?_
      refine (step_apply V c ⟨n + 1, hn⟩ _ p u r hr).trans ?_
      show max (acc0 V c n _ (ix2 p u)) (blockMax V c r ((n + 1) % 8)) = run V c r ((n + 1) % 8)
      rw [ihn, hmod]
      exact (run_succ V c r (n % 8)).symm

/-- The zero word is the number zero. -/
theorem zero_eq : Cert.Spec.zero = 0 := by
  unfold Cert.Spec.zero
  exact Ideal.ofBits_zero_f32

/-- Every entry of the hidden layer is at least zero: it is a maximum with zero. -/
theorem hid_nonneg (r o : Fin 8192) : Cert.Spec.zero ≤ hid V c r o := by
  unfold hid Cert.Spec.hidden
  exact le_max_right _ _

/-- After the eighth column block the running maximum of row `r` is the absolute maximum of the whole row of the hidden
    layer.  Both are the least upper bound of the same values: every entry lies in one of the eight blocks; an entry is
    at least zero, so it is its own absolute value, its negative is at most zero, and zero itself is below the first
    entry; and each fold's start value -∞ is below the other side as the start value of a fold there. -/
theorem run_last (r : Fin 8192) : run V c r 7 = Cert.Spec.rowAbsMax (fun o => hid V c r o) := by
  unfold run Cert.Spec.rowAbsMax
  refine le_antisymm ?_ ?_
  · refine (Finset.fold_max_le _).2 ⟨?_, fun k hk => ?_⟩
    · exact (Finset.le_fold_max _).2
        (Or.inr ⟨(0 : Fin 8192), Finset.mem_univ _, le_trans (hid_nonneg V c r 0) (le_max_left _ _)⟩)
    · have hk8 : k < 8 := Finset.mem_range.mp hk
      unfold blockMax
      rw [dif_pos hk8]
      refine (Finset.fold_max_le _).2 ⟨(Finset.le_fold_max _).2 (Or.inl le_rfl), fun q _ => ?_⟩
      exact (Finset.le_fold_max _).2 (Or.inr ⟨_, Finset.mem_univ _, le_max_left _ _⟩)
  · refine (Finset.fold_max_le _).2 ⟨?_, fun o _ => ?_⟩
    · refine (Finset.le_fold_max _).2 (Or.inr ⟨0, Finset.mem_range.mpr (by decide), ?_⟩)
      unfold blockMax
      rw [dif_pos (by decide : 0 < 8)]
      exact (Finset.le_fold_max _).2 (Or.inl le_rfl)
    · refine max_le ?_ ?_
      · have ho : o.val < 8192 := o.isLt
        refine (Finset.le_fold_max _).2 (Or.inr ⟨o.val / 1024, Finset.mem_range.mpr (by omega), ?_⟩)
        unfold blockMax
        rw [dif_pos (by omega : o.val / 1024 < 8)]
        refine (Finset.le_fold_max _).2
          (Or.inr ⟨⟨o.val % 1024, Nat.mod_lt _ (by decide)⟩, Finset.mem_univ _, ?_⟩)
        exact le_of_eq (congrArg (hid V c r) (Fin.ext (by show o.val = 1024 * (o.val / 1024) + o.val % 1024; omega)))
      · refine (Finset.le_fold_max _).2 (Or.inl ?_)
        have h0 := hid_nonneg V c r o
        rw [zero_eq] at h0 ⊢
        exact EReal.neg_le.mpr (by rw [neg_zero]; exact h0)

/-- The column of the hidden rows' absolute maxima. -/
def G3 : S8192x1.Idx → EReal := fun i => Cert.Spec.rowAbsMax (fun o => hid V c (i 0) o)

/-- What a point `t % 8 = 7` writes back is its row block of the column of row maxima. -/
theorem flushed3_eq (t : Fin cfg0.N) (hf : (cfg0.win 3).flush t = true) :
    (dat0 V c).flushed 3 t = ((cfg0.win 3).blk t).view.read (Elt Ideal) (G3 V c) := by
  have h7 : t.val % 8 = 7 := (flush0_3 t).mp hf
  obtain ⟨-, -, -, -, -, -, e0, e1⟩ := idx_facts t
  have hN : t.val < 128 := lt_of_lt_of_eq t.isLt N_0
  show (cfg0.win 3).cut (cfg0.grid.coords t) ((dat0 V c).after 3 t) = _
  rw [after0_3]
  funext j
  obtain ⟨p, u, rfl⟩ : ∃ (p : Fin 512) (u : Fin 1), j = ix2 p u := ⟨j 0, j 1, eq_ix2 (n0 := 512) (n1 := 1) j⟩
  rw [View.read_apply]
  show acc0 V c t.val t.isLt (ix2 p u) = G3 V c (((cfg0.win 3).blk t).view.emb (ix2 p u))
  have hG : ∀ (i : S8192x1.Idx) (r : Fin 8192), i 0 = r → G3 V c i = Cert.Spec.rowAbsMax (fun o => hid V c r o) := by
    intro i r h0; subst h0; rfl
  refine Eq.trans ?_ (hG _ ⟨512 * (t.val / 8) + p.val, by omega⟩ (Fin.ext ?_)).symm
  · rw [acc0_apply V c t.val t.isLt p u ⟨512 * (t.val / 8) + p.val, by omega⟩ rfl, h7]
    exact run_last V c _
  · show win0_3.index t (0 : Fin 2) * 512 + 1 * p.val = 512 * (t.val / 8) + p.val
    rw [e0]; omega

/-- Every entry of the column lies in the row block some point `t % 8 = 7` writes back. -/
theorem cover3 (i : S8192x1.Idx) :
    ∃ t : Fin cfg0.N, (cfg0.win 3).flush t = true ∧ i ∈ ((cfg0.win 3).blk t).view.set := by
  have h0 : (i 0).val < 8192 := (i 0).isLt
  have h1 : (i 1).val < 1 := (i 1).isLt
  obtain ⟨t, ht⟩ : ∃ t : Fin cfg0.N, t.val = 8 * ((i 0).val / 512) + 7 :=
    ⟨⟨8 * ((i 0).val / 512) + 7, by rw [show cfg0.N = 128 from N_0]; omega⟩, rfl⟩
  obtain ⟨-, -, -, -, -, -, e0, e1⟩ := idx_facts t
  refine ⟨t, (flush0_3 t).mpr (by omega), ?_⟩
  show i ∈ ((View.whole main_v25_1).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    rw [e0]; omega
  | ⟨1, _⟩ =>
    show win0_3.index t (1 : Fin 2) * 1 ≤ (i 1).val ∧ (i 1).val < win0_3.index t (1 : Fin 2) * 1 + 1
    rw [e1]; omega

/-- The column of row maxima after the first kernel. -/
theorem final3 : (dat0 V c).arrAt 3 cfg0.N = G3 V c :=
  (dat0 V c).arrAt_eq_of_cover 3 (G3 V c) (flushed3_eq V c) cover3

/-- Entry `r` of the column: the absolute maximum of row `r` of the hidden layer. -/
theorem rowmax_eq (r : Fin 8192) (u : Fin 1) :
    (dat0 V c).arrAt 3 cfg0.N (ix2 r u)
      = Cert.Spec.rowAbsMax (Cert.Spec.hidden (fun d : Fin 2048 => V c main_v0 (ix2 r d))
          (fun (o' : Fin 8192) (d : Fin 2048) => V c main_v12 (ix2 o' d))) := by
  rw [final3 V c]
  exact congrArg Cert.Spec.rowAbsMax (funext fun o => rfl)

end Cert.KernelIdeal.Value0

end
-- ==== Proof.KIValue0.lean ====
/-
  Layer 1's values: the two arrays the first kernel leaves, entry by entry — the hidden array (`hidden_eq`) and the
  column of its rows' absolute maxima (`rowmax_eq`).
-/
import proofs.«126096_j50276887167090_1_alg».proof.Proof.KIValue0Hidden
import proofs.«126096_j50276887167090_1_alg».proof.Proof.KIValue0RowMax
-- ==== Proof.LibFiniteReals.lean ====
/-
  A general lemma file: extended reals that are real numbers, and the mean and variance of finitely many of them.

  Over the extended reals sums and products have corners at the infinities, and laws such as distributivity hold only
  away from them. This file keeps track of the entries that ARE real numbers: they are closed under the arithmetic
  operations, finite sums, maxima, quotients by a nonzero real and the reciprocal square root of a positive real, and
  on them every identity of real arithmetic may be used. The identity needed for a batch normalisation is the two ways
  of writing a variance: for `n` real numbers with mean `μ`, the mean of the squared deviations `(y − μ)²` is the mean
  of the squares minus `μ²`.
-/
import Idealize.ShloMosaic.PureOps.Ideal

noncomputable section

namespace Cert.FiniteReals

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.max {x y : EReal} (hx : IsReal x) (hy : IsReal y) : IsReal (max x y) := by
  rcases max_cases x y with ⟨h, _⟩ | ⟨h, _⟩ <;> rw [h] <;> assumption

/-- A finite sum of reals, taken in the extended reals, is the real sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a real by a nonzero real, in the extended reals' division, is the real quotient. -/
theorem div_coe_coe (x : ℝ) {y : ℝ} (hy : y ≠ 0) : Ideal.div (x : EReal) (y : EReal) = ((x / y : ℝ) : EReal) := by
  rw [Ideal.div_coe hy, ← EReal.coe_mul]
  congr 1
  field_simp

theorem IsReal.div_coe {x : EReal} (hx : IsReal x) {y : ℝ} (hy : y ≠ 0) : IsReal (Ideal.div x (y : EReal)) := by
  obtain ⟨r, rfl⟩ := hx; exact ⟨r / y, div_coe_coe r hy⟩

/-- The reciprocal square root of a positive real is a positive real. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

theorem isReal_rsqrt_of_pos {r : ℝ} (h : 0 < r) : IsReal (Ideal.rsqrt (r : EReal)) :=
  ⟨_, rsqrt_coe_pos h⟩

/-! ## Mean and variance of `n` reals -/

/-- For `n` real numbers with sum `S`: the mean of the squared deviations from `S / n` is the mean of the squares minus
    the square of the mean. -/
theorem real_variance (n : ℕ) (hn : (n : ℝ) ≠ 0) (y : Fin n → ℝ) :
    (∑ a, (y a - (∑ a, y a) / n) * (y a - (∑ a, y a) / n)) / n
      = (∑ a, y a * y a) / n - ((∑ a, y a) / n) * ((∑ a, y a) / n) := by
  set S := ∑ a, y a with hS
  have h1 : ∑ a, (y a - S / n) * (y a - S / n) = (∑ a, y a * y a) - 2 * (S / n) * S + n * ((S / n) * (S / n)) := by
    have : ∀ a, (y a - S / n) * (y a - S / n) = y a * y a - 2 * (S / n) * y a + (S / n) * (S / n) := fun a => by ring
    simp only [this, Finset.sum_add_distrib, Finset.sum_sub_distrib, ← Finset.mul_sum, Finset.sum_const, Finset.card_univ,
      Fintype.card_fin, nsmul_eq_mul, ← hS]
    ring
  rw [h1]
  field_simp
  ring

/-- The mean of the squared deviations of real numbers is a nonnegative real. -/
theorem real_variance_nonneg (n : ℕ) (μ : ℝ) (y : Fin n → ℝ) : 0 ≤ (∑ a, (y a - μ) * (y a - μ)) / n :=
  div_nonneg (Finset.sum_nonneg fun a _ => mul_self_nonneg _) (Nat.cast_nonneg n)

variable {n : ℕ}

/-- THE MEAN of `n` real entries, computed in the extended reals: the real mean. -/
theorem mean_coe (hn : (n : ℝ) ≠ 0) (y : Fin n → ℝ) :
    Ideal.div (∑ a, ((y a : ℝ) : EReal)) ((n : ℝ) : EReal) = (((∑ a, y a) / n : ℝ) : EReal) := by
  rw [coe_sum, div_coe_coe _ hn]

/-- THE TWO VARIANCES AGREE on real entries: the mean of `(Y − μ)²` (`μ` the mean) is the mean of `Y²` minus `μ²`, all
    computed in the extended reals with the quotient by `n`. -/
theorem variance_eq (hn : (n : ℝ) ≠ 0) (Y : Fin n → EReal) (hY : ∀ a, IsReal (Y a)) :
    Ideal.div (∑ a, (Y a - Ideal.div (∑ a, Y a) ((n : ℝ) : EReal)) * (Y a - Ideal.div (∑ a, Y a) ((n : ℝ) : EReal))) ((n : ℝ) : EReal)
      = Ideal.div (∑ a, Y a * Y a) ((n : ℝ) : EReal)
        - Ideal.div (∑ a, Y a) ((n : ℝ) : EReal) * Ideal.div (∑ a, Y a) ((n : ℝ) : EReal) := by
  choose y hy using hY
  obtain rfl : Y = fun a => ((y a : ℝ) : EReal) := funext hy
  simp only [mean_coe hn, ← EReal.coe_sub, ← EReal.coe_mul, coe_sum, div_coe_coe _ hn]
  exact congrArg _ (real_variance n hn y)

/-- On real entries the mean is real, -/
theorem isReal_mean (hn : (n : ℝ) ≠ 0) (Y : Fin n → EReal) (hY : ∀ a, IsReal (Y a)) :
    IsReal (Ideal.div (∑ a, Y a) ((n : ℝ) : EReal)) :=
  (IsReal.sum _ _ fun a _ => hY a).div_coe hn

/-- and the variance is a nonnegative real. -/
theorem variance_nonneg (hn : (n : ℝ) ≠ 0) (Y : Fin n → EReal) (hY : ∀ a, IsReal (Y a)) (μ : EReal) (hμ : IsReal μ) :
    ∃ v : ℝ, 0 ≤ v ∧ Ideal.div (∑ a, (Y a - μ) * (Y a - μ)) ((n : ℝ) : EReal) = (v : EReal) := by
  choose y hy using hY
  obtain rfl : Y = fun a => ((y a : ℝ) : EReal) := funext hy
  obtain ⟨m, rfl⟩ := hμ
  refine ⟨(∑ a, (y a - m) * (y a - m)) / n, real_variance_nonneg n m y, ?_⟩
  simp only [← EReal.coe_sub, ← EReal.coe_mul, coe_sum, div_coe_coe _ hn]

end Cert.FiniteReals

end
-- ==== Proof.LibFiniteInputs.lean ====
/-
  A general lemma file: the printed precondition "every entry of a float array is finite", read back.

  `jnp.all(jnp.abs(x) < inf)` prints as a reduction by `and`, from the constant 1, of the comparison of `|x|` with the
  splat of the word 0x7F800000 (single precision's +inf). At the ideal values that word is the top element, the
  comparison is the order of the extended reals, and an extended real whose absolute value is below the top is a real
  number. So the reduction being 1 says every entry of `x` is a real number — for any shape and any reduced axes.
-/
import Idealize.ShloMosaic.Lib.ReduceAll
import Idealize.ShloMosaic.Lib.ValueIdx
import proofs.«126096_j50276887167090_1_alg».proof.Proof.LibFiniteReals

noncomputable section

namespace Cert.FiniteInputs

open Idealize.ShloMosaic Idealize.ShloMosaic.ValueIdx Cert.FiniteReals

/-- Single precision's +inf word is the top extended real. -/
theorem ofBits_inf : Ideal.ofBits .f32 0x7F800000#32 = ⊤ := by
  simp [Ideal.ofBits, Ideal.ieee]

/-- An extended real whose absolute value is below the top is a real number. -/
theorem isReal_of_abs_lt_top (x : EReal) (h : max x (-x) < ⊤) : IsReal x := by
  induction x using EReal.rec with
  | bot => simp at h
  | top => simp at h
  | coe r => exact ⟨r, rfl⟩

/-- The scalar shape has one index. -/
instance : Subsingleton (⟨0, ![]⟩ : Shape).Idx := ⟨fun a b => funext fun d => d.elim0⟩

/-- THE PRINTED `jnp.all(jnp.abs(x) < inf)` being 1 says every entry of `x` is a real number. -/
theorem isReal_of_all_finite {s : Shape} {axes : List (Fin s.rank)} (x : FVec Ideal s .f32)
    (hb : (⟨0, ![]⟩ : Shape).BroadcastsInDim s (![] : Fin 0 → Fin s.rank)) (h : s.ReducesTo axes ⟨0, ![]⟩)
    (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) h hu ix0 = 1#1) (i : s.Idx) : IsReal (x i) := by
  have hi := Host.reduce_andi_all _ _ h hu ix0 e i
  have hc : Ideal.cmp .olt (max (x i) (-(x i))) (Ideal.ofBits .f32 0x7F800000#32) = 1#1 := hi
  refine isReal_of_abs_lt_top (x i) ?_
  rw [← ofBits_inf]
  by_contra hn
  simp [Ideal.cmp, hn] at hc

end Cert.FiniteInputs

end
-- ==== Proof.KIHostReal.lean ====
/-
  The finiteness precondition of the kernel program, decoded.

  The printed test `all(|x| < +inf)` over the three arguments is the conjunction of three reductions by `and`; its being 1
  on every device says every entry of the activations and of both weight matrices is a real number.
-/
import proofs.«126096_j50276887167090_1_alg».proof.Proof.Gen.KernelIdeal.Regions
import proofs.«126096_j50276887167090_1_alg».proof.Defs
import proofs.«126096_j50276887167090_1_alg».proof.Proof.LibFiniteInputs
import Idealize.ShloMosaic.Lib.ValueIdx

noncomputable section

namespace Cert.KernelIdeal.HostReads

open Cert.KernelIdeal Cert.KernelIdeal.Gen Idealize.ShloMosaic Idealize.ShloMosaic.ValueIdx Cert.FiniteReals
open Idealize.ShloMosaic.TcCoe Idealize.SL.Sem

variable (m : (ℓ : Loc nD τ sig) → Buf (Elt Ideal) ℓ) (c : Dev nD)

/-- The precondition read back: every entry of the three arguments is a real number.  The printed test is the
    conjunction of three reductions by `and` of `|x| < +inf`; each being 1 says every entry of that argument is real. -/
theorem inputs_real [Cert.Pre_finite_inputs.Facts] (h : Cert.Pre_KernelIdeal m) :
    (∀ i, IsReal (m ((c.tc : Thread nD τ).loc main_arg0) i)) ∧ (∀ i, IsReal (m ((c.tc : Thread nD τ).loc main_arg1) i)) ∧ (∀ i, IsReal (m ((c.tc : Thread nD τ).loc main_arg2) i)) := by
  have h0 := congrFun (h c) ValueIdx.ix0
  dsimp only [Cert.Pre_finite_inputs.fn] at h0
  obtain ⟨h01, h2⟩ := IntOp.andi_eq_one.mp h0
  obtain ⟨h00, h1⟩ := IntOp.andi_eq_one.mp h01
  exact ⟨fun i => Cert.FiniteInputs.isReal_of_all_finite _ _ _ _ h00 i,
    fun i => Cert.FiniteInputs.isReal_of_all_finite _ _ _ _ h1 i,
    fun i => Cert.FiniteInputs.isReal_of_all_finite _ _ _ _ h2 i⟩

end Cert.KernelIdeal.HostReads

end
-- ==== Proof.KIHostOps.lean ====
/-
  The host's per-tensor weight quantization, read at an index.

  For a weight array `A` of any shape the host computes the scale `1 / max(ε, (0 + Σ|A|) / 2^24)` as a scalar and then, entry
  by entry, `min(1, max(-1, roundeven(A · scale))) / scale`, followed by a change of format that is the identity on
  extended reals.  The two chains are named here as the host writes them (constants as their words, the scalar
  broadcast to the array's shape) and read at an index: they are the specification's `wscale (sumAbs A)` and
  `wquant scale (A i)`.
-/
import proofs.«126096_j50276887167090_1_alg».proof.Proof.Spec
import Idealize.ShloMosaic.PureOps.Ideal.Laws
import Idealize.ShloMosaic.Lib.Pipeline.Value
import Idealize.ShloMosaic.Lib.ValueIdx

noncomputable section

namespace Cert.KernelIdeal.HostReads

open Idealize.ShloMosaic Idealize.ShloMosaic.ValueIdx

/-- The scalar shape. -/
abbrev Sc : Shape := ⟨0, ![]⟩

variable {s : Shape}

/-- The scale as the host computes it: `1 / max(ε, (0 + Σ|A|) / 2^24)`, a scalar. -/
def hostScale {axes : List (Fin s.rank)} (A : FVec Ideal s .f32) (h : s.ReducesTo axes Sc) (hu : 0 < Sc.numel) :
    FVec Ideal Sc .f32 :=
  Host.divf (F := Ideal) (constant (F := Ideal) Sc .f32 0x3F800000#32)
    (maximumf (id (constant (F := Ideal) Sc .f32 0x3727C5AC#32))
      (Host.divf (F := Ideal)
        (Host.reduceAdd (F := Ideal) (Host.absf (F := Ideal) A) (constant (F := Ideal) Sc .f32 0x00000000#32) h hu)
        (constant (F := Ideal) Sc .f32 0x4B800000#32)))

/-- The quantized array as the host computes it from the array and a scalar scale. -/
def hostQuant (A : FVec Ideal s .f32) (sc : FVec Ideal Sc .f32) (hb : Sc.BroadcastsInDim s (![] : Fin 0 → Fin s.rank))
    (hlt : FTy.bits .bf16 < FTy.bits .f32) : FVec Ideal s .bf16 :=
  truncf .bf16
    (Host.divf (F := Ideal)
      (minimumf (broadcastInDim s ![] hb (id (constant (F := Ideal) Sc .f32 0x3F800000#32)))
        (maximumf (broadcastInDim s ![] hb (id (constant (F := Ideal) Sc .f32 0xBF800000#32)))
          (Host.roundeven (F := Ideal) (mulf A (broadcastInDim s ![] hb sc)))))
      (broadcastInDim s ![] hb sc)) hlt

/-- The host's sum of absolute values into a scalar is the specification's. -/
theorem hostSumAbs_apply {axes : List (Fin s.rank)} (A : FVec Ideal s .f32) (h : s.ReducesTo axes Sc) (hu : 0 < Sc.numel)
    (j : Sc.Idx) :
    Host.reduceAdd (F := Ideal) (Host.absf (F := Ideal) A) (constant (F := Ideal) Sc .f32 0x00000000#32) h hu j
      = Cert.Spec.sumAbs A := by
  simp only [Host.reduceAdd, Ideal.hostReduceAdd_def]
  exact Ideal.hostReduceAdd_total h (fun b => b.elim0) _ _ j

/-- THE SCALE read at the scalar's index. -/
theorem hostScale_apply {axes : List (Fin s.rank)} (A : FVec Ideal s .f32) (h : s.ReducesTo axes Sc) (hu : 0 < Sc.numel)
    (j : Sc.Idx) : hostScale A h hu j = Cert.Spec.wscale (Cert.Spec.sumAbs A) := by
  show Ideal.div (Ideal.ofBits .f32 0x3F800000#32) (max (Ideal.ofBits .f32 0x3727C5AC#32)
    (Ideal.div (Host.reduceAdd (F := Ideal) (Host.absf (F := Ideal) A) (constant (F := Ideal) Sc .f32 0x00000000#32) h hu j)
      (Ideal.ofBits .f32 0x4B800000#32))) = _
  rw [hostSumAbs_apply A h hu j]
  rfl

/-- A scalar broadcast to an array reads the scalar everywhere. -/
theorem bcast_scalar_apply {α : Type} (hb : Sc.BroadcastsInDim s (![] : Fin 0 → Fin s.rank)) (y : Sc.Idx → α) (i : s.Idx) :
    broadcastInDim s ![] hb y i = y ix0 :=
  broadcastInDim_apply _ hb y i ix0 (fun a => a.elim0)

/-- THE QUANTIZED ARRAY read at an index. -/
theorem hostQuant_apply (A : FVec Ideal s .f32) (sc : FVec Ideal Sc .f32) (hb : Sc.BroadcastsInDim s (![] : Fin 0 → Fin s.rank))
    (hlt : FTy.bits .bf16 < FTy.bits .f32) (i : s.Idx) :
    hostQuant A sc hb hlt i = Cert.Spec.wquant (sc ix0) (A i) := by
  show Ideal.div
      (min (broadcastInDim s ![] hb (id (constant (F := Ideal) Sc .f32 0x3F800000#32)) i)
        (max (broadcastInDim s ![] hb (id (constant (F := Ideal) Sc .f32 0xBF800000#32)) i)
          (Ideal.liftRound Ideal.roundHalfEven (A i * broadcastInDim s ![] hb sc i))))
      (broadcastInDim s ![] hb sc i) = _
  rw [bcast_scalar_apply hb sc i, bcast_scalar_apply hb _ i, bcast_scalar_apply hb _ i]
  rfl

end Cert.KernelIdeal.HostReads

end
-- ==== Proof.KIHostW1.lean ====
/-
  The first weight matrix as the kernel program's host operations quantize it, read at an index.

  The operations run in seven stretches: the mean of the absolute values and ε; their maximum; its reciprocal (the
  scale) and the matrix times it; the rounding; the two clamps; the clamping; the division by the scale and the change
  of format.  Each stretch's result is stated over what the stretch before left, the stretches are chained into the
  host's scale and quantization chains over the launch matrix, and those are read at an index: entry `(o, d)` is the
  specification's `wquant (wscale (sumAbs w)) (w (o, d))`.
-/
import proofs.«126096_j50276887167090_1_alg».proof.Proof.Gen.KernelIdeal.Regions
import proofs.«126096_j50276887167090_1_alg».proof.Proof.Spec
import proofs.«126096_j50276887167090_1_alg».proof.Proof.KIHostOps
import Idealize.ShloMosaic.Lib.ValueIdx

noncomputable section

namespace Cert.KernelIdeal.HostReads

open Cert.KernelIdeal Cert.KernelIdeal.Gen Idealize.ShloMosaic Idealize.ShloMosaic.ValueIdx
open Idealize.ShloMosaic.TcCoe Idealize.SL.Sem

variable (m : (ℓ : Loc nD τ sig) → Buf (Elt Ideal) ℓ) (c : Dev nD)

namespace W1

/-! ## The matrix is not written by the host -/

/-- The first weight matrix holds its launch contents when the sum of its absolute values is taken … -/
theorem arg_at0 : @Eq (FVec Ideal S8192x2048 .f32) (V0 m c main_arg1)
      ((m ((c.tc : Thread nD τ).loc main_arg1))) := rfl
/-- … and when it is multiplied by the scale. -/
theorem arg_at2 : @Eq (FVec Ideal S8192x2048 .f32) (V2 m c main_arg1)
      ((m ((c.tc : Thread nD τ).loc main_arg1))) :=
  (V2_of m c main_arg1 (by decide)).trans <| (V1_of m c main_arg1 (by decide))

/-! ## One lemma per stretch of host operations: what it writes, over what the stretch before left -/

/-- The mean of the absolute values: `(0 + Σ|w|) / 2^24`. -/
theorem st0_mean : @Eq (FVec Ideal Sc .f32) (V1 m c main_v3)
      (Host.divf (F := Ideal)
        (Host.reduceAdd (F := Ideal) (Host.absf (F := Ideal) (s := S8192x2048) (φ := .f32) (V0 m c main_arg1)) (constant (F := Ideal) Sc .f32 0x00000000#32) reducesTo_S8192x2048_S_d0_1 h_S_)
        (constant (F := Ideal) Sc .f32 0x4B800000#32)) := by
  show StableHlo.after hostOps0 (V0 m c) (Proc.devRef .tc main_v3) = _
  generalize V0 m c = W
  after_results
  first | done | rfl

/-- The small constant ε. -/
theorem st0_eps : @Eq (FVec Ideal Sc .f32) (V1 m c main_cst_1)
      (constant (F := Ideal) Sc .f32 0x3727C5AC#32) := by
  show StableHlo.after hostOps0 (V0 m c) (Proc.devRef .tc main_cst_1) = _
  generalize V0 m c = W
  after_results
  first | done | rfl

/-- The larger of ε and the mean. -/
theorem st1_max : @Eq (FVec Ideal Sc .f32) (V2 m c main_v4)
      (maximumf (F := Ideal) (s := Sc) (φ := .f32) (id (V1 m c main_cst_1)) (V1 m c main_v3)) := by
  show StableHlo.after hostOps0_1 (V1 m c) (Proc.devRef .tc main_v4) = _
  generalize V1 m c = W
  after_results
  first | done | rfl

/-- The scale: one over it. -/
theorem st2_scale : @Eq (FVec Ideal Sc .f32) (V3 m c main_v5)
      (Host.divf (F := Ideal) (s := Sc) (φ := .f32) (constant (F := Ideal) Sc .f32 0x3F800000#32) (V2 m c main_v4)) := by
  show StableHlo.after hostOps0_2 (V2 m c) (Proc.devRef .tc main_v5) = _
  generalize V2 m c = W
  after_results
  first | done | rfl

/-- The matrix times the scale, the scale broadcast to the matrix's shape. -/
theorem st2_prod : @Eq (FVec Ideal S8192x2048 .f32) (V3 m c main_v7)
      (mulf (F := Ideal) (s := S8192x2048) (φ := .f32) (V2 m c main_arg1)
        (broadcastInDim S8192x2048 ![] bcast_S_S8192x2048 (Host.divf (F := Ideal) (s := Sc) (φ := .f32) (constant (F := Ideal) Sc .f32 0x3F800000#32) (V2 m c main_v4)))) := by
  show StableHlo.after hostOps0_2 (V2 m c) (Proc.devRef .tc main_v7) = _
  generalize V2 m c = W
  after_results
  first | done | rfl

/-- Rounded to the nearest integer, ties to even. -/
theorem st3_round : @Eq (FVec Ideal S8192x2048 .f32) (V4 m c main_v8)
      (Host.roundeven (F := Ideal) (s := S8192x2048) (φ := .f32) (V3 m c main_v7)) := by
  show StableHlo.after hostOps0_3 (V3 m c) (Proc.devRef .tc main_v8) = _
  generalize V3 m c = W
  after_results
  first | done | rfl

/-- The two clamps, -1 and 1. -/
theorem st4_lo : @Eq (FVec Ideal Sc .f32) (V5 m c main_cst_3)
      (constant (F := Ideal) Sc .f32 0xBF800000#32) := by
  show StableHlo.after hostOps0_4 (V4 m c) (Proc.devRef .tc main_cst_3) = _
  generalize V4 m c = W
  after_results
  first | done | rfl
theorem st4_hi : @Eq (FVec Ideal Sc .f32) (V5 m c main_cst_4)
      (constant (F := Ideal) Sc .f32 0x3F800000#32) := by
  show StableHlo.after hostOps0_4 (V4 m c) (Proc.devRef .tc main_cst_4) = _
  generalize V4 m c = W
  after_results
  first | done | rfl

/-- Clamped to `[-1, 1]`: the smaller of 1 and the larger of -1 and the rounded product. -/
theorem st5_clamp : @Eq (FVec Ideal S8192x2048 .f32) (V6 m c main_v9)
      (minimumf (F := Ideal) (s := S8192x2048) (φ := .f32) (broadcastInDim S8192x2048 ![] bcast_S_S8192x2048 (@id (FVec Ideal Sc .f32) (V5 m c main_cst_4)))
        (maximumf (F := Ideal) (s := S8192x2048) (φ := .f32) (broadcastInDim S8192x2048 ![] bcast_S_S8192x2048 (@id (FVec Ideal Sc .f32) (V5 m c main_cst_3))) (V5 m c main_v8))) := by
  show StableHlo.after hostOps0_5 (V5 m c) (Proc.devRef .tc main_v9) = _
  generalize V5 m c = W
  after_results
  first | done | rfl

/-- Divided by the scale again, then the change of format. -/
theorem st6_quant : @Eq (FVec Ideal S8192x2048 .bf16) (V7 m c main_v12)
      (truncf (F := Ideal) (s := S8192x2048) (φ := .f32) .bf16 (Host.divf (F := Ideal) (s := S8192x2048) (φ := .f32) (V6 m c main_v9)
        (broadcastInDim S8192x2048 ![] bcast_S_S8192x2048 (V6 m c main_v5))) bitsLt_bf16_f32) := by
  show StableHlo.after hostOps0_6 (V6 m c) (Proc.devRef .tc main_v12) = _
  generalize V6 m c = W
  after_results
  first | done | rfl

/-! ## The stretches chained -/

/-- The scale buffer holds the host's scale of the launch matrix. -/
theorem scale_eq : @Eq (FVec Ideal Sc .f32) (V3 m c main_v5)
      (hostScale (m ((c.tc : Thread nD τ).loc main_arg1)) reducesTo_S8192x2048_S_d0_1 h_S_) := by
  rw [st2_scale, st1_max, st0_eps, st0_mean, arg_at0]
  rfl

/-- The scale is still there when the clamped matrix is divided by it. -/
theorem scale_kept : @Eq (FVec Ideal Sc .f32) (V6 m c main_v5)
      (hostScale (m ((c.tc : Thread nD τ).loc main_arg1)) reducesTo_S8192x2048_S_d0_1 h_S_) :=
  ((V6_of m c main_v5 (by decide)).trans <| (V5_of m c main_v5 (by decide)).trans <| (V4_of m c main_v5 (by decide))).trans (scale_eq m c)

/-- The rounded product is still there when it is clamped. -/
theorem round_kept : @Eq (FVec Ideal S8192x2048 .f32) (V5 m c main_v8)
      (V4 m c main_v8) :=
  (V5_of m c main_v8 (by decide))

/-- The quantized matrix as the host's chain over the launch matrix. -/
theorem quant_eq : @Eq (FVec Ideal S8192x2048 .bf16) (V13 m c main_v12)
      (hostQuant (m ((c.tc : Thread nD τ).loc main_arg1)) (hostScale (m ((c.tc : Thread nD τ).loc main_arg1)) reducesTo_S8192x2048_S_d0_1 h_S_) bcast_S_S8192x2048 bitsLt_bf16_f32) := by
  refine ((V13_of m c main_v12 (by decide)).trans <| (V12_of m c main_v12 (by decide)).trans <| (V11_of m c main_v12 (by decide)).trans <| (V10_of m c main_v12 (by decide)).trans <| (V9_of m c main_v12 (by decide)).trans <| (V8_of m c main_v12 (by decide))).trans ?_
  rw [st6_quant, scale_kept, st5_clamp, st4_hi, st4_lo, round_kept, st3_round, st2_prod, ← st2_scale, scale_eq, arg_at2]
  rfl

end W1

/-- THE QUANTIZED FIRST WEIGHT MATRIX at an index: the specification's quantized weight at the per-tensor scale. -/
theorem w1q_apply (o : Fin 8192) (d : Fin 2048) :
    V13 m c main_v12 (ix2 o d) = Cert.Spec.wquant (Cert.Spec.wscale (Cert.Spec.sumAbs (m ((c.tc : Thread nD τ).loc main_arg1)))) ((m ((c.tc : Thread nD τ).loc main_arg1)) (ix2 o d)) := by
  refine (congrFun (W1.quant_eq m c) (ix2 o d)).trans ?_
  rw [hostQuant_apply, hostScale_apply]

end Cert.KernelIdeal.HostReads

end
-- ==== Proof.KIHostW2.lean ====
/-
  The second weight matrix as the kernel program's host operations quantize it, read at an index.

  The operations run in seven stretches: the mean of the absolute values and ε; their maximum; its reciprocal (the
  scale) and the matrix times it; the rounding; the two clamps; the clamping; the division by the scale and the change
  of format.  Each stretch's result is stated over what the stretch before left, the stretches are chained into the
  host's scale and quantization chains over the launch matrix, and those are read at an index: entry `(e, o)` is the
  specification's `wquant (wscale (sumAbs w)) (w (e, o))`.
-/
import proofs.«126096_j50276887167090_1_alg».proof.Proof.Gen.KernelIdeal.Regions
import proofs.«126096_j50276887167090_1_alg».proof.Proof.Spec
import proofs.«126096_j50276887167090_1_alg».proof.Proof.KIHostOps
import Idealize.ShloMosaic.Lib.ValueIdx

noncomputable section

namespace Cert.KernelIdeal.HostReads

open Cert.KernelIdeal Cert.KernelIdeal.Gen Idealize.ShloMosaic Idealize.ShloMosaic.ValueIdx
open Idealize.ShloMosaic.TcCoe Idealize.SL.Sem

variable (m : (ℓ : Loc nD τ sig) → Buf (Elt Ideal) ℓ) (c : Dev nD)

namespace W2

/-! ## The matrix is not written by the host -/

/-- The second weight matrix holds its launch contents when the sum of its absolute values is taken … -/
theorem arg_at6 : @Eq (FVec Ideal S2048x8192 .f32) (V6 m c main_arg2)
      ((m ((c.tc : Thread nD τ).loc main_arg2))) :=
  (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide))
/-- … and when it is multiplied by the scale. -/
theorem arg_at8 : @Eq (FVec Ideal S2048x8192 .f32) (V8 m c main_arg2)
      ((m ((c.tc : Thread nD τ).loc main_arg2))) :=
  (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide))

/-! ## One lemma per stretch of host operations: what it writes, over what the stretch before left -/

/-- The mean of the absolute values: `(0 + Σ|w|) / 2^24`. -/
theorem st0_mean : @Eq (FVec Ideal Sc .f32) (V7 m c main_v15)
      (Host.divf (F := Ideal)
        (Host.reduceAdd (F := Ideal) (Host.absf (F := Ideal) (s := S2048x8192) (φ := .f32) (V6 m c main_arg2)) (constant (F := Ideal) Sc .f32 0x00000000#32) reducesTo_S2048x8192_S_d0_1 h_S_)
        (constant (F := Ideal) Sc .f32 0x4B800000#32)) := by
  show StableHlo.after hostOps0_6 (V6 m c) (Proc.devRef .tc main_v15) = _
  generalize V6 m c = W
  after_results
  first | done | rfl

/-- The small constant ε. -/
theorem st0_eps : @Eq (FVec Ideal Sc .f32) (V7 m c main_cst_7)
      (constant (F := Ideal) Sc .f32 0x3727C5AC#32) := by
  show StableHlo.after hostOps0_6 (V6 m c) (Proc.devRef .tc main_cst_7) = _
  generalize V6 m c = W
  after_results
  first | done | rfl

/-- The larger of ε and the mean. -/
theorem st1_max : @Eq (FVec Ideal Sc .f32) (V8 m c main_v16)
      (maximumf (F := Ideal) (s := Sc) (φ := .f32) (id (V7 m c main_cst_7)) (V7 m c main_v15)) := by
  show StableHlo.after hostOps0_7 (V7 m c) (Proc.devRef .tc main_v16) = _
  generalize V7 m c = W
  after_results
  first | done | rfl

/-- The scale: one over it. -/
theorem st2_scale : @Eq (FVec Ideal Sc .f32) (V9 m c main_v17)
      (Host.divf (F := Ideal) (s := Sc) (φ := .f32) (constant (F := Ideal) Sc .f32 0x3F800000#32) (V8 m c main_v16)) := by
  show StableHlo.after hostOps0_8 (V8 m c) (Proc.devRef .tc main_v17) = _
  generalize V8 m c = W
  after_results
  first | done | rfl

/-- The matrix times the scale, the scale broadcast to the matrix's shape. -/
theorem st2_prod : @Eq (FVec Ideal S2048x8192 .f32) (V9 m c main_v19)
      (mulf (F := Ideal) (s := S2048x8192) (φ := .f32) (V8 m c main_arg2)
        (broadcastInDim S2048x8192 ![] bcast_S_S2048x8192 (Host.divf (F := Ideal) (s := Sc) (φ := .f32) (constant (F := Ideal) Sc .f32 0x3F800000#32) (V8 m c main_v16)))) := by
  show StableHlo.after hostOps0_8 (V8 m c) (Proc.devRef .tc main_v19) = _
  generalize V8 m c = W
  after_results
  first | done | rfl

/-- Rounded to the nearest integer, ties to even. -/
theorem st3_round : @Eq (FVec Ideal S2048x8192 .f32) (V10 m c main_v20)
      (Host.roundeven (F := Ideal) (s := S2048x8192) (φ := .f32) (V9 m c main_v19)) := by
  show StableHlo.after hostOps0_9 (V9 m c) (Proc.devRef .tc main_v20) = _
  generalize V9 m c = W
  after_results
  first | done | rfl

/-- The two clamps, -1 and 1. -/
theorem st4_lo : @Eq (FVec Ideal Sc .f32) (V11 m c main_cst_9)
      (constant (F := Ideal) Sc .f32 0xBF800000#32) := by
  show StableHlo.after hostOps0_10 (V10 m c) (Proc.devRef .tc main_cst_9) = _
  generalize V10 m c = W
  after_results
  first | done | rfl
theorem st4_hi : @Eq (FVec Ideal Sc .f32) (V11 m c main_cst_10)
      (constant (F := Ideal) Sc .f32 0x3F800000#32) := by
  show StableHlo.after hostOps0_10 (V10 m c) (Proc.devRef .tc main_cst_10) = _
  generalize V10 m c = W
  after_results
  first | done | rfl

/-- Clamped to `[-1, 1]`: the smaller of 1 and the larger of -1 and the rounded product. -/
theorem st5_clamp : @Eq (FVec Ideal S2048x8192 .f32) (V12 m c main_v21)
      (minimumf (F := Ideal) (s := S2048x8192) (φ := .f32) (broadcastInDim S2048x8192 ![] bcast_S_S2048x8192 (@id (FVec Ideal Sc .f32) (V11 m c main_cst_10)))
        (maximumf (F := Ideal) (s := S2048x8192) (φ := .f32) (broadcastInDim S2048x8192 ![] bcast_S_S2048x8192 (@id (FVec Ideal Sc .f32) (V11 m c main_cst_9))) (V11 m c main_v20))) := by
  show StableHlo.after hostOps0_11 (V11 m c) (Proc.devRef .tc main_v21) = _
  generalize V11 m c = W
  after_results
  first | done | rfl

/-- Divided by the scale again, then the change of format. -/
theorem st6_quant : @Eq (FVec Ideal S2048x8192 .bf16) (V13 m c main_v24)
      (truncf (F := Ideal) (s := S2048x8192) (φ := .f32) .bf16 (Host.divf (F := Ideal) (s := S2048x8192) (φ := .f32) (V12 m c main_v21)
        (broadcastInDim S2048x8192 ![] bcast_S_S2048x8192 (V12 m c main_v17))) bitsLt_bf16_f32) := by
  show StableHlo.after hostOps0_12 (V12 m c) (Proc.devRef .tc main_v24) = _
  generalize V12 m c = W
  after_results
  first | done | rfl

/-! ## The stretches chained -/

/-- The scale buffer holds the host's scale of the launch matrix. -/
theorem scale_eq : @Eq (FVec Ideal Sc .f32) (V9 m c main_v17)
      (hostScale (m ((c.tc : Thread nD τ).loc main_arg2)) reducesTo_S2048x8192_S_d0_1 h_S_) := by
  rw [st2_scale, st1_max, st0_eps, st0_mean, arg_at6]
  rfl

/-- The scale is still there when the clamped matrix is divided by it. -/
theorem scale_kept : @Eq (FVec Ideal Sc .f32) (V12 m c main_v17)
      (hostScale (m ((c.tc : Thread nD τ).loc main_arg2)) reducesTo_S2048x8192_S_d0_1 h_S_) :=
  ((V12_of m c main_v17 (by decide)).trans <| (V11_of m c main_v17 (by decide)).trans <| (V10_of m c main_v17 (by decide))).trans (scale_eq m c)

/-- The rounded product is still there when it is clamped. -/
theorem round_kept : @Eq (FVec Ideal S2048x8192 .f32) (V11 m c main_v20)
      (V10 m c main_v20) :=
  (V11_of m c main_v20 (by decide))

/-- The quantized matrix as the host's chain over the launch matrix. -/
theorem quant_eq : @Eq (FVec Ideal S2048x8192 .bf16) (V13 m c main_v24)
      (hostQuant (m ((c.tc : Thread nD τ).loc main_arg2)) (hostScale (m ((c.tc : Thread nD τ).loc main_arg2)) reducesTo_S2048x8192_S_d0_1 h_S_) bcast_S_S2048x8192 bitsLt_bf16_f32) := by
  rw [st6_quant, scale_kept, st5_clamp, st4_hi, st4_lo, round_kept, st3_round, st2_prod, ← st2_scale, scale_eq, arg_at8]
  rfl

end W2

/-- THE QUANTIZED SECOND WEIGHT MATRIX at an index: the specification's quantized weight at the per-tensor scale. -/
theorem w2q_apply (e : Fin 2048) (o : Fin 8192) :
    V13 m c main_v24 (ix2 e o) = Cert.Spec.wquant (Cert.Spec.wscale (Cert.Spec.sumAbs (m ((c.tc : Thread nD τ).loc main_arg2)))) ((m ((c.tc : Thread nD τ).loc main_arg2)) (ix2 e o)) := by
  refine (congrFun (W2.quant_eq m c) (ix2 e o)).trans ?_
  rw [hostQuant_apply, hostScale_apply]

end Cert.KernelIdeal.HostReads

end
-- ==== Proof.KIHost.lean ====
/-
  The host operations of the kernel program read at an index, gathered.

  Before its two kernel regions the program merges the activations `[4, 2048, 2048]` to a matrix `[8192, 2048]` and
  quantizes each weight matrix per tensor (scale `1 / max(ε, (0 + Σ|w|) / 2^24)`, entries
  `min(1, max(-1, roundeven(w · scale))) / scale`); after them it splits the result matrix back into batches.  The sibling
  modules read each of these at an index in the specification's vocabulary — `x2d_apply`, `w1q_apply`, `w2q_apply`,
  `result_apply` — and decode the finiteness precondition, `inputs_real`.  This module only gathers them.
-/
import proofs.«126096_j50276887167090_1_alg».proof.Proof.KIHostReal
import proofs.«126096_j50276887167090_1_alg».proof.Proof.KIHostShape
import proofs.«126096_j50276887167090_1_alg».proof.Proof.KIHostW1
import proofs.«126096_j50276887167090_1_alg».proof.Proof.KIHostW2
-- ==== Proof.RefRunB.lean ====
/-
  The reference program's run: its operations, and the facts a run of a straight line needs.

  The reference's @main is a straight line of 107 host operations: the activations are quantized per token (operations
  1 to 26), the first weight matrix per tensor (27 to 51), the two are multiplied and negative sums replaced by zero
  (52 to 55), the hidden values are quantized per token (56 to 81), the second weight matrix per tensor (82 to 106), and
  the two are multiplied (107).  Every weakly fair execution terminates; each buffer then holds what the operations, run
  in order from the launch contents, leave in it.
-/
import proofs.«126096_j50276887167090_1_alg».proof.Proof.Gen.ReferenceIdeal
import Idealize.ShloMosaic.Lib.StableHlo.Run

noncomputable section

namespace Cert.ReferenceIdeal.RunB

open Cert.ReferenceIdeal Cert.ReferenceIdeal.Gen Idealize.ShloMosaic Idealize.ShloMosaic.TcCoe Idealize.SL.Sem Idealize.ShloMosaic.StableHlo

variable {F : FTy → Type} [FloatOps F]

/-- @main's 107 operations, in order. -/
abbrev ops : List (HloOp τ sig (Elt F)) :=
  [ unary main_arg0 main_v0 (Host.absf : (⟨S4x2048x2048, .f32⟩ : BufTy).Contents (Elt F) → (⟨S4x2048x2048, .f32⟩ : BufTy).Contents (Elt F)),
    nullary main_cst (constant S_ .f32 0xFF800000#32),
    binary main_v0 main_cst main_v1 ((fun x v => Host.reduce FloatOps.maximumf x v reducesTo_S4x2048x2048_S4x2048_d2 h_S_) : (⟨S4x2048x2048, .f32⟩ : BufTy).Contents (Elt F) → (⟨S_, .f32⟩ : BufTy).Contents (Elt F) → (⟨S4x2048, .f32⟩ : BufTy).Contents (Elt F)),
    unary main_v1 main_v2 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_0 (constant S_ .f32 0x3727C5AC#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S4x2048x1, .f32⟩) main_call0_v1) (broadcastInDim S4x2048x1 ![] bcast_S_S4x2048x1),
    TRef.binary (TRef.of (T := ⟨S4x2048x1, .f32⟩) main_call0_v1) (TRef.of (T := ⟨S4x2048x1, .f32⟩) main_v2) (TRef.of (T := ⟨S4x2048x1, .f32⟩) main_v3) maximumf,
    nullary main_cst_1 (constant S_ .f32 0x42FE0000#32),
    unary main_cst_1 main_v4 (broadcastInDim S4x2048x1 ![] bcast_S_S4x2048x1 : (⟨S_, .f32⟩ : BufTy).Contents (Elt F) → (⟨S4x2048x1, .f32⟩ : BufTy).Contents (Elt F)),
    binary main_v4 main_v3 main_v5 (Host.divf : (⟨S4x2048x1, .f32⟩ : BufTy).Contents (Elt F) → (⟨S4x2048x1, .f32⟩ : BufTy).Contents (Elt F) → (⟨S4x2048x1, .f32⟩ : BufTy).Contents (Elt F)),
    unary main_v5 main_v6 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_arg0 main_v6 main_v7 (mulf : (⟨S4x2048x2048, .f32⟩ : BufTy).Contents (Elt F) → (⟨S4x2048x2048, .f32⟩ : BufTy).Contents (Elt F) → (⟨S4x2048x2048, .f32⟩ : BufTy).Contents (Elt F)),
    TRef.unary (TRef.of (T := ⟨S4x2048x2048, .f32⟩) main_v7) (TRef.of (T := ⟨S4x2048x2048, .f32⟩) main_v8) Host.roundeven,
    nullary main_cst_2 (constant S_ .f32 0xC3000000#32),
    nullary main_cst_3 (constant S_ .f32 0x42FE0000#32),
    TRef.unary (TRef.of (T := ⟨S_, .f32⟩) main_cst_2) (TRef.of (T := ⟨S_, .f32⟩) main_call2_v0) id,
    TRef.unary (TRef.of (T := ⟨S_, .f32⟩) main_call2_v0) (TRef.of (T := ⟨S4x2048x2048, .f32⟩) main_call2_v1) (broadcastInDim S4x2048x2048 ![] bcast_S_S4x2048x2048),
    TRef.binary (TRef.of (T := ⟨S4x2048x2048, .f32⟩) main_call2_v1) (TRef.of (T := ⟨S4x2048x2048, .f32⟩) main_v8) (TRef.of (T := ⟨S4x2048x2048, .f32⟩) main_call2_v2) maximumf,
    TRef.unary (TRef.of (T := ⟨S_, .f32⟩) main_cst_3) (TRef.of (T := ⟨S_, .f32⟩) main_call2_v3) id,
    TRef.unary (TRef.of (T := ⟨S_, .f32⟩) main_call2_v3) (TRef.of (T := ⟨S4x2048x2048, .f32⟩) main_call2_v4) (broadcastInDim S4x2048x2048 ![] bcast_S_S4x2048x2048),
    TRef.binary (TRef.of (T := ⟨S4x2048x2048, .f32⟩) main_call2_v4) (TRef.of (T := ⟨S4x2048x2048, .f32⟩) main_call2_v2) (TRef.of (T := ⟨S4x2048x2048, .f32⟩) main_v9) minimumf,
    unary main_v5 main_v10 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_v9 main_v10 main_v11 (Host.divf : (⟨S4x2048x2048, .f32⟩ : BufTy).Contents (Elt F) → (⟨S4x2048x2048, .f32⟩ : BufTy).Contents (Elt F) → (⟨S4x2048x2048, .f32⟩ : BufTy).Contents (Elt F)),
    binary main_v11 main_arg0 main_v12 (subf : (⟨S4x2048x2048, .f32⟩ : BufTy).Contents (Elt F) → (⟨S4x2048x2048, .f32⟩ : BufTy).Contents (Elt F) → (⟨S4x2048x2048, .f32⟩ : BufTy).Contents (Elt F)),
    binary main_arg0 main_v12 main_v13 (addf : (⟨S4x2048x2048, .f32⟩ : BufTy).Contents (Elt F) → (⟨S4x2048x2048, .f32⟩ : BufTy).Contents (Elt F) → (⟨S4x2048x2048, .f32⟩ : BufTy).Contents (Elt F)),
    unary main_arg1 main_v14 (Host.absf : (⟨S8192x2048, .f32⟩ : BufTy).Contents (Elt F) → (⟨S8192x2048, .f32⟩ : BufTy).Contents (Elt F)),
    nullary main_cst_4 (constant S_ .f32 0x00000000#32),
    binary main_v14 main_cst_4 main_v15 ((fun x v => Host.reduceAdd x v reducesTo_S8192x2048_S_d0_1 h_S_) : (⟨S8192x2048, .f32⟩ : BufTy).Contents (Elt F) → (⟨S_, .f32⟩ : BufTy).Contents (Elt F) → (⟨S_, .f32⟩ : BufTy).Contents (Elt F)),
    nullary main_cst_5 (constant S_ .f32 0x4B800000#32),
    binary main_v15 main_cst_5 main_v16 (Host.divf : (⟨S_, .f32⟩ : BufTy).Contents (Elt F) → (⟨S_, .f32⟩ : BufTy).Contents (Elt F) → (⟨S_, .f32⟩ : BufTy).Contents (Elt F)),
    nullary main_cst_6 (constant S_ .f32 0x3727C5AC#32),
    TRef.unary (TRef.of (T := ⟨S_, .f32⟩) main_cst_6) (TRef.of (T := ⟨S_, .f32⟩) main_call3_v0) id,
    TRef.binary (TRef.of (T := ⟨S_, .f32⟩) main_call3_v0) (TRef.of (T := ⟨S_, .f32⟩) main_v16) (TRef.of (T := ⟨S_, .f32⟩) main_v17) maximumf,
    nullary main_cst_7 (constant S_ .f32 0x3F800000#32),
    binary main_cst_7 main_v17 main_v18 (Host.divf : (⟨S_, .f32⟩ : BufTy).Contents (Elt F) → (⟨S_, .f32⟩ : BufTy).Contents (Elt F) → (⟨S_, .f32⟩ : BufTy).Contents (Elt F)),
    unary main_v18 main_v19 (broadcastInDim S8192x2048 ![] bcast_S_S8192x2048 : (⟨S_, .f32⟩ : BufTy).Contents (Elt F) → (⟨S8192x2048, .f32⟩ : BufTy).Contents (Elt F)),
    binary main_arg1 main_v19 main_v20 (mulf : (⟨S8192x2048, .f32⟩ : BufTy).Contents (Elt F) → (⟨S8192x2048, .f32⟩ : BufTy).Contents (Elt F) → (⟨S8192x2048, .f32⟩ : BufTy).Contents (Elt F)),
    TRef.unary (TRef.of (T := ⟨S8192x2048, .f32⟩) main_v20) (TRef.of (T := ⟨S8192x2048, .f32⟩) main_v21) Host.roundeven,
    nullary main_cst_8 (constant S_ .f32 0xBF800000#32),
    nullary main_cst_9 (constant S_ .f32 0x3F800000#32),
    TRef.unary (TRef.of (T := ⟨S_, .f32⟩) main_cst_8) (TRef.of (T := ⟨S_, .f32⟩) main_call5_v0) id,
    TRef.unary (TRef.of (T := ⟨S_, .f32⟩) main_call5_v0) (TRef.of (T := ⟨S8192x2048, .f32⟩) main_call5_v1) (broadcastInDim S8192x2048 ![] bcast_S_S8192x2048),
    TRef.binary (TRef.of (T := ⟨S8192x2048, .f32⟩) main_call5_v1) (TRef.of (T := ⟨S8192x2048, .f32⟩) main_v21) (TRef.of (T := ⟨S8192x2048, .f32⟩) main_call5_v2) maximumf,
    TRef.unary (TRef.of (T := ⟨S_, .f32⟩) main_cst_9) (TRef.of (T := ⟨S_, .f32⟩) main_call5_v3) id,
    TRef.unary (TRef.of (T := ⟨S_, .f32⟩) main_call5_v3) (TRef.of (T := ⟨S8192x2048, .f32⟩) main_call5_v4) (broadcastInDim S8192x2048 ![] bcast_S_S8192x2048),
    TRef.binary (TRef.of (T := ⟨S8192x2048, .f32⟩) main_call5_v4) (TRef.of (T := ⟨S8192x2048, .f32⟩) main_call5_v2) (TRef.of (T := ⟨S8192x2048, .f32⟩) main_v22) minimumf,
    unary main_v18 main_v23 (broadcastInDim S8192x2048 ![] bcast_S_S8192x2048 : (⟨S_, .f32⟩ : BufTy).Contents (Elt F) → (⟨S8192x2048, .f32⟩ : BufTy).Contents (Elt F)),
    binary main_v22 main_v23 main_v24 (Host.divf : (⟨S8192x2048, .f32⟩ : BufTy).Contents (Elt F) → (⟨S8192x2048, .f32⟩ : BufTy).Contents (Elt F) → (⟨S8192x2048, .f32⟩ : BufTy).Contents (Elt F)),
    binary main_v24 main_arg1 main_v25 (subf : (⟨S8192x2048, .f32⟩ : BufTy).Contents (Elt F) → (⟨S8192x2048, .f32⟩ : BufTy).Contents (Elt F) → (⟨S8192x2048, .f32⟩ : BufTy).Contents (Elt F)),
    binary main_arg1 main_v25 main_v26 (addf : (⟨S8192x2048, .f32⟩ : BufTy).Contents (Elt F) → (⟨S8192x2048, .f32⟩ : BufTy).Contents (Elt F) → (⟨S8192x2048, .f32⟩ : BufTy).Contents (Elt F)),
    binary main_v13 main_v26 main_v27 ((fun l r => Host.dotGeneral dot_S4x2048x2048_S8192x2048_S4x2048x8192_2_1_01_0_n_n none l r) : (⟨S4x2048x2048, .f32⟩ : BufTy).Contents (Elt F) → (⟨S8192x2048, .f32⟩ : BufTy).Contents (Elt F) → (⟨S4x2048x8192, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S4x2048x8192, .f32⟩) main_call6_v0) (broadcastInDim S4x2048x8192 ![] bcast_S_S4x2048x8192),
    TRef.binary (TRef.of (T := ⟨S4x2048x8192, .f32⟩) main_v27) (TRef.of (T := ⟨S4x2048x8192, .f32⟩) main_call6_v0) (TRef.of (T := ⟨S4x2048x8192, .f32⟩) main_v28) maximumf,
    unary main_v28 main_v29 (Host.absf : (⟨S4x2048x8192, .f32⟩ : BufTy).Contents (Elt F) → (⟨S4x2048x8192, .f32⟩ : BufTy).Contents (Elt F)),
    nullary main_cst_10 (constant S_ .f32 0xFF800000#32),
    binary main_v29 main_cst_10 main_v30 ((fun x v => Host.reduce FloatOps.maximumf x v reducesTo_S4x2048x8192_S4x2048_d2 h_S_) : (⟨S4x2048x8192, .f32⟩ : BufTy).Contents (Elt F) → (⟨S_, .f32⟩ : BufTy).Contents (Elt F) → (⟨S4x2048, .f32⟩ : BufTy).Contents (Elt F)),
    unary main_v30 main_v31 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_11 (constant S_ .f32 0x3727C5AC#32),
    TRef.unary (TRef.of (T := ⟨S_, .f32⟩) main_cst_11) (TRef.of (T := ⟨S_, .f32⟩) main_call7_v0) id,
    TRef.unary (TRef.of (T := ⟨S_, .f32⟩) main_call7_v0) (TRef.of (T := ⟨S4x2048x1, .f32⟩) main_call7_v1) (broadcastInDim S4x2048x1 ![] bcast_S_S4x2048x1),
    TRef.binary (TRef.of (T := ⟨S4x2048x1, .f32⟩) main_call7_v1) (TRef.of (T := ⟨S4x2048x1, .f32⟩) main_v31) (TRef.of (T := ⟨S4x2048x1, .f32⟩) main_v32) maximumf,
    nullary main_cst_12 (constant S_ .f32 0x42FE0000#32),
    unary main_cst_12 main_v33 (broadcastInDim S4x2048x1 ![] bcast_S_S4x2048x1 : (⟨S_, .f32⟩ : BufTy).Contents (Elt F) → (⟨S4x2048x1, .f32⟩ : BufTy).Contents (Elt F)),
    binary main_v33 main_v32 main_v34 (Host.divf : (⟨S4x2048x1, .f32⟩ : BufTy).Contents (Elt F) → (⟨S4x2048x1, .f32⟩ : BufTy).Contents (Elt F) → (⟨S4x2048x1, .f32⟩ : BufTy).Contents (Elt F)),
    unary main_v34 main_v35 (broadcastInDim S4x2048x8192 ![0, 1, 2] bcast_S4x2048x1_S4x2048x8192_0_1_2 : (⟨S4x2048x1, .f32⟩ : BufTy).Contents (Elt F) → (⟨S4x2048x8192, .f32⟩ : BufTy).Contents (Elt F)),
    binary main_v28 main_v35 main_v36 (mulf : (⟨S4x2048x8192, .f32⟩ : BufTy).Contents (Elt F) → (⟨S4x2048x8192, .f32⟩ : BufTy).Contents (Elt F) → (⟨S4x2048x8192, .f32⟩ : BufTy).Contents (Elt F)),
    TRef.unary (TRef.of (T := ⟨S4x2048x8192, .f32⟩) main_v36) (TRef.of (T := ⟨S4x2048x8192, .f32⟩) main_v37) Host.roundeven,
    nullary main_cst_13 (constant S_ .f32 0xC3000000#32),
    nullary main_cst_14 (constant S_ .f32 0x42FE0000#32),
    TRef.unary (TRef.of (T := ⟨S_, .f32⟩) main_cst_13) (TRef.of (T := ⟨S_, .f32⟩) main_call9_v0) id,
    TRef.unary (TRef.of (T := ⟨S_, .f32⟩) main_call9_v0) (TRef.of (T := ⟨S4x2048x8192, .f32⟩) main_call9_v1) (broadcastInDim S4x2048x8192 ![] bcast_S_S4x2048x8192),
    TRef.binary (TRef.of (T := ⟨S4x2048x8192, .f32⟩) main_call9_v1) (TRef.of (T := ⟨S4x2048x8192, .f32⟩) main_v37) (TRef.of (T := ⟨S4x2048x8192, .f32⟩) main_call9_v2) maximumf,
    TRef.unary (TRef.of (T := ⟨S_, .f32⟩) main_cst_14) (TRef.of (T := ⟨S_, .f32⟩) main_call9_v3) id,
    TRef.unary (TRef.of (T := ⟨S_, .f32⟩) main_call9_v3) (TRef.of (T := ⟨S4x2048x8192, .f32⟩) main_call9_v4) (broadcastInDim S4x2048x8192 ![] bcast_S_S4x2048x8192),
    TRef.binary (TRef.of (T := ⟨S4x2048x8192, .f32⟩) main_call9_v4) (TRef.of (T := ⟨S4x2048x8192, .f32⟩) main_call9_v2) (TRef.of (T := ⟨S4x2048x8192, .f32⟩) main_v38) minimumf,
    unary main_v34 main_v39 (broadcastInDim S4x2048x8192 ![0, 1, 2] bcast_S4x2048x1_S4x2048x8192_0_1_2 : (⟨S4x2048x1, .f32⟩ : BufTy).Contents (Elt F) → (⟨S4x2048x8192, .f32⟩ : BufTy).Contents (Elt F)),
    binary main_v38 main_v39 main_v40 (Host.divf : (⟨S4x2048x8192, .f32⟩ : BufTy).Contents (Elt F) → (⟨S4x2048x8192, .f32⟩ : BufTy).Contents (Elt F) → (⟨S4x2048x8192, .f32⟩ : BufTy).Contents (Elt F)),
    binary main_v40 main_v28 main_v41 (subf : (⟨S4x2048x8192, .f32⟩ : BufTy).Contents (Elt F) → (⟨S4x2048x8192, .f32⟩ : BufTy).Contents (Elt F) → (⟨S4x2048x8192, .f32⟩ : BufTy).Contents (Elt F)),
    binary main_v28 main_v41 main_v42 (addf : (⟨S4x2048x8192, .f32⟩ : BufTy).Contents (Elt F) → (⟨S4x2048x8192, .f32⟩ : BufTy).Contents (Elt F) → (⟨S4x2048x8192, .f32⟩ : BufTy).Contents (Elt F)),
    unary main_arg2 main_v43 (Host.absf : (⟨S2048x8192, .f32⟩ : BufTy).Contents (Elt F) → (⟨S2048x8192, .f32⟩ : BufTy).Contents (Elt F)),
    nullary main_cst_15 (constant S_ .f32 0x00000000#32),
    binary main_v43 main_cst_15 main_v44 ((fun x v => Host.reduceAdd x v reducesTo_S2048x8192_S_d0_1 h_S_) : (⟨S2048x8192, .f32⟩ : BufTy).Contents (Elt F) → (⟨S_, .f32⟩ : BufTy).Contents (Elt F) → (⟨S_, .f32⟩ : BufTy).Contents (Elt F)),
    nullary main_cst_16 (constant S_ .f32 0x4B800000#32),
    binary main_v44 main_cst_16 main_v45 (Host.divf : (⟨S_, .f32⟩ : BufTy).Contents (Elt F) → (⟨S_, .f32⟩ : BufTy).Contents (Elt F) → (⟨S_, .f32⟩ : BufTy).Contents (Elt F)),
    nullary main_cst_17 (constant S_ .f32 0x3727C5AC#32),
    TRef.unary (TRef.of (T := ⟨S_, .f32⟩) main_cst_17) (TRef.of (T := ⟨S_, .f32⟩) main_call10_v0) id,
    TRef.binary (TRef.of (T := ⟨S_, .f32⟩) main_call10_v0) (TRef.of (T := ⟨S_, .f32⟩) main_v45) (TRef.of (T := ⟨S_, .f32⟩) main_v46) maximumf,
    nullary main_cst_18 (constant S_ .f32 0x3F800000#32),
    binary main_cst_18 main_v46 main_v47 (Host.divf : (⟨S_, .f32⟩ : BufTy).Contents (Elt F) → (⟨S_, .f32⟩ : BufTy).Contents (Elt F) → (⟨S_, .f32⟩ : BufTy).Contents (Elt F)),
    unary main_v47 main_v48 (broadcastInDim S2048x8192 ![] bcast_S_S2048x8192 : (⟨S_, .f32⟩ : BufTy).Contents (Elt F) → (⟨S2048x8192, .f32⟩ : BufTy).Contents (Elt F)),
    binary main_arg2 main_v48 main_v49 (mulf : (⟨S2048x8192, .f32⟩ : BufTy).Contents (Elt F) → (⟨S2048x8192, .f32⟩ : BufTy).Contents (Elt F) → (⟨S2048x8192, .f32⟩ : BufTy).Contents (Elt F)),
    TRef.unary (TRef.of (T := ⟨S2048x8192, .f32⟩) main_v49) (TRef.of (T := ⟨S2048x8192, .f32⟩) main_v50) Host.roundeven,
    nullary main_cst_19 (constant S_ .f32 0xBF800000#32),
    nullary main_cst_20 (constant S_ .f32 0x3F800000#32),
    TRef.unary (TRef.of (T := ⟨S_, .f32⟩) main_cst_19) (TRef.of (T := ⟨S_, .f32⟩) main_call12_v0) id,
    TRef.unary (TRef.of (T := ⟨S_, .f32⟩) main_call12_v0) (TRef.of (T := ⟨S2048x8192, .f32⟩) main_call12_v1) (broadcastInDim S2048x8192 ![] bcast_S_S2048x8192),
    TRef.binary (TRef.of (T := ⟨S2048x8192, .f32⟩) main_call12_v1) (TRef.of (T := ⟨S2048x8192, .f32⟩) main_v50) (TRef.of (T := ⟨S2048x8192, .f32⟩) main_call12_v2) maximumf,
    TRef.unary (TRef.of (T := ⟨S_, .f32⟩) main_cst_20) (TRef.of (T := ⟨S_, .f32⟩) main_call12_v3) id,
    TRef.unary (TRef.of (T := ⟨S_, .f32⟩) main_call12_v3) (TRef.of (T := ⟨S2048x8192, .f32⟩) main_call12_v4) (broadcastInDim S2048x8192 ![] bcast_S_S2048x8192),
    TRef.binary (TRef.of (T := ⟨S2048x8192, .f32⟩) main_call12_v4) (TRef.of (T := ⟨S2048x8192, .f32⟩) main_call12_v2) (TRef.of (T := ⟨S2048x8192, .f32⟩) main_v51) minimumf,
    unary main_v47 main_v52 (broadcastInDim S2048x8192 ![] bcast_S_S2048x8192 : (⟨S_, .f32⟩ : BufTy).Contents (Elt F) → (⟨S2048x8192, .f32⟩ : BufTy).Contents (Elt F)),
    binary main_v51 main_v52 main_v53 (Host.divf : (⟨S2048x8192, .f32⟩ : BufTy).Contents (Elt F) → (⟨S2048x8192, .f32⟩ : BufTy).Contents (Elt F) → (⟨S2048x8192, .f32⟩ : BufTy).Contents (Elt F)),
    binary main_v53 main_arg2 main_v54 (subf : (⟨S2048x8192, .f32⟩ : BufTy).Contents (Elt F) → (⟨S2048x8192, .f32⟩ : BufTy).Contents (Elt F) → (⟨S2048x8192, .f32⟩ : BufTy).Contents (Elt F)),
    binary main_arg2 main_v54 main_v55 (addf : (⟨S2048x8192, .f32⟩ : BufTy).Contents (Elt F) → (⟨S2048x8192, .f32⟩ : BufTy).Contents (Elt F) → (⟨S2048x8192, .f32⟩ : BufTy).Contents (Elt F)),
    binary main_v42 main_v55 main_v56 ((fun l r => Host.dotGeneral dot_S4x2048x8192_S2048x8192_S4x2048x2048_2_1_01_0_n_n none l r) : (⟨S4x2048x8192, .f32⟩ : BufTy).Contents (Elt F) → (⟨S2048x8192, .f32⟩ : BufTy).Contents (Elt F) → (⟨S4x2048x2048, .f32⟩ : BufTy).Contents (Elt F)) ]

set_option maxRecDepth 8192 in
set_option maxHeartbeats 4000000 in
/-- @main is the line of its operations. -/
theorem main_eq (c : Dev nD) : main (F := F) c = seq ops := rfl
/-- The program scopes no buffer of the TensorCore. -/
theorem scopedRefs_eq : (Finset.univ.filter fun b : Ref sig .tc => b.isScoped) = ∅ := by decide
/-- The program scopes no semaphore of the TensorCore. -/
theorem scopedSems_eq : (Finset.univ.filter fun sm : SemLoc sig => sm.isScoped .tc) = ∅ := by decide
set_option maxRecDepth 8192 in
/-- Every operation touches buffers of the TensorCore only. -/
theorem ops_sub : (ops : List (HloOp τ sig (Elt F))).Forall fun op => op.bufs ⊆ tcRefs τ sig :=
  ⟨unary_bufs_sub .., nullary_bufs_sub .., binary_bufs_sub .., unary_bufs_sub .., nullary_bufs_sub .., unary_bufs_sub .., unary_bufs_sub .., binary_bufs_sub .., nullary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., unary_bufs_sub .., nullary_bufs_sub .., binary_bufs_sub .., nullary_bufs_sub .., binary_bufs_sub .., nullary_bufs_sub .., unary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., binary_bufs_sub .., nullary_bufs_sub .., unary_bufs_sub .., binary_bufs_sub .., unary_bufs_sub .., nullary_bufs_sub .., binary_bufs_sub .., unary_bufs_sub .., nullary_bufs_sub .., unary_bufs_sub .., unary_bufs_sub .., binary_bufs_sub .., nullary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., unary_bufs_sub .., nullary_bufs_sub .., binary_bufs_sub .., nullary_bufs_sub .., binary_bufs_sub .., nullary_bufs_sub .., unary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., binary_bufs_sub ..⟩

end Cert.ReferenceIdeal.RunB

end
-- ==== Proof.RefRunBVal.lean ====
/-
  The reference program's result as its last stage.

  Each of the 107 host operations writes one buffer with a function of the buffers it reads, so what the line leaves
  in the result buffer is those functions composed — the second product of the quantized hidden values with the
  quantized second weights, reaching back through every stage to the three arguments.  The operations a called
  function contributes are stated over references that carry their value's type; read back, each of those passes its
  value through an identity transport.  Restated over the plain references the same operations have no transport,
  and the composed term is the chain of stages by unfolding.  No operation writes an argument.
-/
import proofs.«126096_j50276887167090_1_alg».proof.Proof.RefRunB
import proofs.«126096_j50276887167090_1_alg».proof.Proof.RefRead

noncomputable section

namespace Cert.ReferenceIdeal.RunB

open Cert.ReferenceIdeal Cert.ReferenceIdeal.Gen Idealize.ShloMosaic Idealize.ShloMosaic.TcCoe Idealize.SL.Sem Idealize.ShloMosaic.StableHlo

variable {F : FTy → Type} [FloatOps F]

/-- The 107 operations with every operand a plain reference. -/
abbrev opsPlain : List (HloOp τ sig (Elt F)) :=
  [ unary main_arg0 main_v0 (Host.absf : (⟨S4x2048x2048, .f32⟩ : BufTy).Contents (Elt F) → (⟨S4x2048x2048, .f32⟩ : BufTy).Contents (Elt F)),
    nullary main_cst (constant S_ .f32 0xFF800000#32),
    binary main_v0 main_cst main_v1 ((fun x v => Host.reduce FloatOps.maximumf x v reducesTo_S4x2048x2048_S4x2048_d2 h_S_) : (⟨S4x2048x2048, .f32⟩ : BufTy).Contents (Elt F) → (⟨S_, .f32⟩ : BufTy).Contents (Elt F) → (⟨S4x2048, .f32⟩ : BufTy).Contents (Elt F)),
    unary main_v1 main_v2 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_0 (constant S_ .f32 0x3727C5AC#32),
    unary main_cst_0 main_call0_v0 (id : (⟨S_, .f32⟩ : BufTy).Contents (Elt F) → (⟨S_, .f32⟩ : BufTy).Contents (Elt F)),
    unary main_call0_v0 main_call0_v1 ((broadcastInDim S4x2048x1 ![] bcast_S_S4x2048x1) : (⟨S_, .f32⟩ : BufTy).Contents (Elt F) → (⟨S4x2048x1, .f32⟩ : BufTy).Contents (Elt F)),
    binary main_call0_v1 main_v2 main_v3 (maximumf : (⟨S4x2048x1, .f32⟩ : BufTy).Contents (Elt F) → (⟨S4x2048x1, .f32⟩ : BufTy).Contents (Elt F) → (⟨S4x2048x1, .f32⟩ : BufTy).Contents (Elt F)),
    nullary main_cst_1 (constant S_ .f32 0x42FE0000#32),
    unary main_cst_1 main_v4 (broadcastInDim S4x2048x1 ![] bcast_S_S4x2048x1 : (⟨S_, .f32⟩ : BufTy).Contents (Elt F) → (⟨S4x2048x1, .f32⟩ : BufTy).Contents (Elt F)),
    binary main_v4 main_v3 main_v5 (Host.divf : (⟨S4x2048x1, .f32⟩ : BufTy).Contents (Elt F) → (⟨S4x2048x1, .f32⟩ : BufTy).Contents (Elt F) → (⟨S4x2048x1, .f32⟩ : BufTy).Contents (Elt F)),
    unary main_v5 main_v6 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_arg0 main_v6 main_v7 (mulf : (⟨S4x2048x2048, .f32⟩ : BufTy).Contents (Elt F) → (⟨S4x2048x2048, .f32⟩ : BufTy).Contents (Elt F) → (⟨S4x2048x2048, .f32⟩ : BufTy).Contents (Elt F)),
    unary main_v7 main_v8 (Host.roundeven : (⟨S4x2048x2048, .f32⟩ : BufTy).Contents (Elt F) → (⟨S4x2048x2048, .f32⟩ : BufTy).Contents (Elt F)),
    nullary main_cst_2 (constant S_ .f32 0xC3000000#32),
    nullary main_cst_3 (constant S_ .f32 0x42FE0000#32),
    unary main_cst_2 main_call2_v0 (id : (⟨S_, .f32⟩ : BufTy).Contents (Elt F) → (⟨S_, .f32⟩ : BufTy).Contents (Elt F)),
    unary main_call2_v0 main_call2_v1 ((broadcastInDim S4x2048x2048 ![] bcast_S_S4x2048x2048) : (⟨S_, .f32⟩ : BufTy).Contents (Elt F) → (⟨S4x2048x2048, .f32⟩ : BufTy).Contents (Elt F)),
    binary main_call2_v1 main_v8 main_call2_v2 (maximumf : (⟨S4x2048x2048, .f32⟩ : BufTy).Contents (Elt F) → (⟨S4x2048x2048, .f32⟩ : BufTy).Contents (Elt F) → (⟨S4x2048x2048, .f32⟩ : BufTy).Contents (Elt F)),
    unary main_cst_3 main_call2_v3 (id : (⟨S_, .f32⟩ : BufTy).Contents (Elt F) → (⟨S_, .f32⟩ : BufTy).Contents (Elt F)),
    unary main_call2_v3 main_call2_v4 ((broadcastInDim S4x2048x2048 ![] bcast_S_S4x2048x2048) : (⟨S_, .f32⟩ : BufTy).Contents (Elt F) → (⟨S4x2048x2048, .f32⟩ : BufTy).Contents (Elt F)),
    binary main_call2_v4 main_call2_v2 main_v9 (minimumf : (⟨S4x2048x2048, .f32⟩ : BufTy).Contents (Elt F) → (⟨S4x2048x2048, .f32⟩ : BufTy).Contents (Elt F) → (⟨S4x2048x2048, .f32⟩ : BufTy).Contents (Elt F)),
    unary main_v5 main_v10 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_v9 main_v10 main_v11 (Host.divf : (⟨S4x2048x2048, .f32⟩ : BufTy).Contents (Elt F) → (⟨S4x2048x2048, .f32⟩ : BufTy).Contents (Elt F) → (⟨S4x2048x2048, .f32⟩ : BufTy).Contents (Elt F)),
    binary main_v11 main_arg0 main_v12 (subf : (⟨S4x2048x2048, .f32⟩ : BufTy).Contents (Elt F) → (⟨S4x2048x2048, .f32⟩ : BufTy).Contents (Elt F) → (⟨S4x2048x2048, .f32⟩ : BufTy).Contents (Elt F)),
    binary main_arg0 main_v12 main_v13 (addf : (⟨S4x2048x2048, .f32⟩ : BufTy).Contents (Elt F) → (⟨S4x2048x2048, .f32⟩ : BufTy).Contents (Elt F) → (⟨S4x2048x2048, .f32⟩ : BufTy).Contents (Elt F)),
    unary main_arg1 main_v14 (Host.absf : (⟨S8192x2048, .f32⟩ : BufTy).Contents (Elt F) → (⟨S8192x2048, .f32⟩ : BufTy).Contents (Elt F)),
    nullary main_cst_4 (constant S_ .f32 0x00000000#32),
    binary main_v14 main_cst_4 main_v15 ((fun x v => Host.reduceAdd x v reducesTo_S8192x2048_S_d0_1 h_S_) : (⟨S8192x2048, .f32⟩ : BufTy).Contents (Elt F) → (⟨S_, .f32⟩ : BufTy).Contents (Elt F) → (⟨S_, .f32⟩ : BufTy).Contents (Elt F)),
    nullary main_cst_5 (constant S_ .f32 0x4B800000#32),
    binary main_v15 main_cst_5 main_v16 (Host.divf : (⟨S_, .f32⟩ : BufTy).Contents (Elt F) → (⟨S_, .f32⟩ : BufTy).Contents (Elt F) → (⟨S_, .f32⟩ : BufTy).Contents (Elt F)),
    nullary main_cst_6 (constant S_ .f32 0x3727C5AC#32),
    unary main_cst_6 main_call3_v0 (id : (⟨S_, .f32⟩ : BufTy).Contents (Elt F) → (⟨S_, .f32⟩ : BufTy).Contents (Elt F)),
    binary main_call3_v0 main_v16 main_v17 (maximumf : (⟨S_, .f32⟩ : BufTy).Contents (Elt F) → (⟨S_, .f32⟩ : BufTy).Contents (Elt F) → (⟨S_, .f32⟩ : BufTy).Contents (Elt F)),
    nullary main_cst_7 (constant S_ .f32 0x3F800000#32),
    binary main_cst_7 main_v17 main_v18 (Host.divf : (⟨S_, .f32⟩ : BufTy).Contents (Elt F) → (⟨S_, .f32⟩ : BufTy).Contents (Elt F) → (⟨S_, .f32⟩ : BufTy).Contents (Elt F)),
    unary main_v18 main_v19 (broadcastInDim S8192x2048 ![] bcast_S_S8192x2048 : (⟨S_, .f32⟩ : BufTy).Contents (Elt F) → (⟨S8192x2048, .f32⟩ : BufTy).Contents (Elt F)),
    binary main_arg1 main_v19 main_v20 (mulf : (⟨S8192x2048, .f32⟩ : BufTy).Contents (Elt F) → (⟨S8192x2048, .f32⟩ : BufTy).Contents (Elt F) → (⟨S8192x2048, .f32⟩ : BufTy).Contents (Elt F)),
    unary main_v20 main_v21 (Host.roundeven : (⟨S8192x2048, .f32⟩ : BufTy).Contents (Elt F) → (⟨S8192x2048, .f32⟩ : BufTy).Contents (Elt F)),
    nullary main_cst_8 (constant S_ .f32 0xBF800000#32),
    nullary main_cst_9 (constant S_ .f32 0x3F800000#32),
    unary main_cst_8 main_call5_v0 (id : (⟨S_, .f32⟩ : BufTy).Contents (Elt F) → (⟨S_, .f32⟩ : BufTy).Contents (Elt F)),
    unary main_call5_v0 main_call5_v1 ((broadcastInDim S8192x2048 ![] bcast_S_S8192x2048) : (⟨S_, .f32⟩ : BufTy).Contents (Elt F) → (⟨S8192x2048, .f32⟩ : BufTy).Contents (Elt F)),
    binary main_call5_v1 main_v21 main_call5_v2 (maximumf : (⟨S8192x2048, .f32⟩ : BufTy).Contents (Elt F) → (⟨S8192x2048, .f32⟩ : BufTy).Contents (Elt F) → (⟨S8192x2048, .f32⟩ : BufTy).Contents (Elt F)),
    unary main_cst_9 main_call5_v3 (id : (⟨S_, .f32⟩ : BufTy).Contents (Elt F) → (⟨S_, .f32⟩ : BufTy).Contents (Elt F)),
    unary main_call5_v3 main_call5_v4 ((broadcastInDim S8192x2048 ![] bcast_S_S8192x2048) : (⟨S_, .f32⟩ : BufTy).Contents (Elt F) → (⟨S8192x2048, .f32⟩ : BufTy).Contents (Elt F)),
    binary main_call5_v4 main_call5_v2 main_v22 (minimumf : (⟨S8192x2048, .f32⟩ : BufTy).Contents (Elt F) → (⟨S8192x2048, .f32⟩ : BufTy).Contents (Elt F) → (⟨S8192x2048, .f32⟩ : BufTy).Contents (Elt F)),
    unary main_v18 main_v23 (broadcastInDim S8192x2048 ![] bcast_S_S8192x2048 : (⟨S_, .f32⟩ : BufTy).Contents (Elt F) → (⟨S8192x2048, .f32⟩ : BufTy).Contents (Elt F)),
    binary main_v22 main_v23 main_v24 (Host.divf : (⟨S8192x2048, .f32⟩ : BufTy).Contents (Elt F) → (⟨S8192x2048, .f32⟩ : BufTy).Contents (Elt F) → (⟨S8192x2048, .f32⟩ : BufTy).Contents (Elt F)),
    binary main_v24 main_arg1 main_v25 (subf : (⟨S8192x2048, .f32⟩ : BufTy).Contents (Elt F) → (⟨S8192x2048, .f32⟩ : BufTy).Contents (Elt F) → (⟨S8192x2048, .f32⟩ : BufTy).Contents (Elt F)),
    binary main_arg1 main_v25 main_v26 (addf : (⟨S8192x2048, .f32⟩ : BufTy).Contents (Elt F) → (⟨S8192x2048, .f32⟩ : BufTy).Contents (Elt F) → (⟨S8192x2048, .f32⟩ : BufTy).Contents (Elt F)),
    binary main_v13 main_v26 main_v27 ((fun l r => Host.dotGeneral dot_S4x2048x2048_S8192x2048_S4x2048x8192_2_1_01_0_n_n none l r) : (⟨S4x2048x2048, .f32⟩ : BufTy).Contents (Elt F) → (⟨S8192x2048, .f32⟩ : BufTy).Contents (Elt F) → (⟨S4x2048x8192, .f32⟩ : BufTy).Contents (Elt F)),
    nullary main_call6_cst ((constant S_ .f32 0x00000000#32) : (⟨S_, .f32⟩ : BufTy).Contents (Elt F)),
    unary main_call6_cst main_call6_v0 ((broadcastInDim S4x2048x8192 ![] bcast_S_S4x2048x8192) : (⟨S_, .f32⟩ : BufTy).Contents (Elt F) → (⟨S4x2048x8192, .f32⟩ : BufTy).Contents (Elt F)),
    binary main_v27 main_call6_v0 main_v28 (maximumf : (⟨S4x2048x8192, .f32⟩ : BufTy).Contents (Elt F) → (⟨S4x2048x8192, .f32⟩ : BufTy).Contents (Elt F) → (⟨S4x2048x8192, .f32⟩ : BufTy).Contents (Elt F)),
    unary main_v28 main_v29 (Host.absf : (⟨S4x2048x8192, .f32⟩ : BufTy).Contents (Elt F) → (⟨S4x2048x8192, .f32⟩ : BufTy).Contents (Elt F)),
    nullary main_cst_10 (constant S_ .f32 0xFF800000#32),
    binary main_v29 main_cst_10 main_v30 ((fun x v => Host.reduce FloatOps.maximumf x v reducesTo_S4x2048x8192_S4x2048_d2 h_S_) : (⟨S4x2048x8192, .f32⟩ : BufTy).Contents (Elt F) → (⟨S_, .f32⟩ : BufTy).Contents (Elt F) → (⟨S4x2048, .f32⟩ : BufTy).Contents (Elt F)),
    unary main_v30 main_v31 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_11 (constant S_ .f32 0x3727C5AC#32),
    unary main_cst_11 main_call7_v0 (id : (⟨S_, .f32⟩ : BufTy).Contents (Elt F) → (⟨S_, .f32⟩ : BufTy).Contents (Elt F)),
    unary main_call7_v0 main_call7_v1 ((broadcastInDim S4x2048x1 ![] bcast_S_S4x2048x1) : (⟨S_, .f32⟩ : BufTy).Contents (Elt F) → (⟨S4x2048x1, .f32⟩ : BufTy).Contents (Elt F)),
    binary main_call7_v1 main_v31 main_v32 (maximumf : (⟨S4x2048x1, .f32⟩ : BufTy).Contents (Elt F) → (⟨S4x2048x1, .f32⟩ : BufTy).Contents (Elt F) → (⟨S4x2048x1, .f32⟩ : BufTy).Contents (Elt F)),
    nullary main_cst_12 (constant S_ .f32 0x42FE0000#32),
    unary main_cst_12 main_v33 (broadcastInDim S4x2048x1 ![] bcast_S_S4x2048x1 : (⟨S_, .f32⟩ : BufTy).Contents (Elt F) → (⟨S4x2048x1, .f32⟩ : BufTy).Contents (Elt F)),
    binary main_v33 main_v32 main_v34 (Host.divf : (⟨S4x2048x1, .f32⟩ : BufTy).Contents (Elt F) → (⟨S4x2048x1, .f32⟩ : BufTy).Contents (Elt F) → (⟨S4x2048x1, .f32⟩ : BufTy).Contents (Elt F)),
    unary main_v34 main_v35 (broadcastInDim S4x2048x8192 ![0, 1, 2] bcast_S4x2048x1_S4x2048x8192_0_1_2 : (⟨S4x2048x1, .f32⟩ : BufTy).Contents (Elt F) → (⟨S4x2048x8192, .f32⟩ : BufTy).Contents (Elt F)),
    binary main_v28 main_v35 main_v36 (mulf : (⟨S4x2048x8192, .f32⟩ : BufTy).Contents (Elt F) → (⟨S4x2048x8192, .f32⟩ : BufTy).Contents (Elt F) → (⟨S4x2048x8192, .f32⟩ : BufTy).Contents (Elt F)),
    unary main_v36 main_v37 (Host.roundeven : (⟨S4x2048x8192, .f32⟩ : BufTy).Contents (Elt F) → (⟨S4x2048x8192, .f32⟩ : BufTy).Contents (Elt F)),
    nullary main_cst_13 (constant S_ .f32 0xC3000000#32),
    nullary main_cst_14 (constant S_ .f32 0x42FE0000#32),
    unary main_cst_13 main_call9_v0 (id : (⟨S_, .f32⟩ : BufTy).Contents (Elt F) → (⟨S_, .f32⟩ : BufTy).Contents (Elt F)),
    unary main_call9_v0 main_call9_v1 ((broadcastInDim S4x2048x8192 ![] bcast_S_S4x2048x8192) : (⟨S_, .f32⟩ : BufTy).Contents (Elt F) → (⟨S4x2048x8192, .f32⟩ : BufTy).Contents (Elt F)),
    binary main_call9_v1 main_v37 main_call9_v2 (maximumf : (⟨S4x2048x8192, .f32⟩ : BufTy).Contents (Elt F) → (⟨S4x2048x8192, .f32⟩ : BufTy).Contents (Elt F) → (⟨S4x2048x8192, .f32⟩ : BufTy).Contents (Elt F)),
    unary main_cst_14 main_call9_v3 (id : (⟨S_, .f32⟩ : BufTy).Contents (Elt F) → (⟨S_, .f32⟩ : BufTy).Contents (Elt F)),
    unary main_call9_v3 main_call9_v4 ((broadcastInDim S4x2048x8192 ![] bcast_S_S4x2048x8192) : (⟨S_, .f32⟩ : BufTy).Contents (Elt F) → (⟨S4x2048x8192, .f32⟩ : BufTy).Contents (Elt F)),
    binary main_call9_v4 main_call9_v2 main_v38 (minimumf : (⟨S4x2048x8192, .f32⟩ : BufTy).Contents (Elt F) → (⟨S4x2048x8192, .f32⟩ : BufTy).Contents (Elt F) → (⟨S4x2048x8192, .f32⟩ : BufTy).Contents (Elt F)),
    unary main_v34 main_v39 (broadcastInDim S4x2048x8192 ![0, 1, 2] bcast_S4x2048x1_S4x2048x8192_0_1_2 : (⟨S4x2048x1, .f32⟩ : BufTy).Contents (Elt F) → (⟨S4x2048x8192, .f32⟩ : BufTy).Contents (Elt F)),
    binary main_v38 main_v39 main_v40 (Host.divf : (⟨S4x2048x8192, .f32⟩ : BufTy).Contents (Elt F) → (⟨S4x2048x8192, .f32⟩ : BufTy).Contents (Elt F) → (⟨S4x2048x8192, .f32⟩ : BufTy).Contents (Elt F)),
    binary main_v40 main_v28 main_v41 (subf : (⟨S4x2048x8192, .f32⟩ : BufTy).Contents (Elt F) → (⟨S4x2048x8192, .f32⟩ : BufTy).Contents (Elt F) → (⟨S4x2048x8192, .f32⟩ : BufTy).Contents (Elt F)),
    binary main_v28 main_v41 main_v42 (addf : (⟨S4x2048x8192, .f32⟩ : BufTy).Contents (Elt F) → (⟨S4x2048x8192, .f32⟩ : BufTy).Contents (Elt F) → (⟨S4x2048x8192, .f32⟩ : BufTy).Contents (Elt F)),
    unary main_arg2 main_v43 (Host.absf : (⟨S2048x8192, .f32⟩ : BufTy).Contents (Elt F) → (⟨S2048x8192, .f32⟩ : BufTy).Contents (Elt F)),
    nullary main_cst_15 (constant S_ .f32 0x00000000#32),
    binary main_v43 main_cst_15 main_v44 ((fun x v => Host.reduceAdd x v reducesTo_S2048x8192_S_d0_1 h_S_) : (⟨S2048x8192, .f32⟩ : BufTy).Contents (Elt F) → (⟨S_, .f32⟩ : BufTy).Contents (Elt F) → (⟨S_, .f32⟩ : BufTy).Contents (Elt F)),
    nullary main_cst_16 (constant S_ .f32 0x4B800000#32),
    binary main_v44 main_cst_16 main_v45 (Host.divf : (⟨S_, .f32⟩ : BufTy).Contents (Elt F) → (⟨S_, .f32⟩ : BufTy).Contents (Elt F) → (⟨S_, .f32⟩ : BufTy).Contents (Elt F)),
    nullary main_cst_17 (constant S_ .f32 0x3727C5AC#32),
    unary main_cst_17 main_call10_v0 (id : (⟨S_, .f32⟩ : BufTy).Contents (Elt F) → (⟨S_, .f32⟩ : BufTy).Contents (Elt F)),
    binary main_call10_v0 main_v45 main_v46 (maximumf : (⟨S_, .f32⟩ : BufTy).Contents (Elt F) → (⟨S_, .f32⟩ : BufTy).Contents (Elt F) → (⟨S_, .f32⟩ : BufTy).Contents (Elt F)),
    nullary main_cst_18 (constant S_ .f32 0x3F800000#32),
    binary main_cst_18 main_v46 main_v47 (Host.divf : (⟨S_, .f32⟩ : BufTy).Contents (Elt F) → (⟨S_, .f32⟩ : BufTy).Contents (Elt F) → (⟨S_, .f32⟩ : BufTy).Contents (Elt F)),
    unary main_v47 main_v48 (broadcastInDim S2048x8192 ![] bcast_S_S2048x8192 : (⟨S_, .f32⟩ : BufTy).Contents (Elt F) → (⟨S2048x8192, .f32⟩ : BufTy).Contents (Elt F)),
    binary main_arg2 main_v48 main_v49 (mulf : (⟨S2048x8192, .f32⟩ : BufTy).Contents (Elt F) → (⟨S2048x8192, .f32⟩ : BufTy).Contents (Elt F) → (⟨S2048x8192, .f32⟩ : BufTy).Contents (Elt F)),
    unary main_v49 main_v50 (Host.roundeven : (⟨S2048x8192, .f32⟩ : BufTy).Contents (Elt F) → (⟨S2048x8192, .f32⟩ : BufTy).Contents (Elt F)),
    nullary main_cst_19 (constant S_ .f32 0xBF800000#32),
    nullary main_cst_20 (constant S_ .f32 0x3F800000#32),
    unary main_cst_19 main_call12_v0 (id : (⟨S_, .f32⟩ : BufTy).Contents (Elt F) → (⟨S_, .f32⟩ : BufTy).Contents (Elt F)),
    unary main_call12_v0 main_call12_v1 ((broadcastInDim S2048x8192 ![] bcast_S_S2048x8192) : (⟨S_, .f32⟩ : BufTy).Contents (Elt F) → (⟨S2048x8192, .f32⟩ : BufTy).Contents (Elt F)),
    binary main_call12_v1 main_v50 main_call12_v2 (maximumf : (⟨S2048x8192, .f32⟩ : BufTy).Contents (Elt F) → (⟨S2048x8192, .f32⟩ : BufTy).Contents (Elt F) → (⟨S2048x8192, .f32⟩ : BufTy).Contents (Elt F)),
    unary main_cst_20 main_call12_v3 (id : (⟨S_, .f32⟩ : BufTy).Contents (Elt F) → (⟨S_, .f32⟩ : BufTy).Contents (Elt F)),
    unary main_call12_v3 main_call12_v4 ((broadcastInDim S2048x8192 ![] bcast_S_S2048x8192) : (⟨S_, .f32⟩ : BufTy).Contents (Elt F) → (⟨S2048x8192, .f32⟩ : BufTy).Contents (Elt F)),
    binary main_call12_v4 main_call12_v2 main_v51 (minimumf : (⟨S2048x8192, .f32⟩ : BufTy).Contents (Elt F) → (⟨S2048x8192, .f32⟩ : BufTy).Contents (Elt F) → (⟨S2048x8192, .f32⟩ : BufTy).Contents (Elt F)),
    unary main_v47 main_v52 (broadcastInDim S2048x8192 ![] bcast_S_S2048x8192 : (⟨S_, .f32⟩ : BufTy).Contents (Elt F) → (⟨S2048x8192, .f32⟩ : BufTy).Contents (Elt F)),
    binary main_v51 main_v52 main_v53 (Host.divf : (⟨S2048x8192, .f32⟩ : BufTy).Contents (Elt F) → (⟨S2048x8192, .f32⟩ : BufTy).Contents (Elt F) → (⟨S2048x8192, .f32⟩ : BufTy).Contents (Elt F)),
    binary main_v53 main_arg2 main_v54 (subf : (⟨S2048x8192, .f32⟩ : BufTy).Contents (Elt F) → (⟨S2048x8192, .f32⟩ : BufTy).Contents (Elt F) → (⟨S2048x8192, .f32⟩ : BufTy).Contents (Elt F)),
    binary main_arg2 main_v54 main_v55 (addf : (⟨S2048x8192, .f32⟩ : BufTy).Contents (Elt F) → (⟨S2048x8192, .f32⟩ : BufTy).Contents (Elt F) → (⟨S2048x8192, .f32⟩ : BufTy).Contents (Elt F)),
    binary main_v42 main_v55 main_v56 ((fun l r => Host.dotGeneral dot_S4x2048x8192_S2048x8192_S4x2048x2048_2_1_01_0_n_n none l r) : (⟨S4x2048x8192, .f32⟩ : BufTy).Contents (Elt F) → (⟨S2048x8192, .f32⟩ : BufTy).Contents (Elt F) → (⟨S4x2048x2048, .f32⟩ : BufTy).Contents (Elt F)) ]

set_option maxRecDepth 8192 in
set_option maxHeartbeats 2000000 in
/-- They are the same operations: a typed reference's transport is the identity at a literal reference. -/
theorem ops_plain : (ops : List (HloOp τ sig (Elt F))) = opsPlain := rfl

set_option maxRecDepth 8192 in
set_option maxHeartbeats 2000000 in
/-- From any contents, the line leaves in the result buffer the last stage of the three arguments' contents. -/
theorem value (V : Valuation τ sig (Elt F)) :
    after ops V (Proc.devRef .tc main_v56)
      = Cert.ReferenceIdeal.Read.val_main_v56 (F := F) (V (Proc.devRef .tc main_arg0)) (V (Proc.devRef .tc main_arg1))
          (V (Proc.devRef .tc main_arg2)) := by
  rw [ops_plain]
  after_results_simp
  rfl

set_option maxRecDepth 8192 in
set_option maxHeartbeats 2000000 in
/-- No operation writes the first argument. -/
theorem arg0_kept (V : Valuation τ sig (Elt F)) : after ops V (Proc.devRef .tc main_arg0) = V (Proc.devRef .tc main_arg0) := by
  rw [ops_plain]
  after_results_simp

set_option maxRecDepth 8192 in
set_option maxHeartbeats 2000000 in
/-- No operation writes the second argument. -/
theorem arg1_kept (V : Valuation τ sig (Elt F)) : after ops V (Proc.devRef .tc main_arg1) = V (Proc.devRef .tc main_arg1) := by
  rw [ops_plain]
  after_results_simp

set_option maxRecDepth 8192 in
set_option maxHeartbeats 2000000 in
/-- No operation writes the third argument. -/
theorem arg2_kept (V : Valuation τ sig (Elt F)) : after ops V (Proc.devRef .tc main_arg2) = V (Proc.devRef .tc main_arg2) := by
  rw [ops_plain]
  after_results_simp

/-- On every device, for any float values, from any memory with zero counters: every weakly fair execution of @main
    terminates with the result buffer at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v56)
          = Cert.ReferenceIdeal.Read.val_main_v56 (F := F) (m ((c.tc : Thread nD τ).loc main_arg0))
              (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v56).trans (value (launchContents m c)),
      (h c main_arg0).trans (arg0_kept (launchContents m c)),
      (h c main_arg1).trans (arg1_kept (launchContents m c)),
      (h c main_arg2).trans (arg2_kept (launchContents m c))⟩)
    (run_seq scopedRefs_eq scopedSems_eq defs main (fun _ => ops) main_eq (fun _ => ops_sub) m ρ)

end Cert.ReferenceIdeal.RunB

end
-- ==== Proof.LibHostLastAxis.lean ====
/-
  A general lemma file: the host's reductions along the last axis of a rank-3 array, read at a row, for any extents.

  The maximum along the last axis of an `[n0, n1, n2]` array, from a scalar initial value, is at `(p, q)` the fold of
  `max` from the initial value over `k` of the array at `(p, q, k)` (maximum on the extended reals commutes and
  associates, so the order does not matter); the sum along it is the initial value plus the sum over `k`. The maximum
  of a value and a fold of `max` started from that value is the fold.
-/
import Idealize.ShloMosaic.PureOps.Ideal.Laws
import Idealize.ShloMosaic.Lib.ValueIdx
import Idealize.ShloMosaic.Lib.IdealHost

noncomputable section

open scoped BigOperators

namespace Cert.HostLastAxis

open Idealize.ShloMosaic Idealize.ShloMosaic.ValueIdx

/-- The source index over `(p, q)` with `k` inserted on the last axis is `(p, q, k)`. -/
theorem lift_last3 {n0 n1 n2 : ℕ} (h : (⟨3, ![n0, n1, n2]⟩ : Shape).Reduces [2] ⟨2, ![n0, n1]⟩) (p : Fin n0) (q : Fin n1)
    (k : Fin n2) : h.lift (ix2 p q) k = ix3 p q k :=
  funext fun e => Fin.ext (by
    match e with
    | ⟨0, _⟩ => rfl
    | ⟨1, _⟩ => rfl
    | ⟨2, _⟩ => rfl)

/-- The host's reduction by maximum over the last axis of an `[n0, n1, n2]` array reads, at `(p, q)`, the fold of `max`
    from the initial value over `k : Fin n2` of the array at `(p, q, k)`. -/
theorem hostReduce_max_last3_apply {n0 n1 n2 : ℕ} (x : FVec Ideal ⟨3, ![n0, n1, n2]⟩ .f32) (init : FVec Ideal ⟨0, ![]⟩ .f32)
    (h' : (⟨3, ![n0, n1, n2]⟩ : Shape).ReducesTo [2] ⟨2, ![n0, n1]⟩)
    (h : (⟨3, ![n0, n1, n2]⟩ : Shape).Reduces [2] ⟨2, ![n0, n1]⟩) (hu : 0 < (⟨0, ![]⟩ : Shape).numel)
    (p : Fin n0) (q : Fin n1) :
    Host.reduce FloatOps.maximumf x init h' hu (ix2 p q)
      = (Finset.univ : Finset (Fin n2)).fold max (init (Shape.Idx.first hu)) (fun k => x (ix3 p q k)) := by
  refine (Host.reduce_eq_fold_single FloatOps.maximumf x init h' h hu (ix2 p q)).trans ?_
  refine congrArg (fun f => Finset.fold max (init (Shape.Idx.first hu)) f (Finset.univ : Finset (Fin n2))) ?_
  exact funext fun k => congrArg x (lift_last3 h p q k)

/-- The host's sum over the last axis of an `[n0, n1, n2]` array reads, at `(p, q)`, the initial value plus the sum over
    `k : Fin n2` of the array at `(p, q, k)`. -/
theorem hostReduceAdd_last3_apply {n0 n1 n2 : ℕ} (x : FVec Ideal ⟨3, ![n0, n1, n2]⟩ .f32) (init : FVec Ideal ⟨0, ![]⟩ .f32)
    (h' : (⟨3, ![n0, n1, n2]⟩ : Shape).ReducesTo [2] ⟨2, ![n0, n1]⟩)
    (h : (⟨3, ![n0, n1, n2]⟩ : Shape).Reduces [2] ⟨2, ![n0, n1]⟩) (hu : 0 < (⟨0, ![]⟩ : Shape).numel)
    (p : Fin n0) (q : Fin n1) :
    Host.reduceAdd x init h' hu (ix2 p q) = init (Shape.Idx.first hu) + ∑ k : Fin n2, x (ix3 p q k) := by
  rw [hostReduceAdd_apply, Ideal.hostReduceAdd_single h' h]
  refine congrArg (fun z => init (Shape.Idx.first hu) + z) ?_
  exact Finset.sum_congr rfl fun k _ => congrArg x (lift_last3 h p q k)

/-- The maximum of a value and a fold of `max` started from it is the fold. -/
theorem max_fold_self {n : ℕ} (c : EReal) (f : Fin n → EReal) :
    max c ((Finset.univ : Finset (Fin n)).fold max c f) = (Finset.univ : Finset (Fin n)).fold max c f :=
  max_eq_right ((Finset.le_fold_max _).mpr (Or.inl le_rfl))

end Cert.HostLastAxis

end
-- ==== Proof.RefReal.lean ====
/-
  Real-number bookkeeping for the quantization formulas.

  The named constants are the numbers their words denote; the extended reals that are real numbers are closed under
  every operation the formulas use (minimum, negation, rounding to an integer, a maximum of finitely many entries started
  at -∞ when there is at least one entry, a quotient by a positive real); a scale is a positive real; and the
  straight-through form `v + (q − v)` of a quantized value `q` is `q` itself when `v` and `q` are real numbers.
-/
import proofs.«126096_j50276887167090_1_alg».proof.Proof.Spec
import proofs.«126096_j50276887167090_1_alg».proof.Proof.LibFiniteReals
import Idealize.ShloMosaic.PureOps.Ideal
import Idealize.ShloMosaic.PureOps.Ideal.Laws

noncomputable section

namespace Cert.RefBridge

open Idealize.ShloMosaic Cert.FiniteReals

/-- An extended real that is a positive real number. -/
def IsPos (x : EReal) : Prop := ∃ r : ℝ, 0 < r ∧ x = (r : EReal)

theorem IsPos.isReal {x : EReal} (h : IsPos x) : IsReal x := by
  obtain ⟨r, _, e⟩ := h; exact ⟨r, e⟩

/-! ## The constants -/

theorem hi_eq : Cert.Spec.hi = ((127 : ℝ) : EReal) := by
  simp [Cert.Spec.hi, Ideal.ofBits, Ideal.ieee]
  exact_mod_cast (by norm_num : (16646144 : ℝ) * (2 ^ 17)⁻¹ = 127)

theorem lo_eq : Cert.Spec.lo = ((-128 : ℝ) : EReal) := by
  simp [Cert.Spec.lo, Ideal.ofBits, Ideal.ieee]
  exact_mod_cast (by norm_num : (8388608 : ℝ) * (2 ^ 16)⁻¹ = 128)

theorem one_eq : Cert.Spec.one = ((1 : ℝ) : EReal) := by
  simp [Cert.Spec.one, Ideal.ofBits, Ideal.ieee]
  exact_mod_cast (by norm_num : (8388608 : ℝ) * (2 ^ 23)⁻¹ = 1)

theorem mone_eq : Cert.Spec.mone = ((-1 : ℝ) : EReal) := by
  simp [Cert.Spec.mone, Ideal.ofBits, Ideal.ieee]
  exact_mod_cast (by norm_num : (8388608 : ℝ) * (2 ^ 23)⁻¹ = 1)

theorem zero_eq : Cert.Spec.zero = 0 := by
  simp [Cert.Spec.zero, Ideal.ofBits, Ideal.ieee]

theorem ninf_eq : Cert.Spec.ninf = ⊥ := by
  simp [Cert.Spec.ninf, Ideal.ofBits, Ideal.ieee]

theorem count_eq : Cert.Spec.count = ((16777216 : ℝ) : EReal) := by
  simp [Cert.Spec.count, Ideal.ofBits, Ideal.ieee]
  exact_mod_cast (by norm_num : (8388608 : ℝ) * 2 = 16777216)

theorem eps_eq : Cert.Spec.eps = ((10995116 * (2 ^ 40)⁻¹ : ℝ) : EReal) := by
  simp [Cert.Spec.eps, Ideal.ofBits, Ideal.ieee]

theorem isPos_eps : IsPos Cert.Spec.eps := ⟨_, by positivity, eps_eq⟩
theorem isPos_hi : IsPos Cert.Spec.hi := ⟨_, by norm_num, hi_eq⟩
theorem isPos_one : IsPos Cert.Spec.one := ⟨_, by norm_num, one_eq⟩
theorem isPos_count : IsPos Cert.Spec.count := ⟨_, by norm_num, count_eq⟩
theorem isReal_lo : IsReal Cert.Spec.lo := ⟨_, lo_eq⟩
theorem isReal_mone : IsReal Cert.Spec.mone := ⟨_, mone_eq⟩

/-! ## Closure of the real numbers under the operations -/

theorem isReal_min {x y : EReal} (hx : IsReal x) (hy : IsReal y) : IsReal (min x y) := by
  rcases min_cases x y with ⟨h, _⟩ | ⟨h, _⟩ <;> rw [h] <;> assumption

theorem isReal_neg {x : EReal} (hx : IsReal x) : IsReal (-x) := by
  obtain ⟨r, rfl⟩ := hx; exact ⟨-r, (EReal.coe_neg r).symm⟩

theorem isReal_abs {x : EReal} (hx : IsReal x) : IsReal (max x (-x)) := hx.max (isReal_neg hx)

theorem isReal_rnd {x : EReal} (hx : IsReal x) : IsReal (Cert.Spec.rnd x) := by
  obtain ⟨r, rfl⟩ := hx; exact ⟨(Ideal.roundHalfEven r : ℝ), rfl⟩

/-- A fold of `max` over a finite set is its starting value or one of the entries. -/
theorem fold_max_mem {ι : Type*} (s : Finset ι) (b : EReal) (f : ι → EReal) :
    s.fold max b f = b ∨ ∃ k ∈ s, s.fold max b f = f k := by
  classical
  induction s using Finset.induction_on with
  | empty => left; simp
  | insert a s ha ih =>
    rw [Finset.fold_insert ha]
    rcases max_cases (f a) (s.fold max b f) with ⟨h, _⟩ | ⟨h, _⟩
    · right; exact ⟨a, Finset.mem_insert_self a s, h⟩
    · rw [h]
      rcases ih with h' | ⟨k, hk, h'⟩
      · left; exact h'
      · right; exact ⟨k, Finset.mem_insert_of_mem hk, h'⟩

/-- The maximum of at least one real entry, started at -∞, is real. -/
theorem isReal_fold_max {n : ℕ} (hn : 0 < n) (f : Fin n → EReal) (hf : ∀ k, IsReal (f k)) :
    IsReal ((Finset.univ : Finset (Fin n)).fold max ⊥ f) := by
  rcases fold_max_mem Finset.univ ⊥ f with h | ⟨k, _, h⟩
  · exfalso
    have hle : f ⟨0, hn⟩ ≤ (Finset.univ : Finset (Fin n)).fold max ⊥ f :=
      (Finset.le_fold_max _).mpr (Or.inr ⟨⟨0, hn⟩, Finset.mem_univ _, le_rfl⟩)
    rw [h] at hle
    obtain ⟨r, hr⟩ := hf ⟨0, hn⟩
    rw [hr] at hle
    exact absurd (le_bot_iff.mp hle) (EReal.coe_ne_bot r)
  · rw [h]; exact hf k

/-- The larger of a positive real and a real is a positive real. -/
theorem isPos_max_left {x y : EReal} (hx : IsPos x) (hy : IsReal y) : IsPos (max x y) := by
  obtain ⟨r, hr, rfl⟩ := hx; obtain ⟨s, rfl⟩ := hy
  rcases le_total (r : EReal) (s : EReal) with h | h
  · rw [max_eq_right h]; exact ⟨s, lt_of_lt_of_le hr (EReal.coe_le_coe_iff.mp h), rfl⟩
  · rw [max_eq_left h]; exact ⟨r, hr, rfl⟩

theorem isPos_div {x y : EReal} (hx : IsPos x) (hy : IsPos y) : IsPos (Ideal.div x y) := by
  obtain ⟨r, hr, rfl⟩ := hx; obtain ⟨s, hs, rfl⟩ := hy
  exact ⟨r / s, div_pos hr hs, div_coe_coe r hs.ne'⟩

theorem isReal_div_pos {x y : EReal} (hx : IsReal x) (hy : IsPos y) : IsReal (Ideal.div x y) := by
  obtain ⟨s, hs, rfl⟩ := hy; exact hx.div_coe hs.ne'

/-- For real numbers `v + (q − v) = q`. -/
theorem add_sub_cancel_real {v q : EReal} (hv : IsReal v) (hq : IsReal q) : v + (q - v) = q := by
  obtain ⟨r, rfl⟩ := hv; obtain ⟨s, rfl⟩ := hq
  rw [← EReal.coe_sub, ← EReal.coe_add]
  exact congrArg _ (by ring)

/-! ## Activations -/

theorem isReal_rowAbsMax {n : ℕ} (hn : 0 < n) (f : Fin n → EReal) (hf : ∀ k, IsReal (f k)) :
    IsReal (Cert.Spec.rowAbsMax f) := by
  unfold Cert.Spec.rowAbsMax
  rw [ninf_eq]
  exact isReal_fold_max hn _ fun k => isReal_abs (hf k)

theorem isPos_scale {a : EReal} (ha : IsReal a) : IsPos (Cert.Spec.scale a) :=
  isPos_div isPos_hi (isPos_max_left isPos_eps ha)

theorem isReal_quant {s v : EReal} (hs : IsPos s) (hv : IsReal v) : IsReal (Cert.Spec.quant s v) :=
  isReal_div_pos (isReal_min isPos_hi.isReal (isReal_lo.max (isReal_rnd (hv.mul hs.isReal)))) hs

theorem isReal_act {n : ℕ} (hn : 0 < n) (f : Fin n → EReal) (hf : ∀ k, IsReal (f k)) (k : Fin n) :
    IsReal (Cert.Spec.act f k) :=
  isReal_quant (isPos_scale (isReal_rowAbsMax hn f hf)) (hf k)

/-- The straight-through form of a quantized row of real activations is the quantized row. -/
theorem act_ste {n : ℕ} (hn : 0 < n) (f : Fin n → EReal) (hf : ∀ k, IsReal (f k)) (k : Fin n) :
    f k + (Cert.Spec.quant (Cert.Spec.scale (Cert.Spec.rowAbsMax f)) (f k) - f k) = Cert.Spec.act f k :=
  add_sub_cancel_real (hf k) (isReal_act hn f hf k)

/-! ## Weights -/

theorem isReal_sumAbs {s : Shape} (w : s.Idx → EReal) (hw : ∀ j, IsReal (w j)) : IsReal (Cert.Spec.sumAbs w) := by
  unfold Cert.Spec.sumAbs
  rw [zero_eq]
  exact isReal_zero.add (IsReal.sum _ _ fun j _ => isReal_abs (hw j))

theorem isPos_wscale {S : EReal} (hS : IsReal S) : IsPos (Cert.Spec.wscale S) :=
  isPos_div isPos_one (isPos_max_left isPos_eps (isReal_div_pos hS isPos_count))

theorem isReal_wquant {s v : EReal} (hs : IsPos s) (hv : IsReal v) : IsReal (Cert.Spec.wquant s v) :=
  isReal_div_pos (isReal_min isPos_one.isReal (isReal_mone.max (isReal_rnd (hv.mul hs.isReal)))) hs

/-- The straight-through form of a quantized real weight is the quantized weight. -/
theorem wquant_ste {S v : EReal} (hS : IsReal S) (hv : IsReal v) :
    v + (Cert.Spec.wquant (Cert.Spec.wscale S) v - v) = Cert.Spec.wquant (Cert.Spec.wscale S) v :=
  add_sub_cancel_real hv (isReal_wquant (isPos_wscale hS) hv)

/-! ## The hidden layer -/

theorem isReal_hidden {D O : ℕ} (hD : 0 < D) (x : Fin D → EReal) (W1 : Fin O → Fin D → EReal)
    (hx : ∀ d, IsReal (x d)) (hW : ∀ o d, IsReal (W1 o d)) (o : Fin O) : IsReal (Cert.Spec.hidden x W1 o) := by
  unfold Cert.Spec.hidden
  rw [zero_eq]
  exact (IsReal.sum _ _ fun d _ => (isReal_act hD x hx d).mul (hW o d)).max isReal_zero

end Cert.RefBridge

end
-- ==== Proof.RefActX.lean ====
/-
  The reference's first quantized array, read at an index.

  The per-token scale of the input is, at token `(b, s)`, `127 / max(ε, max_k |x(b, s, k)|)`, and the array the first
  product consumes is at `(b, s, d)` the straight-through form `x + (q − x)` of the entry quantized at that scale.
-/
import proofs.«126096_j50276887167090_1_alg».proof.Proof.RefRead
import proofs.«126096_j50276887167090_1_alg».proof.Proof.Spec
import proofs.«126096_j50276887167090_1_alg».proof.Proof.LibHostLastAxis
import Idealize.ShloMosaic.Lib.ValueIdx
import Idealize.ShloMosaic.PureOps.Ideal
import Idealize.ShloMosaic.PureOps.Ideal.Laws

noncomputable section

namespace Cert.RefBridge

open Cert.ReferenceIdeal Cert.ReferenceIdeal.Read Idealize.ShloMosaic Idealize.ShloMosaic.ValueIdx

variable [Cert.ReferenceIdeal.Facts]

/-- The token of an entry, as an index of the array of scales. -/
theorem idx_v6_ix3 (b : Fin 4) (s : Fin 2048) (d : Fin 2048) : idx_main_v6 (ix3 b s d) = ix3 b s (0 : Fin 1) :=
  funext fun a => Fin.ext (by
    match a with
    | ⟨0, _⟩ => rfl
    | ⟨1, _⟩ => rfl
    | ⟨2, _⟩ => rfl)

theorem idx_v10_ix3 (b : Fin 4) (s : Fin 2048) (d : Fin 2048) : idx_main_v10 (ix3 b s d) = ix3 b s (0 : Fin 1) :=
  funext fun a => Fin.ext (by
    match a with
    | ⟨0, _⟩ => rfl
    | ⟨1, _⟩ => rfl
    | ⟨2, _⟩ => rfl)

theorem idx_v2_ix3 (b : Fin 4) (s : Fin 2048) : idx_main_v2 (ix3 b s (0 : Fin 1)) = ix2 b s :=
  funext fun a => Fin.ext (by
    match a with
    | ⟨0, _⟩ => rfl
    | ⟨1, _⟩ => rfl)

/-- The row maximum of the absolute values of the input, at a token. -/
theorem v1_read (x0 : FVec Ideal S4x2048x2048 .f32) (b : Fin 4) (s : Fin 2048) :
    val_main_v1 (F := Ideal) x0 (ix2 b s) = Cert.Spec.rowAbsMax (fun k : Fin 2048 => x0 (ix3 b s k)) := by
  unfold val_main_v1
  refine (Cert.HostLastAxis.hostReduce_max_last3_apply (val_main_v0 (F := Ideal) x0) (val_main_cst (F := Ideal)) _
    (by decide) _ b s).trans ?_
  rfl

/-- The scale of a token. -/
theorem v5_read (x0 : FVec Ideal S4x2048x2048 .f32) (b : Fin 4) (s : Fin 2048) :
    val_main_v5 (F := Ideal) x0 (ix3 b s (0 : Fin 1))
      = Cert.Spec.scale (Cert.Spec.rowAbsMax (fun k : Fin 2048 => x0 (ix3 b s k))) := by
  rw [val_main_v5_apply, val_main_v4_apply, val_main_cst_1_apply, val_main_v3_apply, val_main_call0_v1_apply,
    val_main_call0_v0_apply, val_main_cst_0_apply, val_main_v2_apply, idx_v2_ix3, v1_read]
  rfl

/-- The first product's left operand at an entry: the straight-through form of the quantized entry. -/
theorem v13_read (x0 : FVec Ideal S4x2048x2048 .f32) (b : Fin 4) (s : Fin 2048) (d : Fin 2048) :
    val_main_v13 (F := Ideal) x0 (ix3 b s d)
      = x0 (ix3 b s d)
        + (Cert.Spec.quant (Cert.Spec.scale (Cert.Spec.rowAbsMax (fun k : Fin 2048 => x0 (ix3 b s k)))) (x0 (ix3 b s d))
            - x0 (ix3 b s d)) := by
  rw [val_main_v13_apply, val_main_v12_apply, val_main_v11_apply, val_main_v9_apply, val_main_call2_v4_apply,
    val_main_call2_v3_apply, val_main_cst_3_apply, val_main_call2_v2_apply, val_main_call2_v1_apply,
    val_main_call2_v0_apply, val_main_cst_2_apply, val_main_v8_apply, val_main_v7_apply, val_main_v6_apply,
    val_main_v10_apply, idx_v6_ix3, idx_v10_ix3, v5_read]
  rfl

end Cert.RefBridge

end
-- ==== Proof.RefActH.lean ====
/-
  The reference's second quantized array, read at an index.

  With `h` the hidden layer, the per-token scale is at token `(b, s)` `127 / max(ε, max_k |h(b, s, k)|)`, and the
  array the second product consumes is at `(b, s, o)` the straight-through form `h + (q − h)` of the entry quantized at
  that scale.
-/
import proofs.«126096_j50276887167090_1_alg».proof.Proof.RefRead
import proofs.«126096_j50276887167090_1_alg».proof.Proof.Spec
import proofs.«126096_j50276887167090_1_alg».proof.Proof.LibHostLastAxis
import Idealize.ShloMosaic.Lib.ValueIdx
import Idealize.ShloMosaic.PureOps.Ideal
import Idealize.ShloMosaic.PureOps.Ideal.Laws

noncomputable section

namespace Cert.RefBridge

open Cert.ReferenceIdeal Cert.ReferenceIdeal.Read Idealize.ShloMosaic Idealize.ShloMosaic.ValueIdx

variable [Cert.ReferenceIdeal.Facts]

/-- The token of an entry, as an index of the array of scales. -/
theorem idx_v35_ix3 (b : Fin 4) (s : Fin 2048) (o : Fin 8192) : idx_main_v35 (ix3 b s o) = ix3 b s (0 : Fin 1) :=
  funext fun a => Fin.ext (by
    match a with
    | ⟨0, _⟩ => rfl
    | ⟨1, _⟩ => rfl
    | ⟨2, _⟩ => rfl)

theorem idx_v39_ix3 (b : Fin 4) (s : Fin 2048) (o : Fin 8192) : idx_main_v39 (ix3 b s o) = ix3 b s (0 : Fin 1) :=
  funext fun a => Fin.ext (by
    match a with
    | ⟨0, _⟩ => rfl
    | ⟨1, _⟩ => rfl
    | ⟨2, _⟩ => rfl)

theorem idx_v31_ix3 (b : Fin 4) (s : Fin 2048) : idx_main_v31 (ix3 b s (0 : Fin 1)) = ix2 b s :=
  funext fun a => Fin.ext (by
    match a with
    | ⟨0, _⟩ => rfl
    | ⟨1, _⟩ => rfl)

/-- The row maximum of the absolute values of the hidden layer, at a token. -/
theorem v30_read (x0 : FVec Ideal S4x2048x2048 .f32) (x1 : FVec Ideal S8192x2048 .f32) (b : Fin 4) (s : Fin 2048) :
    val_main_v30 (F := Ideal) x0 x1 (ix2 b s)
      = Cert.Spec.rowAbsMax (fun k : Fin 8192 => val_main_v28 (F := Ideal) x0 x1 (ix3 b s k)) := by
  unfold val_main_v30
  refine (Cert.HostLastAxis.hostReduce_max_last3_apply (val_main_v29 (F := Ideal) x0 x1) (val_main_cst_10 (F := Ideal)) _
    (by decide) _ b s).trans ?_
  rfl

/-- The scale of a token of the hidden layer. -/
theorem v34_read (x0 : FVec Ideal S4x2048x2048 .f32) (x1 : FVec Ideal S8192x2048 .f32) (b : Fin 4) (s : Fin 2048) :
    val_main_v34 (F := Ideal) x0 x1 (ix3 b s (0 : Fin 1))
      = Cert.Spec.scale (Cert.Spec.rowAbsMax (fun k : Fin 8192 => val_main_v28 (F := Ideal) x0 x1 (ix3 b s k))) := by
  rw [val_main_v34_apply, val_main_v33_apply, val_main_cst_12_apply, val_main_v32_apply, val_main_call7_v1_apply,
    val_main_call7_v0_apply, val_main_cst_11_apply, val_main_v31_apply, idx_v31_ix3, v30_read]
  rfl

/-- The second product's left operand at an entry: the straight-through form of the quantized hidden entry. -/
theorem v42_read (x0 : FVec Ideal S4x2048x2048 .f32) (x1 : FVec Ideal S8192x2048 .f32) (b : Fin 4) (s : Fin 2048)
    (o : Fin 8192) :
    val_main_v42 (F := Ideal) x0 x1 (ix3 b s o)
      = val_main_v28 (F := Ideal) x0 x1 (ix3 b s o)
        + (Cert.Spec.quant
              (Cert.Spec.scale (Cert.Spec.rowAbsMax (fun k : Fin 8192 => val_main_v28 (F := Ideal) x0 x1 (ix3 b s k))))
              (val_main_v28 (F := Ideal) x0 x1 (ix3 b s o))
            - val_main_v28 (F := Ideal) x0 x1 (ix3 b s o)) := by
  rw [val_main_v42_apply, val_main_v41_apply, val_main_v40_apply, val_main_v38_apply, val_main_call9_v4_apply,
    val_main_call9_v3_apply, val_main_cst_14_apply, val_main_call9_v2_apply, val_main_call9_v1_apply,
    val_main_call9_v0_apply, val_main_cst_13_apply, val_main_v37_apply, val_main_v36_apply, val_main_v35_apply,
    val_main_v39_apply, idx_v35_ix3, idx_v39_ix3, v34_read]
  rfl

end Cert.RefBridge

end
-- ==== Proof.RefW1.lean ====
/-
  The reference's quantized first weight matrix, read at an index.

  The per-tensor scale is `1 / max(ε, (0 + Σ |w|) / 2^24)`, and the array the first product consumes is at every index
  the straight-through form `w + (q − w)` of the weight quantized at that scale.
-/
import proofs.«126096_j50276887167090_1_alg».proof.Proof.RefRead
import proofs.«126096_j50276887167090_1_alg».proof.Proof.Spec
import Idealize.ShloMosaic.Lib.ValueIdx
import Idealize.ShloMosaic.PureOps.Ideal
import Idealize.ShloMosaic.PureOps.Ideal.Laws

noncomputable section

namespace Cert.RefBridge

open Cert.ReferenceIdeal Cert.ReferenceIdeal.Read Idealize.ShloMosaic Idealize.ShloMosaic.ValueIdx

variable [Cert.ReferenceIdeal.Facts]

/-- The scale of the first weight matrix. -/
theorem v18_read (x1 : FVec Ideal S8192x2048 .f32) (j : S_.Idx) :
    val_main_v18 (F := Ideal) x1 j = Cert.Spec.wscale (Cert.Spec.sumAbs x1) := by
  rw [val_main_v18_apply, val_main_cst_7_apply, val_main_v17_apply, val_main_call3_v0_apply, val_main_cst_6_apply,
    val_main_v16_apply, val_main_v15_apply, val_main_cst_5_apply, val_main_cst_4_apply]
  rfl

/-- The first product's right operand at an entry: the straight-through form of the quantized weight. -/
theorem v26_read (x1 : FVec Ideal S8192x2048 .f32) (i : S8192x2048.Idx) :
    val_main_v26 (F := Ideal) x1 i
      = x1 i + (Cert.Spec.wquant (Cert.Spec.wscale (Cert.Spec.sumAbs x1)) (x1 i) - x1 i) := by
  rw [val_main_v26_apply, val_main_v25_apply, val_main_v24_apply, val_main_v22_apply, val_main_call5_v4_apply,
    val_main_call5_v3_apply, val_main_cst_9_apply, val_main_call5_v2_apply, val_main_call5_v1_apply,
    val_main_call5_v0_apply, val_main_cst_8_apply, val_main_v21_apply, val_main_v20_apply, val_main_v19_apply,
    val_main_v23_apply]
  simp only [v18_read]
  rfl

end Cert.RefBridge

end
-- ==== Proof.RefW2.lean ====
/-
  The reference's quantized second weight matrix, read at an index.

  The per-tensor scale is `1 / max(ε, (0 + Σ |w|) / 2^24)`, and the array the second product consumes is at every index
  the straight-through form `w + (q − w)` of the weight quantized at that scale.
-/
import proofs.«126096_j50276887167090_1_alg».proof.Proof.RefRead
import proofs.«126096_j50276887167090_1_alg».proof.Proof.Spec
import Idealize.ShloMosaic.Lib.ValueIdx
import Idealize.ShloMosaic.PureOps.Ideal
import Idealize.ShloMosaic.PureOps.Ideal.Laws

noncomputable section

namespace Cert.RefBridge

open Cert.ReferenceIdeal Cert.ReferenceIdeal.Read Idealize.ShloMosaic Idealize.ShloMosaic.ValueIdx

variable [Cert.ReferenceIdeal.Facts]

/-- The scale of the second weight matrix. -/
theorem v47_read (x2 : FVec Ideal S2048x8192 .f32) (j : S_.Idx) :
    val_main_v47 (F := Ideal) x2 j = Cert.Spec.wscale (Cert.Spec.sumAbs x2) := by
  rw [val_main_v47_apply, val_main_cst_18_apply, val_main_v46_apply, val_main_call10_v0_apply, val_main_cst_17_apply,
    val_main_v45_apply, val_main_v44_apply, val_main_cst_16_apply, val_main_cst_15_apply]
  rfl

/-- The second product's right operand at an entry: the straight-through form of the quantized weight. -/
theorem v55_read (x2 : FVec Ideal S2048x8192 .f32) (i : S2048x8192.Idx) :
    val_main_v55 (F := Ideal) x2 i
      = x2 i + (Cert.Spec.wquant (Cert.Spec.wscale (Cert.Spec.sumAbs x2)) (x2 i) - x2 i) := by
  rw [val_main_v55_apply, val_main_v54_apply, val_main_v53_apply, val_main_v51_apply, val_main_call12_v4_apply,
    val_main_call12_v3_apply, val_main_cst_20_apply, val_main_call12_v2_apply, val_main_call12_v1_apply,
    val_main_call12_v0_apply, val_main_cst_19_apply, val_main_v50_apply, val_main_v49_apply, val_main_v48_apply,
    val_main_v52_apply]
  simp only [v47_read]
  rfl

end Cert.RefBridge

end
-- ==== Proof.RefValue.lean ====
/-
  The reference's result, read at an index, is the target function.

  For real inputs every straight-through form `v + (q − v)` in the reference is the quantized value `q`; so the hidden
  layer is `relu(quant(x) · quant(w1)ᵀ)` at every token, and the result is `quant(hidden) · quant(w2)ᵀ`.
-/
import proofs.«126096_j50276887167090_1_alg».proof.Proof.RefRead
import proofs.«126096_j50276887167090_1_alg».proof.Proof.Spec
import proofs.«126096_j50276887167090_1_alg».proof.Proof.LibFiniteReals
import proofs.«126096_j50276887167090_1_alg».proof.Proof.LibHostLastAxis
import proofs.«126096_j50276887167090_1_alg».proof.Proof.RefReal
import proofs.«126096_j50276887167090_1_alg».proof.Proof.RefActX
import proofs.«126096_j50276887167090_1_alg».proof.Proof.RefActH
import proofs.«126096_j50276887167090_1_alg».proof.Proof.RefW1
import proofs.«126096_j50276887167090_1_alg».proof.Proof.RefW2
import Idealize.ShloMosaic.Lib.ValueIdx
import Idealize.ShloMosaic.PureOps.Ideal
import Idealize.ShloMosaic.PureOps.Ideal.Laws

noncomputable section

namespace Cert.RefBridge

open Cert.ReferenceIdeal Cert.ReferenceIdeal.Read Idealize.ShloMosaic Idealize.ShloMosaic.ValueIdx Cert.FiniteReals

variable [Cert.ReferenceIdeal.Facts]

/-! ## The operand indices of the two products -/

theorem lidx_v27_ix3 (b : Fin 4) (s : Fin 2048) (o : Fin 8192) (k : Fin 2048) :
    lidx_main_v27 (ix3 b s o) k = ix3 b s k :=
  funext fun a => Fin.ext (by
    match a with
    | ⟨0, _⟩ => rfl
    | ⟨1, _⟩ => rfl
    | ⟨2, _⟩ => rfl)

theorem ridx_v27_ix3 (b : Fin 4) (s : Fin 2048) (o : Fin 8192) (k : Fin 2048) :
    ridx_main_v27 (ix3 b s o) k = ix2 o k :=
  funext fun a => Fin.ext (by
    match a with
    | ⟨0, _⟩ => rfl
    | ⟨1, _⟩ => rfl)

theorem lidx_v56_ix3 (b : Fin 4) (s : Fin 2048) (e : Fin 2048) (k : Fin 8192) :
    lidx_main_v56 (ix3 b s e) k = ix3 b s k :=
  funext fun a => Fin.ext (by
    match a with
    | ⟨0, _⟩ => rfl
    | ⟨1, _⟩ => rfl
    | ⟨2, _⟩ => rfl)

theorem ridx_v56_ix3 (b : Fin 4) (s : Fin 2048) (e : Fin 2048) (k : Fin 8192) :
    ridx_main_v56 (ix3 b s e) k = ix2 e k :=
  funext fun a => Fin.ext (by
    match a with
    | ⟨0, _⟩ => rfl
    | ⟨1, _⟩ => rfl)

/-! ## The hidden layer -/

/-- Every quantized weight of a real matrix is real. -/
theorem isReal_wq {s : Shape} (w : s.Idx → EReal) (hw : ∀ j, IsReal (w j)) (j : s.Idx) :
    IsReal (Cert.Spec.wquant (Cert.Spec.wscale (Cert.Spec.sumAbs w)) (w j)) :=
  isReal_wquant (isPos_wscale (isReal_sumAbs w hw)) (hw j)

/-- The hidden layer of the reference at `(b, s, o)`. -/
theorem v28_read (x0 : FVec Ideal S4x2048x2048 .f32) (x1 : FVec Ideal S8192x2048 .f32)
    (h0 : ∀ i, IsReal (x0 i)) (h1 : ∀ i, IsReal (x1 i)) (b : Fin 4) (s : Fin 2048) (o : Fin 8192) :
    val_main_v28 (F := Ideal) x0 x1 (ix3 b s o)
      = Cert.Spec.hidden (fun d : Fin 2048 => x0 (ix3 b s d))
          (fun (o : Fin 8192) (d : Fin 2048) => Cert.Spec.wquant (Cert.Spec.wscale (Cert.Spec.sumAbs x1)) (x1 (ix2 o d))) o := by
  rw [val_main_v28_apply, val_main_call6_v0_apply, val_main_call6_cst_apply, val_main_v27_apply]
  show max _ Cert.Spec.zero = max _ Cert.Spec.zero
  refine congrArg (fun z => max z Cert.Spec.zero) (Finset.sum_congr rfl fun k _ => ?_)
  rw [lidx_v27_ix3, ridx_v27_ix3, v13_read, v26_read,
    act_ste (by decide) (fun d : Fin 2048 => x0 (ix3 b s d)) (fun d => h0 _) k,
    wquant_ste (isReal_sumAbs x1 h1) (h1 _)]

/-- The second product's left operand at `(b, s, o)`: the quantized hidden layer. -/
theorem v42_value (x0 : FVec Ideal S4x2048x2048 .f32) (x1 : FVec Ideal S8192x2048 .f32)
    (h0 : ∀ i, IsReal (x0 i)) (h1 : ∀ i, IsReal (x1 i)) (b : Fin 4) (s : Fin 2048) (o : Fin 8192) :
    val_main_v42 (F := Ideal) x0 x1 (ix3 b s o)
      = Cert.Spec.act (Cert.Spec.hidden (fun d : Fin 2048 => x0 (ix3 b s d))
          (fun (o : Fin 8192) (d : Fin 2048) => Cert.Spec.wquant (Cert.Spec.wscale (Cert.Spec.sumAbs x1)) (x1 (ix2 o d)))) o := by
  have hH : (fun k : Fin 8192 => val_main_v28 (F := Ideal) x0 x1 (ix3 b s k))
      = Cert.Spec.hidden (fun d : Fin 2048 => x0 (ix3 b s d))
          (fun (o : Fin 8192) (d : Fin 2048) => Cert.Spec.wquant (Cert.Spec.wscale (Cert.Spec.sumAbs x1)) (x1 (ix2 o d))) :=
    funext fun k => v28_read x0 x1 h0 h1 b s k
  rw [v42_read, hH, v28_read x0 x1 h0 h1 b s o]
  exact act_ste (by decide) _
    (isReal_hidden (by decide) _ _ (fun d => h0 _) (fun o d => isReal_wq x1 h1 _)) o

/-! ## The result -/

/-- The reference's result at `(b, s, e)` is the target function of the token's row and the two quantized weight
    matrices. -/
theorem ref_value (x0 : FVec Ideal S4x2048x2048 .f32) (x1 : FVec Ideal S8192x2048 .f32) (x2 : FVec Ideal S2048x8192 .f32)
    (h0 : ∀ i, IsReal (x0 i)) (h1 : ∀ i, IsReal (x1 i)) (h2 : ∀ i, IsReal (x2 i))
    (b : Fin 4) (s : Fin 2048) (e : Fin 2048) :
    val_main_v56 (F := Ideal) x0 x1 x2 (ix3 b s e)
      = Cert.Spec.out (fun d : Fin 2048 => x0 (ix3 b s d))
          (fun (o : Fin 8192) (d : Fin 2048) => Cert.Spec.wquant (Cert.Spec.wscale (Cert.Spec.sumAbs x1)) (x1 (ix2 o d)))
          (fun (e' : Fin 2048) (o : Fin 8192) => Cert.Spec.wquant (Cert.Spec.wscale (Cert.Spec.sumAbs x2)) (x2 (ix2 e' o))) e := by
  rw [val_main_v56_apply]
  show (∑ k : Fin 8192, _) = ∑ o : Fin 8192, _
  refine Finset.sum_congr rfl fun k _ => ?_
  rw [lidx_v56_ix3, ridx_v56_ix3, v42_value x0 x1 h0 h1, v55_read, wquant_ste (isReal_sumAbs x2 h2) (h2 _)]

end Cert.RefBridge

end
-- ==== Proof.lean ====
/-
  The certificate of a two-layer quantized feed-forward block.

  Both programs quantize each token's activations to 8 bits with the token's own scale (127 over the row's absolute
  maximum, kept away from zero by a small constant), quantize each weight matrix to {-1, 0, 1} with one scale per
  matrix (the reciprocal of the mean absolute weight), multiply, clamp at zero, quantize the hidden row again with the
  scale of ITS absolute maximum, and multiply by the second quantized matrix.  The kernel does this in two pipelined
  launches over row blocks of 512 tokens — the first walks the 8192 hidden columns in eight blocks, keeping the running
  row maximum in a scratch buffer; the second walks the same eight blocks as the contracted axis, keeping the running
  sum in a scratch buffer — and quantizes the weights beforehand with plain array operations.  The reference writes
  every quantized array as `a + (q(a) − a)`, which is `q(a)` as soon as both are real numbers: that is where the
  precondition (every input finite) is used.  Over the extended reals the order of a sum and the grouping of a maximum
  do not matter, a change of float format is the identity, and the kernel's matrix unit and the reference's contraction
  are the same sum; so both results are the one function `Cert.Spec.out` of the inputs, entry by entry.

  The three frames: each program runs to the end, faults nowhere, and leaves its inputs as launched — for the kernel
  (at the word level and idealized) from the run of its sixteen segments, for the reference from its run.
-/
import proofs.«126096_j50276887167090_1_alg».proof.Defs
import proofs.«126096_j50276887167090_1_alg».proof.Proof.Gen.Kernel
import proofs.«126096_j50276887167090_1_alg».proof.Proof.Gen.KernelIdeal
import proofs.«126096_j50276887167090_1_alg».proof.Proof.Gen.ReferenceIdeal
import proofs.«126096_j50276887167090_1_alg».proof.Proof.Gen.Pre_finite_inputs
import proofs.«126096_j50276887167090_1_alg».proof.Proof.KRun
import proofs.«126096_j50276887167090_1_alg».proof.Proof.KIRun
import proofs.«126096_j50276887167090_1_alg».proof.Proof.KIAssemble
import proofs.«126096_j50276887167090_1_alg».proof.Proof.KIValue0
import proofs.«126096_j50276887167090_1_alg».proof.Proof.KIHost
import proofs.«126096_j50276887167090_1_alg».proof.Proof.RefRunBVal
import proofs.«126096_j50276887167090_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its inputs unchanged. -/
theorem frame_p : Cert.frame_Kernel := fun m ρ _ =>
  (θ_run Cert.Kernel.defs _ _).mono (fun _ h c => (h c).2) (Cert.Kernel.Hand.run_main (F := Bits) m ρ)

/-- The idealized kernel runs and leaves its inputs unchanged. -/
theorem frame_pi : Cert.frame_KernelIdeal := fun m ρ _ =>
  (θ_run Cert.KernelIdeal.defs _ _).mono (fun _ h c => (h c).2) (Cert.KernelIdeal.Hand.run_main (F := Ideal) m ρ)

/-- The reference runs and leaves its inputs unchanged. -/
theorem frame_ri : Cert.frame_ReferenceIdeal := fun m ρ _ =>
  (θ_run Cert.ReferenceIdeal.defs _ _).mono (fun _ h c => (h c).2) (Cert.ReferenceIdeal.RunB.run (F := Ideal) m ρ)

/-- The idealization rewrote no operation. -/
theorem preserves : Cert.preserves_Kernel_KernelIdeal := trivial

/-- From inputs that agree and are finite, both idealized programs end with the same array: entry `(b, s, e)` is
    `Cert.Spec.out` of token `(b, s)` and the two quantized weight matrices, at `e`. -/
theorem algebraic : Cert.algebraic_KernelIdeal_ReferenceIdeal := by
  intro m ρ m' ρ' hpre hagree
  refine ⟨fun c => Cert.KernelIdeal.Hand.W16 m c Cert.KernelIdeal.main_v27, Cert.KernelIdeal.Hand.run_main (F := Ideal) m ρ, ?_⟩
  refine (θ_run Cert.ReferenceIdeal.defs _ _).mono (fun _ h c => ⟨(h c).1.trans ?_, (h c).2⟩)
    (Cert.ReferenceIdeal.RunB.run (F := Ideal) m' ρ')
  rw [(hagree c).1, (hagree c).2.1, (hagree c).2.2]
  obtain ⟨h0, h1, h2⟩ := Cert.KernelIdeal.HostReads.inputs_real m c hpre
  funext i
  obtain ⟨b, s, e, rfl⟩ : ∃ (b : Fin 4) (s : Fin 2048) (e : Fin 2048), i = ix3 b s e := ⟨i 0, i 1, i 2, eq_ix3 i⟩
  refine (Cert.RefBridge.ref_value _ _ _ h0 h1 h2 b s e).trans ?_
  exact (Cert.KernelIdeal.Assemble.result_apply
    (fun V c r o => Cert.KernelIdeal.Value0.hidden_eq V c r o) (fun V c r u => Cert.KernelIdeal.Value0.rowmax_eq V c r u)
    (fun m c o d => Cert.KernelIdeal.HostReads.w1q_apply m c o d) (fun m c e o => Cert.KernelIdeal.HostReads.w2q_apply m c e o)
    m c b s e).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
